-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100x128 : Shape := ⟨2, ![100, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S47 .f32) (main_arg9 : FVec F S128x47 .f32) (main_v33 : IVec S_ 1) : IVec S_ 1 :=
  let main_v34 : FVec F S47 .f32 := Host.absf main_arg8
  let main_cst_12 : FVec F S_ .f32 := constant S_ .f32 0x7F800000#32
  let main_v35 : FVec F S47 .f32 := broadcastInDim S47 ![] bcast_S_S47 main_cst_12
  let main_v36 : IVec S47 1 := cmpf .olt main_v34 main_v35
  let main_c_13 : IVec S_ 1 := constantI S_ 1 1#1
  let main_v37 : IVec S_ 1 := (fun x v => Host.reduce IntOp.andi x v reducesTo_S47_S_d0 h_S_) main_v36 main_c_13
  let main_v38 : IVec S_ 1 := andi main_v33 main_v37
  let main_v39 : FVec F S128x47 .f32 := Host.absf main_arg9
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  main_v43

def fn_part1 {F : FTy → Type} [FloatOps F] (main_arg5 : FVec F S3x128 .f32) (main_arg6 : FVec F S3x128x128 .f32) (main_arg7 : FVec F S128x47 .f32) (main_arg8 : FVec F S47 .f32) (main_arg9 : FVec F S128x47 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128x47 .f32 := Host.absf main_arg7
  let main_cst_10 : FVec F S_ .f32 := constant S_ .f32 0x7F800000#32
  let main_v30 : FVec F S128x47 .f32 := broadcastInDim S128x47 ![] bcast_S_S128x47 main_cst_10
  let main_v31 : IVec S128x47 1 := cmpf .olt main_v29 main_v30
  let main_c_11 : IVec S_ 1 := constantI S_ 1 1#1
  let main_v32 : IVec S_ 1 := (fun x v => Host.reduce IntOp.andi x v reducesTo_S128x47_S_d0_1 h_S_) main_v31 main_c_11
  let main_v33 : IVec S_ 1 := andi main_v28 main_v32
  fn_part2 (F := F) main_arg8 main_arg9 main_v33

def fn {F : FTy → Type} [FloatOps F] (main_arg0 : FVec F S100000x100 .f32) (main_arg1 : IVec S2x1600000 32) (main_arg2 : FVec F S100x128 .f32) (main_arg3 : FVec F S128 .f32) (main_arg4 : FVec F S3x128x128 .f32) (main_arg5 : FVec F S3x128 .f32) (main_arg6 : FVec F S3x128x128 .f32) (main_arg7 : FVec F S128x47 .f32) (main_arg8 : FVec F S47 .f32) (main_arg9 : FVec F S128x47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x128 .f32 := Host.absf main_arg2
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S100000x100 : Shape := ⟨2, ![100000, 100]⟩
abbrev S2x1600000 : Shape := ⟨2, ![2, 1600000]⟩
abbrev S100x128 : Shape := ⟨2, ![100, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x100 : Shape := ⟨2, ![4000, 100]⟩
abbrev S4000x128 : Shape := ⟨2, ![4000, 128]⟩
abbrev S1x128 : Shape := ⟨2, ![1, 128]⟩
abbrev S1600000x128 : Shape := ⟨2, ![1600000, 128]⟩
abbrev S1x128x128 : Shape := ⟨3, ![1, 128, 128]⟩
abbrev S128x128 : Shape := ⟨2, ![128, 128]⟩
abbrev S4000x1 : Shape := ⟨2, ![4000, 1]⟩
abbrev S100000x47 : Shape := ⟨2, ![100000, 47]⟩
abbrev S4000x47 : Shape := ⟨2, ![4000, 47]⟩
abbrev S1600000x47 : Shape := ⟨2, ![1600000, 47]⟩
abbrev S1x47 : Shape := ⟨2, ![1, 47]⟩
abbrev S4000 : Shape := ⟨1, ![4000]⟩

abbrev nBuf : Space → Nat
  | .hbm => 111
  | .vmem => 62
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S128x47, .f32⟩
  | .hbm, ⟨8, _⟩ => ⟨S47, .f32⟩
  | .hbm, ⟨9, _⟩ => ⟨S128x47, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x128, .f32⟩
  | .hbm, ⟨28, _⟩ => ⟨S100000x128, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .bf16⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .bf16⟩
  | .hbm, ⟨44, _⟩ => ⟨S1x128x128, .f32⟩
  | .hbm, ⟨45, _⟩ => ⟨S128x128, .f32⟩
  | .hbm, ⟨46, _⟩ => ⟨S1x128, .f32⟩
  | .hbm, ⟨47, _⟩ => ⟨S128, .f32⟩
  | .hbm, ⟨48, _⟩ => ⟨S1x128x128, .f32⟩
  | .hbm, ⟨49, _⟩ => ⟨S128x128, .f32⟩
  | .hbm, ⟨50, _⟩ => ⟨S100000x128, .bf16⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .bf16⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .bf16⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1x128x128, .f32⟩
  | .hbm, ⟨71, _⟩ => ⟨S128x128, .f32⟩
  | .hbm, ⟨72, _⟩ => ⟨S100000x128, .bf16⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .bf16⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .bf16⟩
  | .hbm, ⟨88, _⟩ => ⟨S1x128x128, .f32⟩
  | .hbm, ⟨89, _⟩ => ⟨S128x128, .f32⟩
  | .hbm, ⟨90, _⟩ => ⟨S1x128, .f32⟩
  | .hbm, ⟨91, _⟩ => ⟨S128, .f32⟩
  | .hbm, ⟨92, _⟩ => ⟨S1x128x128, .f32⟩
  | .hbm, ⟨93, _⟩ => ⟨S128x128, .f32⟩
  | .hbm, ⟨94, _⟩ => ⟨S100000x128, .bf16⟩
  | .hbm, ⟨95, _⟩ => ⟨S100000x47, .bf16⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x47, .bf16⟩
  | .hbm, ⟨105, _⟩ => ⟨S1600000x47, .f32⟩
  | .hbm, ⟨106, _⟩ => ⟨S_, .f32⟩
  | .hbm, ⟨107, _⟩ => ⟨S100000x47, .f32⟩
  | .hbm, ⟨108, _⟩ => ⟨S1600000x1, .i32⟩
  | .hbm, ⟨109, _⟩ => ⟨S100000x47, .f32⟩
  | .hbm, ⟨110, _⟩ => ⟨S100000x47, .f32⟩
  | .local _ .vmem, ⟨0, _⟩ => ⟨S4000x100, .f32⟩
  | .local _ .vmem, ⟨1, _⟩ => ⟨S4000x100, .f32⟩
  | .local _ .vmem, ⟨2, _⟩ => ⟨S100x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .bf16⟩
  | .local _ .vmem, ⟨7, _⟩ => ⟨S4000x128, .bf16⟩
  | .local _ .vmem, ⟨8, _⟩ => ⟨S4000x128, .bf16⟩
  | .local _ .vmem, ⟨9, _⟩ => ⟨S4000x128, .bf16⟩
  | .local _ .vmem, ⟨10, _⟩ => ⟨S4000x1, .f32⟩
  | .local _ .vmem, ⟨11, _⟩ => ⟨S4000x1, .f32⟩
  | .local _ .vmem, ⟨12, _⟩ => ⟨S4000x128, .bf16⟩
  | .local _ .vmem, ⟨13, _⟩ => ⟨S4000x128, .bf16⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .bf16⟩
  | .local _ .vmem, ⟨20, _⟩ => ⟨S4000x128, .bf16⟩
  | .local _ .vmem, ⟨21, _⟩ => ⟨S4000x128, .bf16⟩
  | .local _ .vmem, ⟨22, _⟩ => ⟨S4000x128, .bf16⟩
  | .local _ .vmem, ⟨23, _⟩ => ⟨S4000x1, .f32⟩
  | .local _ .vmem, ⟨24, _⟩ => ⟨S4000x1, .f32⟩
  | .local _ .vmem, ⟨25, _⟩ => ⟨S4000x128, .bf16⟩
  | .local _ .vmem, ⟨26, _⟩ => ⟨S4000x128, .bf16⟩
  | .local _ .vmem, ⟨27, _⟩ => ⟨S128x128, .f32⟩
  | .local _ .vmem, ⟨28, _⟩ => ⟨S128, .f32⟩
  | .local _ .vmem, ⟨29, _⟩ => ⟨S128x128, .f32⟩
  | .local _ .vmem, ⟨30, _⟩ => ⟨S4000x128, .f32⟩
  | .local _ .vmem, ⟨31, _⟩ => ⟨S4000x128, .f32⟩
  | .local _ .vmem, ⟨32, _⟩ => ⟨S4000x128, .bf16⟩
  | .local _ .vmem, ⟨33, _⟩ => ⟨S4000x128, .bf16⟩
  | .local _ .vmem, ⟨34, _⟩ => ⟨S4000x128, .bf16⟩
  | .local _ .vmem, ⟨35, _⟩ => ⟨S4000x128, .bf16⟩
  | .local _ .vmem, ⟨36, _⟩ => ⟨S4000x1, .f32⟩
  | .local _ .vmem, ⟨37, _⟩ => ⟨S4000x1, .f32⟩
  | .local _ .vmem, ⟨38, _⟩ => ⟨S4000x128, .bf16⟩
  | .local _ .vmem, ⟨39, _⟩ => ⟨S4000x128, .bf16⟩
  | .local _ .vmem, ⟨40, _⟩ => ⟨S128x128, .f32⟩
  | .local _ .vmem, ⟨41, _⟩ => ⟨S128, .f32⟩
  | .local _ .vmem, ⟨42, _⟩ => ⟨S128x128, .f32⟩
  | .local _ .vmem, ⟨43, _⟩ => ⟨S4000x128, .f32⟩
  | .local _ .vmem, ⟨44, _⟩ => ⟨S4000x128, .f32⟩
  | .local _ .vmem, ⟨45, _⟩ => ⟨S4000x128, .bf16⟩
  | .local _ .vmem, ⟨46, _⟩ => ⟨S4000x128, .bf16⟩
  | .local _ .vmem, ⟨47, _⟩ => ⟨S4000x128, .bf16⟩
  | .local _ .vmem, ⟨48, _⟩ => ⟨S4000x128, .bf16⟩
  | .local _ .vmem, ⟨49, _⟩ => ⟨S128x47, .f32⟩
  | .local _ .vmem, ⟨50, _⟩ => ⟨S4000x47, .bf16⟩
  | .local _ .vmem, ⟨51, _⟩ => ⟨S4000x47, .bf16⟩
  | .local _ .vmem, ⟨52, _⟩ => ⟨S4000x47, .f32⟩
  | .local _ .vmem, ⟨53, _⟩ => ⟨S4000x47, .f32⟩
  | .local _ .vmem, ⟨54, _⟩ => ⟨S4000x1, .f32⟩
  | .local _ .vmem, ⟨55, _⟩ => ⟨S4000x1, .f32⟩
  | .local _ .vmem, ⟨56, _⟩ => ⟨S4000x128, .bf16⟩
  | .local _ .vmem, ⟨57, _⟩ => ⟨S4000x128, .bf16⟩
  | .local _ .vmem, ⟨58, _⟩ => ⟨S128x47, .f32⟩
  | .local _ .vmem, ⟨59, _⟩ => ⟨S47, .f32⟩
  | .local _ .vmem, ⟨60, _⟩ => ⟨S4000x47, .f32⟩
  | .local _ .vmem, ⟨61, _⟩ => ⟨S4000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_11 : Ref sig .tc := ⟨.hbm, 96, rfl⟩
abbrev main_v72 : Ref sig .tc := ⟨.hbm, 97, rfl⟩
abbrev main_v73 : Ref sig .tc := ⟨.hbm, 98, rfl⟩
abbrev main_c_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg2_0 : Ref sig .tc := ⟨.vmem, 50, rfl⟩
abbrev cc4_stg2_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg5_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem6_1 : DmaSem sig := 44
abbrev cc3_sem7_0 : DmaSem sig := 45
abbrev cc3_sem7_1 : DmaSem sig := 46
abbrev cc4_sem0_0 : DmaSem sig := 47
abbrev cc4_sem0_1 : DmaSem sig := 48
abbrev cc4_sem1_0 : DmaSem sig := 49
abbrev cc4_sem2_0 : DmaSem sig := 50
abbrev cc4_sem2_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem4_0 : DmaSem sig := 59
abbrev cc5_sem5_0 : DmaSem sig := 60
abbrev cc5_sem5_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x47 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x47 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x47 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x47 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S47 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x47 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x100_S4000x100_0_0 : ∀ a, (![0, 0] : Fin 2 → Nat) a + S4000x100.size a ≤ S4000x100.size a
  h_S4000x100 : 0 < S4000x100.numel
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x47_S128x47_0_0 : ∀ a, (![0, 0] : Fin 2 → Nat) a + S128x47.size a ≤ S128x47.size a
  h_S128x47 : 0 < S128x47.numel
  inb_S4000x47_S4000x47_0_0 : ∀ a, (![0, 0] : Fin 2 → Nat) a + S4000x47.size a ≤ S4000x47.size a
  h_S4000x47 : 0 < S4000x47.numel
  packedbf16_S4000x47_S4000x47_0_0 : (Rect.unit (s := S4000x47) ![0, 0] S4000x47.size inb_S4000x47_S4000x47_0_0).PackedRows (EltTy.packing .bf16)
  bcast_S_S100000x47 : S_.BroadcastsInDim S100000x47 (![] : Fin 0 → Fin S100000x47.rank)
  shapeCasts_S4000x47_S4000x47 : S4000x47.ShapeCasts S4000x47
  broadcasts_S4000x1_S4000x47 : S4000x1.Broadcasts S4000x47
  inb_S47_S47_0 : ∀ a, (![0] : Fin 1 → Nat) a + S47.size a ≤ S47.size a
  h_S47 : 0 < S47.numel
  shapeCasts_S47_S1x47 : S47.ShapeCasts S1x47
  broadcasts_S1x47_S4000x47 : S1x47.Broadcasts S4000x47
  reduces_S4000x47_S4000 : S4000x47.Reduces [1] S4000
  shapeCasts_S4000_S4000x1 : S4000.ShapeCasts S4000x1
  scatter_S100000_S1600000x1_S1600000_n_0_0_1_wf : ScatterDims.WF S100000 S1600000x1 S1600000 [] [0] [0] 1
  dot_S4000x100_S100x128_S4000x128_1_0_0_1_n_n_wf : DotDims.WF S4000x100 S100x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x47_S4000x47_1_0_0_1_n_n_wf : DotDims.WF S4000x128 S128x47 S4000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S100000x100.size a
  hwx0_0 : ∀ i : grid0.Coords, EltTy.bits .f32 = 32 ∨ (Rect.block (s := S100000x100) S4000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .bf16 = 32 ∨ (Rect.block (s := S100000x128) S4000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .bf16 = 32 ∨ (Rect.block (s := S100000x128) S4000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .bf16 = 32 ∨ (Rect.block (s := S100000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S100000x128.size a
  hwx2_7 : ∀ i : grid2.Coords, EltTy.bits .bf16 = 32 ∨ (Rect.block (s := S100000x128) S4000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .bf16 = 32 ∨ (Rect.block (s := S100000x128) S4000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .bf16 = 32 ∨ (Rect.block (s := S100000x128) S4000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S100000x128.size a
  hwx3_6 : ∀ i : grid3.Coords, EltTy.bits .f32 = 32 ∨ (Rect.block (s := S100000x128) S4000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .bf16 = 32 ∨ (Rect.block (s := S100000x128) S4000x128.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .bf16 = 32 ∨ (Rect.block (s := S100000x128) S4000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x47.size a ≤ S128x47.size a
  hwx4_1 : ∀ i : grid4.Coords, EltTy.bits .f32 = 32 ∨ (Rect.block (s := S128x47) S128x47.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x47.size a ≤ S100000x47.size a
  hwx4_2 : ∀ i : grid4.Coords, EltTy.bits .bf16 = 32 ∨ (Rect.block (s := S100000x47) S4000x47.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x47.size a ≤ S100000x47.size a
  hwx5_0 : ∀ i : grid5.Coords, EltTy.bits .f32 = 32 ∨ (Rect.block (s := S100000x47) S4000x47.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .bf16 = 32 ∨ (Rect.block (s := S100000x128) S4000x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x47.size a ≤ S128x47.size a
  hwx5_3 : ∀ i : grid5.Coords, EltTy.bits .f32 = 32 ∨ (Rect.block (s := S128x47) S128x47.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S47.size a ≤ S47.size a
  hwx5_4 : ∀ i : grid5.Coords, EltTy.bits .f32 = 32 ∨ (Rect.block (s := S47) S47.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x47.size a ≤ S100000x47.size a
  hwx5_5 : ∀ i : grid5.Coords, EltTy.bits .f32 = 32 ∨ (Rect.block (s := S100000x47) S4000x47.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x100_S100x128_S4000x128_1_0_0_1_n_n : DotDims S4000x100 S100x128 S4000x128 where
  lhsContracting := [1]
  rhsContracting := [0]
  lhsNonContracting := [0]
  rhsNonContracting := [1]
  lhsBatch := []
  rhsBatch := []
  wf := dot_S4000x100_S100x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

abbrev win0_0 : Pipeline.Window sig grid0 :=
  Pipeline.Window.ofSpec (Memref.whole main_arg0) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_1) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13_0) S4000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13_0) S4000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v51) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v63) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v13_0) S4000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v70) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v70) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x47.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S4000x47.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S4000x47.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S128x47.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg8) S47.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S4000x47.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100x128 : Shape := ⟨2, ![100, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1600000x128 : Shape := ⟨2, ![1600000, 128]⟩
abbrev S100000x47 : Shape := ⟨2, ![100000, 47]⟩
abbrev S1x47 : Shape := ⟨2, ![1, 47]⟩

abbrev nBuf : Space → Nat
  | .hbm => 169
  | .vmem => 0
  | .smem => 0
  | _ => 0

abbrev hbmTy0_0 (i : Nat) : BufTy := match i % 128 with
  | 0 => ⟨S100000x100, .f32⟩
  | 1 => ⟨S2x1600000, .i32⟩
  | 2 => ⟨S100x128, .f32⟩
  | 3 => ⟨S128, .f32⟩
  | 4 => ⟨S3x128x128, .f32⟩
  | 5 => ⟨S3x128, .f32⟩
  | 6 => ⟨S3x128x128, .f32⟩
  | 7 => ⟨S128x47, .f32⟩
  | 8 => ⟨S47, .f32⟩
  | 9 => ⟨S128x47, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S1x128x128, .f32⟩
  | 32 => ⟨S128x128, .f32⟩
  | 33 => ⟨S1x128, .f32⟩
  | 34 => ⟨S128, .f32⟩
  | 35 => ⟨S1x128x128, .f32⟩
  | 36 => ⟨S128x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000x128, .f32⟩
  | 65 => ⟨S1x128x128, .f32⟩
  | 66 => ⟨S128x128, .f32⟩
  | 67 => ⟨S1x128, .f32⟩
  | 68 => ⟨S128, .f32⟩
  | 69 => ⟨S1x128x128, .f32⟩
  | 70 => ⟨S128x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S_, .f32⟩
  | 81 => ⟨S100000x128, .f32⟩
  | 82 => ⟨S1600000x1, .i32⟩
  | 83 => ⟨S100000x128, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S1x128x128, .f32⟩
  | 100 => ⟨S128x128, .f32⟩
  | 101 => ⟨S1x128, .f32⟩
  | 102 => ⟨S128, .f32⟩
  | 103 => ⟨S1x128x128, .f32⟩
  | 104 => ⟨S128x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S100000x128, .f32⟩
  | 125 => ⟨S100000x128, .f32⟩
  | 126 => ⟨S_, .f32⟩
  | 127 => ⟨S100000x128, .f32⟩
  | _ => ⟨S100000x100, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x128, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S100000x128, .f32⟩
  | 19 => ⟨S100000x128, .f32⟩
  | 20 => ⟨S100000x47, .f32⟩
  | 21 => ⟨S1x47, .f32⟩
  | 22 => ⟨S100000x47, .f32⟩
  | 23 => ⟨S100000x47, .f32⟩
  | 24 => ⟨S100000x47, .f32⟩
  | 25 => ⟨S100000x47, .f32⟩
  | 26 => ⟨S_, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x47, .f32⟩
  | 33 => ⟨S100000x47, .f32⟩
  | 34 => ⟨S100000x47, .f32⟩
  | 35 => ⟨S_, .f32⟩
  | 36 => ⟨S100000, .f32⟩
  | 37 => ⟨S100000x1, .f32⟩
  | 38 => ⟨S100000x1, .f32⟩
  | 39 => ⟨S100000x47, .f32⟩
  | 40 => ⟨S100000x47, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_cst : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call1_cst : Ref sig .tc := ⟨.hbm, 58, rfl⟩
abbrev main_call1_v0 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_5 : Ref sig .tc := ⟨.hbm, 71, rfl⟩
abbrev main_v50 : Ref sig .tc := ⟨.hbm, 72, rfl⟩
abbrev main_v51 : Ref sig .tc := ⟨.hbm, 73, rfl⟩
abbrev main_c_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call2_cst : Ref sig .tc := ⟨.hbm, 92, rfl⟩
abbrev main_call2_v0 : Ref sig .tc := ⟨.hbm, 93, rfl⟩
abbrev main_v68 : Ref sig .tc := ⟨.hbm, 94, rfl⟩
abbrev main_cst_8 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_9 : Ref sig .tc := ⟨.hbm, 105, rfl⟩
abbrev main_v78 : Ref sig .tc := ⟨.hbm, 106, rfl⟩
abbrev main_v79 : Ref sig .tc := ⟨.hbm, 107, rfl⟩
abbrev main_c_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_11 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call3_cst : Ref sig .tc := ⟨.hbm, 126, rfl⟩
abbrev main_call3_v0 : Ref sig .tc := ⟨.hbm, 127, rfl⟩
abbrev main_v96 : Ref sig .tc := ⟨.hbm, 128, rfl⟩
abbrev main_cst_12 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_13 : Ref sig .tc := ⟨.hbm, 133, rfl⟩
abbrev main_v100 : Ref sig .tc := ⟨.hbm, 134, rfl⟩
abbrev main_v101 : Ref sig .tc := ⟨.hbm, 135, rfl⟩
abbrev main_c_14 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_15 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_call4_cst : Ref sig .tc := ⟨.hbm, 154, rfl⟩
abbrev main_call4_v0 : Ref sig .tc := ⟨.hbm, 155, rfl⟩
abbrev main_call4_cst_0 : Ref sig .tc := ⟨.hbm, 156, rfl⟩
abbrev main_call4_v1 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_v6 : Ref sig .tc := ⟨.hbm, 162, rfl⟩
abbrev main_call4_cst_1 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_v118 : Ref sig .tc := ⟨.hbm, 168, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S100000x1_S100000x47_0_1 : S100000x1.BroadcastsInDim S100000x47 (![0, 1] : Fin 2 → Fin S100000x47.rank)
  scatter_S100000_S1600000x1_S1600000_n_0_0_1_wf : ScatterDims.WF S100000 S1600000x1 S1600000 [] [0] [0] 1
  dot_S100000x100_S100x128_S100000x128_1_0_0_1_n_n_wf : DotDims.WF S100000x100 S100x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x100_S100x128_S100000x128_1_0_0_1_n_n : DotDims S100000x100 S100x128 S100000x128 where
  lhsContracting := [1]
  rhsContracting := [0]
  lhsNonContracting := [0]
  rhsNonContracting := [1]
  lhsBatch := []
  rhsBatch := []
  wf := dot_S100000x100_S100x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.KRun.lean ====
/-
  The run of the idealized kernel program with its result named.

  The program is six kernel regions among stretches of host operations. Its run ends, on every core, with every buffer
  that outlives a region at the contents the last boundary of the walk through the program gives it (`Gen.W11`): the
  result buffer at what the last region leaves in it, the ten arguments as launched.
-/
import proofs.«108666_j83519934038393_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_value : θ_run defs (onTc (τ := τ) (main (F := F))) ⟨m, fun _ => 0, ρ⟩ (fun r => ∀ c : Dev nD,
      r.2.mem ((c.tc : Thread nD τ).loc main_v83) = W11 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v83 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.KRun

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«108666_j83519934038393_2_alg».proof.Proof.LibPlainContract
import proofs.«108666_j83519934038393_2_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.Stages.lean ====
/-
  The stages of a four-layer neighbourhood-averaging network, each as ONE function of whole arrays, entry by entry,
  at exact (extended real) values.  Rows are nodes; `N` is the number of nodes.

    inproj X W b      (p, q) ↦ Σ_k X[p,k]·W[k,q] + b[q]                      the input projection
    relu A            (p, q) ↦ max(A[p,q], 0)
    hidK S c h …      one hidden layer with the neighbour sum S scaled AFTER its product, by the factor c[p] = 1/d[p]
    hidR S d h …      the same layer with the neighbour sum divided by d[p] BEFORE its product
    proj h W          (p, q) ↦ Σ_k h[p,k]·W[k,q]
    logitsK Z c h …   the last layer's scores from the neighbour sum Z of the already projected rows
    logitsR S d h …   the same scores from the neighbour sum S of the unprojected rows, divided, then projected
    lsm v             (p, q) ↦ (v[p,q] − max_j v[p,j]) − log Σ_j exp(v[p,j] − max_j v[p,j])   the row-wise log-softmax
-/
import Idealize.ShloMosaic.PureOps.Ideal.Laws
import Idealize.ShloMosaic.Lib.ValueIdx
import proofs.«108666_j83519934038393_2_alg».proof.Proof.LibDenseRows

noncomputable section

namespace Cert.Stages

open Idealize.ShloMosaic Idealize.ShloMosaic.ValueIdx
open Cert.Dense (Mat Row rowOf colOf mm)

variable {N : Nat}

/-- The layers' skip factor: the f32 word of 0.2, read exactly. -/
def c02 : EReal := Ideal.ofBits .f32 0x3E4CCCCD#32

/-- The input projection: a product plus a bias laid along every row. -/
def inproj (X : Mat N 100) (W : Mat 100 128) (b : Row 128) : Mat N 128 :=
  fun i => mm X W i + b (ix1 (colOf i))

/-- The rectifier. -/
def relu {C : Nat} (A : Mat N C) : Mat N C := fun i => max (A i) 0

/-- A hidden layer, the neighbour sum `S` scaled after its product by the per-row factor `c`. -/
def hidK (S : Mat N 128) (c : Mat N 1) (h : Mat N 128) (wl : Mat 128 128) (bl : Row 128) (wr : Mat 128 128)
    (inp : Mat N 128) : Mat N 128 :=
  fun i => max (((mm S wl i * c (ix2 (rowOf i) (0 : Fin 1))) + bl (ix1 (colOf i))) + mm h wr i) 0 + c02 * inp i

/-- A hidden layer, the neighbour sum `S` divided by the per-row `d` before its product. -/
def hidR (S : Mat N 128) (d : Row N) (h : Mat N 128) (wl : Mat 128 128) (bl : Row 128) (wr : Mat 128 128)
    (inp : Mat N 128) : Mat N 128 :=
  fun i => max (((mm (fun j : (⟨2, ![N, 128]⟩ : Shape).Idx => Ideal.div (S j) (d (ix1 (rowOf j)))) wl i)
      + bl (ix1 (colOf i))) + mm h wr i) 0 + c02 * inp i

/-- The projection of the rows before the last neighbour sum. -/
def proj (h : Mat N 128) (wl : Mat 128 47) : Mat N 47 := mm h wl

/-- The last layer's scores from the neighbour sum `Z` of projected rows, scaled by `c`. -/
def logitsK (Z : Mat N 47) (c : Mat N 1) (h : Mat N 128) (wr : Mat 128 47) (bl : Row 47) : Mat N 47 :=
  fun i => ((Z i * c (ix2 (rowOf i) (0 : Fin 1))) + bl (ix1 (colOf i))) + mm h wr i

/-- The last layer's scores from the neighbour sum `S` of unprojected rows: divided by `d`, then projected. -/
def logitsR (S : Mat N 128) (d : Row N) (h : Mat N 128) (wl : Mat 128 47) (bl : Row 47) (wr : Mat 128 47) : Mat N 47 :=
  fun i => ((mm (fun j : (⟨2, ![N, 128]⟩ : Shape).Idx => Ideal.div (S j) (d (ix1 (rowOf j)))) wl i)
      + bl (ix1 (colOf i))) + mm h wr i

/-- The largest entry of row `p` (the fold starts from −∞). -/
def rowMax (v : Mat N 47) (p : Fin N) : EReal :=
  (Finset.univ : Finset (Fin 47)).fold max (⊥ : EReal) (fun k => v (ix2 p k))

/-- The row-wise log-softmax. -/
def lsm (v : Mat N 47) : Mat N 47 :=
  fun i => (v i - rowMax v (rowOf i)) - Ideal.log (∑ k : Fin 47, Ideal.exp (v (ix2 (rowOf i) k) - rowMax v (rowOf i)))

theorem inproj_apply (X : Mat N 100) (W : Mat 100 128) (b : Row 128) (p : Fin N) (q : Fin 128) :
    inproj X W b (ix2 p q) = (∑ k : Fin 100, X (ix2 p k) * W (ix2 k q)) + b (ix1 q) := rfl
theorem relu_apply {C : Nat} (A : Mat N C) (i : (⟨2, ![N, C]⟩ : Shape).Idx) : relu A i = max (A i) 0 := rfl
theorem hidK_apply (S : Mat N 128) (c : Mat N 1) (h : Mat N 128) (wl : Mat 128 128) (bl : Row 128) (wr : Mat 128 128)
    (inp : Mat N 128) (p : Fin N) (q : Fin 128) :
    hidK S c h wl bl wr inp (ix2 p q)
      = max ((((∑ k : Fin 128, S (ix2 p k) * wl (ix2 k q)) * c (ix2 p (0 : Fin 1))) + bl (ix1 q))
          + ∑ k : Fin 128, h (ix2 p k) * wr (ix2 k q)) 0 + c02 * inp (ix2 p q) := rfl
theorem hidR_apply (S : Mat N 128) (d : Row N) (h : Mat N 128) (wl : Mat 128 128) (bl : Row 128) (wr : Mat 128 128)
    (inp : Mat N 128) (p : Fin N) (q : Fin 128) :
    hidR S d h wl bl wr inp (ix2 p q)
      = max (((∑ k : Fin 128, Ideal.div (S (ix2 p k)) (d (ix1 p)) * wl (ix2 k q)) + bl (ix1 q))
          + ∑ k : Fin 128, h (ix2 p k) * wr (ix2 k q)) 0 + c02 * inp (ix2 p q) := rfl
theorem proj_apply (h : Mat N 128) (wl : Mat 128 47) (p : Fin N) (q : Fin 47) :
    proj h wl (ix2 p q) = ∑ k : Fin 128, h (ix2 p k) * wl (ix2 k q) := rfl
theorem logitsK_apply (Z : Mat N 47) (c : Mat N 1) (h : Mat N 128) (wr : Mat 128 47) (bl : Row 47) (p : Fin N) (q : Fin 47) :
    logitsK Z c h wr bl (ix2 p q)
      = ((Z (ix2 p q) * c (ix2 p (0 : Fin 1))) + bl (ix1 q)) + ∑ k : Fin 128, h (ix2 p k) * wr (ix2 k q) := rfl
theorem logitsR_apply (S : Mat N 128) (d : Row N) (h : Mat N 128) (wl : Mat 128 47) (bl : Row 47) (wr : Mat 128 47)
    (p : Fin N) (q : Fin 47) :
    logitsR S d h wl bl wr (ix2 p q)
      = ((∑ k : Fin 128, Ideal.div (S (ix2 p k)) (d (ix1 p)) * wl (ix2 k q)) + bl (ix1 q))
          + ∑ k : Fin 128, h (ix2 p k) * wr (ix2 k q) := rfl
theorem lsm_apply (v : Mat N 47) (p : Fin N) (q : Fin 47) :
    lsm v (ix2 p q) = (v (ix2 p q) - rowMax v p) - Ideal.log (∑ k : Fin 47, Ideal.exp (v (ix2 p k) - rowMax v p)) := rfl

end Cert.Stages

end
-- ==== Proof.KVal.lean ====
/-
  The values the idealized kernel program computes between its regions, as functions of the edge list and the
  activations, in the program's own operations.

    srcI, dstI     the two rows of the edge list as columns of start indices (a negative source index wrapped by N)
    degc           the in-degree of every node (a scatter-add of ones at the destinations), clamped below by 1
    invd           its reciprocal, as an [N, 1] column
    agg h          the neighbour sum of a 128-wide activation: the rows of h gathered at the sources and
                   scatter-added at the destinations (the narrowing and widening around it change nothing here)
    agg47 z        the same for a 47-wide array
    wlh/blh/wrh i  layer i's slices of the stacked weights and biases
-/
import proofs.«108666_j83519934038393_2_alg».proof.Proof.Gen.KernelIdeal
import Idealize.ShloMosaic.PureOps.Ideal.Laws

noncomputable section

namespace Cert.KernelIdeal.KVal

open Cert.KernelIdeal Cert.KernelIdeal.Gen Idealize.ShloMosaic Idealize.ShloMosaic.TcCoe

abbrev EdgeList : Type := (⟨S2x1600000, .i32⟩ : BufTy).Contents (Elt Ideal)
abbrev EdgeVec : Type := (⟨S1600000, .i32⟩ : BufTy).Contents (Elt Ideal)
abbrev EdgeCol : Type := (⟨S1600000x1, .i32⟩ : BufTy).Contents (Elt Ideal)

/-- Row 0 of the edge list: the sources. -/
def srcRaw (ei : EdgeList) : EdgeVec :=
  shapeCast S1600000 (extractStridedSlice S1x1600000 ![0, 0] ei slices_S2x1600000_S1x1600000_0_0) shapeCasts_S1x1600000_S1600000
/-- Row 1 of the edge list: the destinations. -/
def dstRaw (ei : EdgeList) : EdgeVec :=
  shapeCast S1600000 (extractStridedSlice S1x1600000 ![1, 0] ei slices_S2x1600000_S1x1600000_1_0) shapeCasts_S1x1600000_S1600000
/-- The destinations as a column of start indices. -/
def dstI (ei : EdgeList) : EdgeCol := broadcastInDim S1600000x1 ![0] bcast_S1600000_S1600000x1_0 (dstRaw ei)
/-- The sources, a negative one wrapped by N, as a column of start indices. -/
def srcI (ei : EdgeList) : EdgeCol :=
  broadcastInDim S1600000x1 ![0] bcast_S1600000_S1600000x1_0
    (select (cmpi .slt (srcRaw ei) (broadcastInDim S1600000 ![] bcast_S_S1600000 (constantI S_ 32 0#32)))
      (addi (srcRaw ei) (broadcastInDim S1600000 ![] bcast_S_S1600000 (constantI S_ 32 100000#32))) (srcRaw ei))

/-- The in-degrees: ones scatter-added at the destinations into zeros. -/
def deg (ei : EdgeList) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32)) (dstI ei)
    (broadcastInDim S1600000 ![] bcast_S_S1600000 (constant (F := Ideal) S_ .f32 0x3F800000#32))
/-- The in-degrees clamped below by 1. -/
def degc (ei : EdgeList) : (⟨S100000, .f32⟩ : BufTy).Contents (Elt Ideal) :=
  maximumf (F := Ideal) (deg ei) (broadcastInDim S100000 ![] bcast_S_S100000 (constant (F := Ideal) S_ .f32 0x3F800000#32))
/-- The reciprocal clamped in-degrees, as a column. -/
def invd (ei : EdgeList) : (⟨S100000x1, .f32⟩ : BufTy).Contents (Elt Ideal) :=
  shapeCast S100000x1 (Host.divf (F := Ideal) (broadcastInDim S100000 ![] bcast_S_S100000 (constant (F := Ideal) S_ .f32 0x3F800000#32)) (degc ei))
    shapeCasts_S100000_S100000x1

/-- The neighbour sum of a 128-wide array: gather at the sources, scatter-add at the destinations. -/
def aggF (ei : EdgeList) (h : (⟨S100000x128, .bf16⟩ : BufTy).Contents (Elt Ideal)) : (⟨S100000x128, .f32⟩ : BufTy).Contents (Elt Ideal) :=
  Host.scatterAdd (F := Ideal) scatter_S100000x128_S1600000x1_S1600000x128_1_0_0_1
      (broadcastInDim S100000x128 ![] bcast_S_S100000x128 (constant (F := Ideal) S_ .f32 0x00000000#32)) (dstI ei)
      (extf (F := Ideal) .f32 (Host.gather gather_S100000x128_S1600000x1_S1600000x128_1_0_n_n_0_1_1128 h (srcI ei)) bitsLt_bf16_f32)
/-- … narrowed, as the regions read it. -/
def agg (ei : EdgeList) (h : (⟨S100000x128, .bf16⟩ : BufTy).Contents (Elt Ideal)) : (⟨S100000x128, .bf16⟩ : BufTy).Contents (Elt Ideal) :=
  truncf (F := Ideal) .bf16 (aggF ei h) bitsLt_bf16_f32
/-- The neighbour sum of a 47-wide array. -/
def agg47 (ei : EdgeList) (z : (⟨S100000x47, .bf16⟩ : BufTy).Contents (Elt Ideal)) : (⟨S100000x47, .f32⟩ : BufTy).Contents (Elt Ideal) :=
  Host.scatterAdd (F := Ideal) scatter_S100000x47_S1600000x1_S1600000x47_1_0_0_1
    (broadcastInDim S100000x47 ![] bcast_S_S100000x47 (constant (F := Ideal) S_ .f32 0x00000000#32)) (dstI ei)
    (extf (F := Ideal) .f32 (Host.gather gather_S100000x47_S1600000x1_S1600000x47_1_0_n_n_0_1_147 z (srcI ei)) bitsLt_bf16_f32)

abbrev W3 : Type := (⟨S3x128x128, .f32⟩ : BufTy).Contents (Elt Ideal)
abbrev B3 : Type := (⟨S3x128, .f32⟩ : BufTy).Contents (Elt Ideal)

def wsl0 (w : W3) : (⟨S128x128, .f32⟩ : BufTy).Contents (Elt Ideal) :=
  shapeCast S128x128 (extractStridedSlice S1x128x128 ![0, 0, 0] w slices_S3x128x128_S1x128x128_0_0_0) shapeCasts_S1x128x128_S128x128
def wsl1 (w : W3) : (⟨S128x128, .f32⟩ : BufTy).Contents (Elt Ideal) :=
  shapeCast S128x128 (extractStridedSlice S1x128x128 ![1, 0, 0] w slices_S3x128x128_S1x128x128_1_0_0) shapeCasts_S1x128x128_S128x128
def wsl2 (w : W3) : (⟨S128x128, .f32⟩ : BufTy).Contents (Elt Ideal) :=
  shapeCast S128x128 (extractStridedSlice S1x128x128 ![2, 0, 0] w slices_S3x128x128_S1x128x128_2_0_0) shapeCasts_S1x128x128_S128x128
def bsl0 (b : B3) : (⟨S128, .f32⟩ : BufTy).Contents (Elt Ideal) :=
  shapeCast S128 (extractStridedSlice S1x128 ![0, 0] b slices_S3x128_S1x128_0_0) shapeCasts_S1x128_S128
def bsl1 (b : B3) : (⟨S128, .f32⟩ : BufTy).Contents (Elt Ideal) :=
  shapeCast S128 (extractStridedSlice S1x128 ![1, 0] b slices_S3x128_S1x128_1_0) shapeCasts_S1x128_S128
def bsl2 (b : B3) : (⟨S128, .f32⟩ : BufTy).Contents (Elt Ideal) :=
  shapeCast S128 (extractStridedSlice S1x128 ![2, 0] b slices_S3x128_S1x128_2_0) shapeCasts_S1x128_S128

end Cert.KernelIdeal.KVal

end
-- ==== Proof.KNames.lean ====
/-
  The activations the idealized kernel program computes, layer by layer, as functions of its ten arguments.

    inp      the input projection X·W + b
    h0       its rectification
    h1 h2 h3 the three hidden layers: the neighbour sum of the previous activation (gathered at the sources,
             scatter-added at the destinations), multiplied by the layer's left weights, scaled by the reciprocal
             clamped in-degree, plus the bias and the previous activation times the right weights, rectified, plus
             0.2 times the input projection
    zproj    the last activation times the output layer's left weights, taken BEFORE the neighbour sum
    out      the row-wise log-softmax of the last layer's scores
-/
import proofs.«108666_j83519934038393_2_alg».proof.Proof.Stages
import proofs.«108666_j83519934038393_2_alg».proof.Proof.KVal

noncomputable section

namespace Cert.KernelIdeal.KNames

open Cert.KernelIdeal Cert.KernelIdeal.KVal
open Cert.Dense (Mat Row)

variable (x : Mat 100000 100) (ei : EdgeList) (w0 : Mat 100 128) (b0 : Row 128) (wl : W3) (bl : B3) (wr : W3)
  (wlo : Mat 128 47) (blo : Row 47) (wro : Mat 128 47)

def inp : Mat 100000 128 := Cert.Stages.inproj (N := 100000) x w0 b0
def h0 : Mat 100000 128 := Cert.Stages.relu (inp x w0 b0)
def h1 : Mat 100000 128 :=
  Cert.Stages.hidK (N := 100000) (agg ei (h0 x w0 b0)) (invd ei) (h0 x w0 b0) (wsl0 wl) (bsl0 bl) (wsl0 wr) (inp x w0 b0)
def h2 : Mat 100000 128 :=
  Cert.Stages.hidK (N := 100000) (agg ei (h1 x ei w0 b0 wl bl wr)) (invd ei) (h1 x ei w0 b0 wl bl wr) (wsl1 wl) (bsl1 bl) (wsl1 wr) (inp x w0 b0)
def h3 : Mat 100000 128 :=
  Cert.Stages.hidK (N := 100000) (agg ei (h2 x ei w0 b0 wl bl wr)) (invd ei) (h2 x ei w0 b0 wl bl wr) (wsl2 wl) (bsl2 bl) (wsl2 wr) (inp x w0 b0)
def zproj : Mat 100000 47 := Cert.Stages.proj (N := 100000) (h3 x ei w0 b0 wl bl wr) wlo
def out : Mat 100000 47 :=
  Cert.Stages.lsm (N := 100000) (Cert.Stages.logitsK (N := 100000) (agg47 ei (zproj x ei w0 b0 wl bl wr wlo)) (invd ei)
    (h3 x ei w0 b0 wl bl wr) wro blo)

end Cert.KernelIdeal.KNames

end
-- ==== Proof.Region0.lean ====
/-
  The first kernel region (the input projection), read as whole arrays.

  The region walks the N = 100000 rows in 25 blocks of 4000 rows; at point t it multiplies rows 4000·t … 4000·t + 3999 of X
  by the whole weight matrix, adds the bias along every row, and writes the block back twice: as it is, and rectified.
  Entry (4000·t + p, q) of either output therefore depends on row 4000·t + p of X only, and is the entry of
  `Stages.inproj X W b` (resp. of its rectification) at that row: the blocks tile the array, so the arrays end holding
  these two functions.
-/
import proofs.«108666_j83519934038393_2_alg».proof.Proof.Gen.KernelIdeal.Frame
import proofs.«108666_j83519934038393_2_alg».proof.Proof.Stages
import Idealize.ShloMosaic.Lib.Pipeline.Value
import Idealize.ShloMosaic.Lib.ValueIdx
import Idealize.ShloMosaic.Lib.ValueLayout

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- One entry of the projected block: the product's sum over the 100 input features plus the bias entry. -/
theorem pay1_apply (x0 : Vec Ideal S4000x100 .f32) (x1 : Vec Ideal S100x128 .f32) (x2 : Vec Ideal S128 .f32)
    (p : Fin 4000) (q : Fin 128) :
    k0_pay1 (F := Ideal) x0 x1 x2 (ix2 p q) = (∑ k : Fin 100, x0 (ix2 p k) * x1 (ix2 k q)) + x2 (ix1 q) := by
  unfold k0_pay1
  exact congrArg₂ (· + ·)
    (Cert.Dense.tileProduct_apply 4000 100 128 none bitsLt_bf16_f32 bitsLt_bf16_f32 x0 x1 p q)
    ((broadcastTo_1b_ab_apply (shapeCast S1x128 x2 shapeCasts_S128_S1x128) broadcasts_S1x128_S4000x128 p q).trans
      (Cert.LibLreluRows.rowCast_apply shapeCasts_S128_S1x128 x2 q))

/-- One entry of the rectified block. -/
theorem pay2_apply (x0 : Vec Ideal S4000x100 .f32) (x1 : Vec Ideal S100x128 .f32) (x2 : Vec Ideal S128 .f32)
    (p : Fin 4000) (q : Fin 128) :
    k0_pay2 (F := Ideal) x0 x1 x2 (ix2 p q) = max ((∑ k : Fin 100, x0 (ix2 p k) * x1 (ix2 k q)) + x2 (ix1 q)) 0 := by
  unfold k0_pay2
  refine (Cert.Dense.tileRelu_apply 4000 128 (k0_pay1 (F := Ideal) x0 x1 x2) (ix2 p q)).trans ?_
  rw [pay1_apply]

/-- The windows' index maps over the grid: the row blocks move with the point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of block t is row 4000·t + p of the array. -/
def rowAt (t : Fin cfg0.N) (p : Fin 4000) : Fin 100000 :=
  ⟨t.val * 4000 + p.val, by have h1 : t.val < 25 := t.isLt; have h2 : p.val < 4000 := p.isLt; omega⟩

theorem emb0 (t : Fin cfg0.N) (p : Fin 4000) (k : Fin 100) :
    ((cfg0.win 0).blk t).view.emb (ix2 p k) = ix2 (rowAt t p) k := by
  obtain ⟨e00, e01, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 100 + 1 * k.val = k.val; omega
theorem emb1 (t : Fin cfg0.N) (k : Fin 100) (q : Fin 128) :
    ((cfg0.win 1).blk t).view.emb (ix2 k q) = ix2 k q := by
  obtain ⟨-, -, e10, e11, -⟩ := idx_facts t
  funext a; apply Fin.ext
  match a with
  | ⟨0, _⟩ => show win0_1.index t (0 : Fin 2) * 100 + 1 * k.val = k.val; omega
  | ⟨1, _⟩ => show win0_1.index t (1 : Fin 2) * 128 + 1 * q.val = q.val; omega
theorem emb2 (t : Fin cfg0.N) (q : Fin 128) :
    ((cfg0.win 2).blk t).view.emb (ix1 q) = ix1 q := by
  obtain ⟨-, -, -, -, e20, -⟩ := idx_facts t
  funext a; apply Fin.ext
  match a with
  | ⟨0, _⟩ => show win0_2.index t (0 : Fin 1) * 128 + 1 * q.val = q.val; omega
theorem emb3 (t : Fin cfg0.N) (p : Fin 4000) (q : Fin 128) :
    ((cfg0.win 3).blk t).view.emb (ix2 p q) = ix2 (rowAt t p) q := by
  obtain ⟨-, -, -, -, -, e30, e31, -⟩ := idx_facts t
  funext a; apply Fin.ext
  match a with
  | ⟨0, _⟩ => show win0_3.index t (0 : Fin 2) * 4000 + 1 * p.val = t.val * 4000 + p.val; omega
  | ⟨1, _⟩ => show win0_3.index t (1 : Fin 2) * 128 + 1 * q.val = q.val; omega
theorem emb4 (t : Fin cfg0.N) (p : Fin 4000) (q : Fin 128) :
    ((cfg0.win 4).blk t).view.emb (ix2 p q) = ix2 (rowAt t p) q := by
  obtain ⟨-, -, -, -, -, -, -, e40, e41⟩ := idx_facts t
  funext a; apply Fin.ext
  match a with
  | ⟨0, _⟩ => show win0_4.index t (0 : Fin 2) * 4000 + 1 * p.val = t.val * 4000 + p.val; omega
  | ⟨1, _⟩ => show win0_4.index t (1 : Fin 2) * 128 + 1 * q.val = q.val; omega

/-- The sum the block's entry (p, q) takes is the array's at row 4000·t + p. -/
theorem entry_eq (c : Dev nD) (t : Fin cfg0.N) (p : Fin 4000) (q : Fin 128)
    (x0 : Vec Ideal S4000x100 .f32) (x1 : Vec Ideal S100x128 .f32) (x2 : Vec Ideal S128 .f32)
    (h0 : x0 = iblk0 V c 0 t) (h1 : x1 = iblk0 V c 1 t) (h2 : x2 = iblk0 V c 2 t) :
    (∑ k : Fin 100, x0 (ix2 p k) * x1 (ix2 k q)) + x2 (ix1 q)
      = Cert.Stages.inproj (N := 100000) (V c main_arg0) (V c main_arg2) (V c main_arg3) (ix2 (rowAt t p) q) := by
  subst h0 h1 h2
  rw [Cert.Stages.inproj_apply]
  refine congrArg₂ (· + ·) (Finset.sum_congr rfl fun k _ => congrArg₂ (· * ·) ?_ ?_) ?_
  · show V c main_arg0 (((cfg0.win 0).blk t).view.emb (ix2 p k)) = _
    rw [emb0]
  · show V c main_arg2 (((cfg0.win 1).blk t).view.emb (ix2 k q)) = _
    rw [emb1]
  · show V c main_arg3 (((cfg0.win 2).blk t).view.emb (ix1 q)) = _
    rw [emb2]

/-- What point t writes back through window 3 is block t of the projection of the whole arrays. -/
theorem flushed3_eq (c : Dev nD) (t : Fin cfg0.N) :
    (dat0 V c).flushed 3 t = ((cfg0.win 3).blk t).view.read (Elt Ideal)
      (Cert.Stages.inproj (N := 100000) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S4000x100) hz2, View.ld_unit_zero (S := S100x128) hz2, View.ld_unit_zero (S := S128) hz1]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q)
    = Cert.Stages.inproj (N := 100000) (V c main_arg0) (V c main_arg2) (V c main_arg3) (((cfg0.win 3).blk t).view.emb (ix2 p q))
  rw [emb3]
  exact (pay1_apply _ _ _ p q).trans (entry_eq V c t p q _ _ _ rfl rfl rfl)

/-- What point t writes back through window 4 is block t of the rectified projection. -/
theorem flushed4_eq (c : Dev nD) (t : Fin cfg0.N) :
    (dat0 V c).flushed 4 t = ((cfg0.win 4).blk t).view.read (Elt Ideal)
      (Cert.Stages.relu (Cert.Stages.inproj (N := 100000) (V c main_arg0) (V c main_arg2) (V c main_arg3))) := by
  show (cfg0.win 4).cut (grid0.coords t) ((dat0 V c).after 4 t) = _
  rw [after0_4]
  unfold out0_4
  rw [View.canon_unit_zero hz2]
  simp only [View.ld_unit_zero (S := S4000x100) hz2, View.ld_unit_zero (S := S100x128) hz2, View.ld_unit_zero (S := S128) hz1]
  funext j
  obtain ⟨p, q, rfl⟩ : ∃ (p : Fin 4000) (q : Fin 128), j = ix2 p q := ⟨j 0, j 1, eq_ix2 j⟩
  show k0_pay2 (F := Ideal) (iblk0 V c 0 t) (iblk0 V c 1 t) (iblk0 V c 2 t) (ix2 p q)
    = Cert.Stages.relu (Cert.Stages.inproj (N := 100000) (V c main_arg0) (V c main_arg2) (V c main_arg3)) (((cfg0.win 4).blk t).view.emb (ix2 p q))
  rw [emb4, Cert.Stages.relu_apply]
  exact (pay2_apply _ _ _ p q).trans (congrArg (fun z => max z 0) (entry_eq V c t p q _ _ _ rfl rfl rfl))

/-- An index of the array lies in point t's block of window 3 iff each coordinate is in the block's range. -/
theorem mem_blk3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v13_0).slice (win0_3.rect t)).set ↔ _
  rw [View.set_slice_whole, Rect.mem_set_unit]
  exact Iff.rfl
theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v13_1).slice (win0_4.rect t)).set ↔ _
  rw [View.set_slice_whole, Rect.mem_set_unit]
  exact Iff.rfl

/-- Row r lies in the block of point r / 4000. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 4000, by show _ < 25; omega⟩
  obtain ⟨-, -, -, -, -, e30, e31, -⟩ := idx_facts t
  have htv : t.val = (i 0).val / 4000 := rfl
  refine ⟨t, flush0_3 t, ?_⟩
  rw [mem_blk3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 4000, by show _ < 25; omega⟩
  obtain ⟨-, -, -, -, -, -, -, e40, e41⟩ := idx_facts t
  have htv : t.val = (i 0).val / 4000 := rfl
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The projection's array after the region. -/
theorem final3 (c : Dev nD) :
    (dat0 V c).arrAt 3 cfg0.N = Cert.Stages.inproj (N := 100000) (V c main_arg0) (V c main_arg2) (V c main_arg3) :=
  (dat0 V c).arrAt_eq_of_cover 3 _ (fun t _ => flushed3_eq V c t) cover3

/-- The rectified projection's array after the region. -/
theorem final4 (c : Dev nD) :
    (dat0 V c).arrAt 4 cfg0.N = Cert.Stages.relu (Cert.Stages.inproj (N := 100000) (V c main_arg0) (V c main_arg2) (V c main_arg3)) :=
  (dat0 V c).arrAt_eq_of_cover 4 _ (fun t _ => flushed4_eq V c t) cover4

end Cert.KernelIdeal.Reg0

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Region1.lean ====
/-
  One hidden layer's tiled region read as a whole array.

  The region walks 25 blocks of 4000 rows. At block t its body takes the block of the neighbour sums S, of the
  reciprocal degrees c, of the layer's input h and of the skip input, with the two weight matrices and the bias whole,
  and stores, at row p and column q of the block,

      max(((Σ_k S[p,k]·wl[k,q])·c[p] + bl[q]) + Σ_k h[p,k]·wr[k,q], 0) + 0.2·inp[p,q].

  Narrowing an operand to half precision changes nothing at exact values, and the matrix unit's product into a zero
  accumulator is the plain sum over the contracted index. Row p of block t is row 4000·t + p of each array, so the
  block a point writes back is that block of one function of the whole arrays; the 25 blocks tile the 100000 rows
  (row r lies in block r / 4000), hence the output array ends holding that function everywhere.
-/
import proofs.«108666_j83519934038393_2_alg».proof.Proof.Gen.KernelIdeal.Frame
import proofs.«108666_j83519934038393_2_alg».proof.Proof.Stages
import proofs.«108666_j83519934038393_2_alg».proof.Proof.LibKeepdims
import Idealize.ShloMosaic.Lib.Pipeline.Value

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ## The body's arithmetic at one entry of a block -/

/-- The matrix unit's product of a half-precision block with a narrowed weight matrix, into the zero accumulator, is the
    plain sum over the contracted index. -/
theorem blockProduct_apply (x : FVec Ideal S4000x128 .bf16) (w : FVec Ideal S128x128 .f32) (p : Fin 4000) (q : Fin 128) :
    matmul dot_S4000x128_S128x128_S4000x128_1_0_0_1_n_n none x (truncf .bf16 w bitsLt_bf16_f32)
        (constant S4000x128 .f32 0x00000000#32) (ix2 p q)
      = ∑ k : Fin 128, x (ix2 p k) * w (ix2 k q) :=
  Cert.LibPlainContract.matmul_plain_apply 4000 128 128 none x (truncf .bf16 w bitsLt_bf16_f32) p q

/-- The stored value at row p, column q of a block, from the blocks the body loads. -/
theorem pay_apply (x0 : FVec Ideal S4000x128 .bf16) (x1 : FVec Ideal S4000x1 .f32) (x2 : FVec Ideal S4000x128 .bf16)
    (x3 : FVec Ideal S128x128 .f32) (x4 : FVec Ideal S128 .f32) (x5 : FVec Ideal S128x128 .f32)
    (x6 : FVec Ideal S4000x128 .f32) (p : Fin 4000) (q : Fin 128) :
    k1_pay1 (F := Ideal) x0 x2 x3 x5 x1 x4 x6 (ix2 p q)
      = max ((((∑ k : Fin 128, x0 (ix2 p k) * x3 (ix2 k q)) * x1 (ix2 p (0 : Fin 1))) + x4 (ix1 q))
          + ∑ k : Fin 128, x2 (ix2 p k) * x5 (ix2 k q)) 0 + Cert.Stages.c02 * x6 (ix2 p q) := by
  unfold k1_pay1
  show max (((matmul dot_S4000x128_S128x128_S4000x128_1_0_0_1_n_n none (shapeCast S4000x128 x0 _)
                (truncf .bf16 (shapeCast S128x128 x3 _) bitsLt_bf16_f32) (constant S4000x128 .f32 0x00000000#32) (ix2 p q)
              * broadcastTo S4000x128 (shapeCast S4000x1 x1 _) broadcasts_S4000x1_S4000x128 (ix2 p q))
            + broadcastTo S4000x128 (shapeCast S1x128 (shapeCast S128 x4 _) shapeCasts_S128_S1x128)
                broadcasts_S1x128_S4000x128 (ix2 p q))
          + matmul dot_S4000x128_S128x128_S4000x128_1_0_0_1_n_n none (shapeCast S4000x128 x2 _)
              (truncf .bf16 (shapeCast S128x128 x5 _) bitsLt_bf16_f32) (constant S4000x128 .f32 0x00000000#32) (ix2 p q))
        (Ideal.ofBits .f32 0x00000000#32)
      + Ideal.ofBits .f32 0x3E4CCCCD#32 * shapeCast S4000x128 x6 _ (ix2 p q) = _
  rw [shapeCast_self x0, shapeCast_self x3, shapeCast_self x1, shapeCast_self x4, shapeCast_self x2, shapeCast_self x5,
    shapeCast_self x6, blockProduct_apply, blockProduct_apply, Cert.Lib.Keepdims.broadcastTo_a1_ab_apply,
    broadcastTo_1b_ab_apply, Cert.LibLreluRows.rowCast_apply, Ideal.ofBits_zero_f32]
  rfl

/-! ## The blocks a grid point reads and writes -/

variable (V : (c : Dev nD) → (b : Ref sig .tc) → Buf (Elt Ideal) ((c : Thread nD τ).loc b))

/-- Where each window's block sits at point t, decided over the 25 points: the row-blocked arrays at block (t, 0), the
    weights and the bias at their one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- Row p of block t is row 4000·t + p of the array. -/
def row (t : Fin cfg1.N) (p : Fin 4000) : Fin 100000 :=
  ⟨t.val * 4000 + p.val, by have hN : cfg1.N = 25 := N_1; have := t.isLt; have := p.isLt; omega⟩

theorem row_val (t : Fin cfg1.N) (p : Fin 4000) : (row t p).val = t.val * 4000 + p.val := rfl

/-- The neighbour sums' block at point t, entry (p, k), is the array's entry (4000·t + p, k). -/
theorem blk0_apply (c : Dev nD) (t : Fin cfg1.N) (p : Fin 4000) (k : Fin 128) :
    (iblk1 V c 0 t : FVec Ideal S4000x128 .bf16) (ix2 p k)
      = (V c (Pipeline.arrRef spec1 0) : S100000x128.Idx → EReal) (ix2 (row t p) k) := by
  obtain ⟨⟨e0, e1⟩, -⟩ := idx_facts t
  show (V c (Pipeline.arrRef spec1 0) : S100000x128.Idx → EReal) (((cfg1.win 0).blk t).view.emb (ix2 p k)) = _
  refine congrArg (V c (Pipeline.arrRef spec1 0) : S100000x128.Idx → EReal) ?_
  funext a; apply Fin.ext
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

/-- The reciprocal degrees' block at point t, entry (p, 0), is the column's entry (4000·t + p, 0). -/
theorem blk1_apply (c : Dev nD) (t : Fin cfg1.N) (p : Fin 4000) :
    (iblk1 V c 1 t : FVec Ideal S4000x1 .f32) (ix2 p (0 : Fin 1))
      = (V c (Pipeline.arrRef spec1 1) : S100000x1.Idx → EReal) (ix2 (row t p) (0 : Fin 1)) := by
  obtain ⟨-, ⟨e0, e1⟩, -⟩ := idx_facts t
  show (V c (Pipeline.arrRef spec1 1) : S100000x1.Idx → EReal) (((cfg1.win 1).blk t).view.emb (ix2 p (0 : Fin 1))) = _
  refine congrArg (V c (Pipeline.arrRef spec1 1) : S100000x1.Idx → EReal) ?_
  funext a; apply Fin.ext
  match a with
  | ⟨0, _⟩ => show win1_1.index t (0 : Fin 2) * 4000 + 1 * p.val = t.val * 4000 + p.val; rw [e0]; omega
  | ⟨1, _⟩ => show win1_1.index t (1 : Fin 2) * 1 + 1 * 0 = 0; rw [e1]

/-- The layer input's block at point t, entry (p, k), is the array's entry (4000·t + p, k). -/
theorem blk2_apply (c : Dev nD) (t : Fin cfg1.N) (p : Fin 4000) (k : Fin 128) :
    (iblk1 V c 2 t : FVec Ideal S4000x128 .bf16) (ix2 p k)
      = (V c (Pipeline.arrRef spec1 2) : S100000x128.Idx → EReal) (ix2 (row t p) k) := by
  obtain ⟨-, -, ⟨e0, e1⟩, -⟩ := idx_facts t
  show (V c (Pipeline.arrRef spec1 2) : S100000x128.Idx → EReal) (((cfg1.win 2).blk t).view.emb (ix2 p k)) = _
  refine congrArg (V c (Pipeline.arrRef spec1 2) : S100000x128.Idx → EReal) ?_
  funext a; apply Fin.ext
  match a with
  | ⟨0, _⟩ => show win1_2.index t (0 : Fin 2) * 4000 + 1 * p.val = t.val * 4000 + p.val; rw [e0]; omega
  | ⟨1, _⟩ => show win1_2.index t (1 : Fin 2) * 128 + 1 * k.val = k.val; rw [e1]; omega

/-- The first weight matrix is staged whole. -/
theorem blk3_apply (c : Dev nD) (t : Fin cfg1.N) (k q : Fin 128) :
    (iblk1 V c 3 t : FVec Ideal S128x128 .f32) (ix2 k q)
      = (V c (Pipeline.arrRef spec1 3) : S128x128.Idx → EReal) (ix2 k q) := by
  obtain ⟨-, -, -, ⟨e0, e1⟩, -⟩ := idx_facts t
  show (V c (Pipeline.arrRef spec1 3) : S128x128.Idx → EReal) (((cfg1.win 3).blk t).view.emb (ix2 k q)) = _
  refine congrArg (V c (Pipeline.arrRef spec1 3) : S128x128.Idx → EReal) ?_
  funext a; apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias is staged whole. -/
theorem blk4_apply (c : Dev nD) (t : Fin cfg1.N) (q : Fin 128) :
    (iblk1 V c 4 t : FVec Ideal S128 .f32) (ix1 q)
      = (V c (Pipeline.arrRef spec1 4) : S128.Idx → EReal) (ix1 q) := by
  obtain ⟨-, -, -, -, e0, -⟩ := idx_facts t
  show (V c (Pipeline.arrRef spec1 4) : S128.Idx → EReal) (((cfg1.win 4).blk t).view.emb (ix1 q)) = _
  refine congrArg (V c (Pipeline.arrRef spec1 4) : S128.Idx → EReal) ?_
  funext a; apply Fin.ext
  match a with
  | ⟨0, _⟩ => show win1_4.index t (0 : Fin 1) * 128 + 1 * q.val = q.val; rw [e0]; omega

/-- The second weight matrix is staged whole. -/
theorem blk5_apply (c : Dev nD) (t : Fin cfg1.N) (k q : Fin 128) :
    (iblk1 V c 5 t : FVec Ideal S128x128 .f32) (ix2 k q)
      = (V c (Pipeline.arrRef spec1 5) : S128x128.Idx → EReal) (ix2 k q) := by
  obtain ⟨-, -, -, -, -, ⟨e0, e1⟩, -⟩ := idx_facts t
  show (V c (Pipeline.arrRef spec1 5) : S128x128.Idx → EReal) (((cfg1.win 5).blk t).view.emb (ix2 k q)) = _
  refine congrArg (V c (Pipeline.arrRef spec1 5) : S128x128.Idx → EReal) ?_
  funext a; apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- The skip input's block at point t, entry (p, q), is the array's entry (4000·t + p, q). -/
theorem blk6_apply (c : Dev nD) (t : Fin cfg1.N) (p : Fin 4000) (q : Fin 128) :
    (iblk1 V c 6 t : FVec Ideal S4000x128 .f32) (ix2 p q)
      = (V c (Pipeline.arrRef spec1 6) : S100000x128.Idx → EReal) (ix2 (row t p) q) := by
  obtain ⟨-, -, -, -, -, -, ⟨e0, e1⟩, -⟩ := idx_facts t
  show (V c (Pipeline.arrRef spec1 6) : S100000x128.Idx → EReal) (((cfg1.win 6).blk t).view.emb (ix2 p q)) = _
  refine congrArg (V c (Pipeline.arrRef spec1 6) : S100000x128.Idx → EReal) ?_
  funext a; apply Fin.ext
  match a with
  | ⟨0, _⟩ => show win1_6.index t (0 : Fin 2) * 4000 + 1 * p.val = t.val * 4000 + p.val; rw [e0]; omega
  | ⟨1, _⟩ => show win1_6.index t (1 : Fin 2) * 128 + 1 * q.val = q.val; rw [e1]; omega

/-- Entry (p, q) of the output's block at point t is the output array's entry (4000·t + p, q). -/
theorem emb7 (t : Fin cfg1.N) (p : Fin 4000) (q : Fin 128) :
    (((cfg1.win 7).blk t).view.emb (ix2 p q) : S100000x128.Idx) = ix2 (row t p) q := by
  obtain ⟨-, -, -, -, -, -, -, ⟨e0, e1⟩⟩ := idx_facts t
  funext a; apply Fin.ext
  match a with
  | ⟨0, _⟩ => show win1_7.index t (0 : Fin 2) * 4000 + 1 * p.val = t.val * 4000 + p.val; rw [e0]; omega
  | ⟨1, _⟩ => show win1_7.index t (1 : Fin 2) * 128 + 1 * q.val = q.val; rw [e1]; omega

/-! ## From blocks to the array -/

/-- The layer's function of the arrays the region finds: what the output array will hold. -/
def G (c : Dev nD) : Cert.Dense.Mat 100000 128 :=
  Cert.Stages.hidK (N := 100000) (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6))

/-- The value the body stores at entry (p, q) of block t is the layer's function of the whole arrays at row 4000·t + p:
    every block entry it reads is the array's entry at that row (or the whole weight's, the whole bias's). -/
theorem entry_eq (c : Dev nD) (t : Fin cfg1.N) (p : Fin 4000) (q : Fin 128)
    (x0 : FVec Ideal S4000x128 .bf16) (x1 : FVec Ideal S4000x1 .f32) (x2 : FVec Ideal S4000x128 .bf16)
    (x3 : FVec Ideal S128x128 .f32) (x4 : FVec Ideal S128 .f32) (x5 : FVec Ideal S128x128 .f32)
    (x6 : FVec Ideal S4000x128 .f32)
    (h0 : x0 = iblk1 V c 0 t) (h1 : x1 = iblk1 V c 1 t) (h2 : x2 = iblk1 V c 2 t) (h3 : x3 = iblk1 V c 3 t)
    (h4 : x4 = iblk1 V c 4 t) (h5 : x5 = iblk1 V c 5 t) (h6 : x6 = iblk1 V c 6 t) :
    max ((((∑ k : Fin 128, x0 (ix2 p k) * x3 (ix2 k q)) * x1 (ix2 p (0 : Fin 1))) + x4 (ix1 q))
        + ∑ k : Fin 128, x2 (ix2 p k) * x5 (ix2 k q)) 0 + Cert.Stages.c02 * x6 (ix2 p q)
      = G V c (ix2 (row t p) q) := by
  subst h0 h1 h2 h3 h4 h5 h6
  unfold G
  rw [Cert.Stages.hidK_apply]
  refine congrArg₂ (· + ·) (congrArg (fun z => max z 0) (congrArg₂ (· + ·) (congrArg₂ (· + ·) (congrArg₂ (· * ·)
    (Finset.sum_congr rfl fun k _ => congrArg₂ (· * ·) ?_ ?_) ?_) ?_)
    (Finset.sum_congr rfl fun k _ => congrArg₂ (· * ·) ?_ ?_))) (congrArg (fun z => Cert.Stages.c02 * z) ?_)
  · exact blk0_apply V c t p k
  · exact blk3_apply V c t k q
  · exact blk1_apply V c t p
  · exact blk4_apply V c t q
  · exact blk2_apply V c t p k
  · exact blk5_apply V c t k q
  · exact blk6_apply V c t p q

/-- What point t writes back is block t of the layer's function of the whole arrays. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S4000x128) hz2, View.ld_unit_zero (S := S128x128) hz2,
    View.ld_unit_zero (S := S4000x1) hz2, View.ld_unit_zero (S := S128) hz1]
  funext j
  obtain ⟨p, q, rfl⟩ : ∃ (p : Fin 4000) (q : Fin 128), j = ix2 p q := ⟨j 0, j 1, eq_ix2 j⟩
  show k1_pay1 (F := Ideal) (iblk1 V c 0 t) (iblk1 V c 2 t) (iblk1 V c 3 t) (iblk1 V c 5 t) (iblk1 V c 1 t)
      (iblk1 V c 4 t) (iblk1 V c 6 t) (ix2 p q)
    = G V c (((cfg1.win 7).blk t).view.emb (ix2 p q))
  rw [emb7]
  exact (pay_apply _ _ _ _ _ _ _ p q).trans (entry_eq V c t p q _ _ _ _ _ _ _ rfl rfl rfl rfl rfl rfl rfl)

/-- An index of the output array is in point t's block iff each coordinate is in the block's range on its axis. -/
theorem mem_blk (t : Fin cfg1.N) (i : S100000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v32).slice (win1_7.rect t)).set ↔ _
  rw [View.set_slice_whole, Rect.mem_set_unit]
  exact Iff.rfl

/-- Every row lies in some point's block: row r in block r / 4000. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 25 := N_1
  have ht : (i 0).val / 4000 < cfg1.N := by omega
  obtain ⟨-, -, -, -, -, -, -, ⟨e0, e1⟩⟩ := idx_facts (⟨(i 0).val / 4000, ht⟩ : Fin cfg1.N)
  have e0' : win1_7.index (⟨(i 0).val / 4000, ht⟩ : Fin cfg1.N) (0 : Fin 2) = (i 0).val / 4000 := e0
  refine ⟨⟨(i 0).val / 4000, ht⟩, flush1_7 _, ?_⟩
  rw [mem_blk]
  intro a
  match a with
  | ⟨0, _⟩ =>
    show win1_7.index (⟨(i 0).val / 4000, ht⟩ : Fin cfg1.N) (0 : Fin 2) * 4000 ≤ (i 0).val
      ∧ (i 0).val < win1_7.index (⟨(i 0).val / 4000, ht⟩ : Fin cfg1.N) (0 : Fin 2) * 4000 + 4000
    rw [e0']; omega
  | ⟨1, _⟩ =>
    show win1_7.index (⟨(i 0).val / 4000, ht⟩ : Fin cfg1.N) (1 : Fin 2) * 128 ≤ (i 1).val
      ∧ (i 1).val < win1_7.index (⟨(i 0).val / 4000, ht⟩ : Fin cfg1.N) (1 : Fin 2) * 128 + 128
    rw [e1]; omega

/-- The output array after the region holds the layer's function at every entry. -/
theorem final_G (c : Dev nD) : (dat1 (F := Ideal) V c).arrAt 7 cfg1.N = G V c :=
  (dat1 (F := Ideal) V c).arrAt_eq_of_cover 7 _ (fun t _ => flushed_eq V c t) cover

/-- The output array after the region: the hidden layer's function of the arrays the region found, at every entry. -/
theorem final (V : (c : Dev nD) → (b : Ref sig .tc) → Buf (Elt Ideal) ((c : Thread nD τ).loc b)) (c : Dev nD) :
    (dat1 (F := Ideal) V c).arrAt 7 cfg1.N
      = Cert.Stages.hidK (N := 100000) (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)) :=
  final_G V c

end Cert.KernelIdeal.Reg1

end
-- ==== Proof.Region2.lean ====
/-
  One hidden layer's tiled region read as a whole array.

  The region walks 25 blocks of 4000 rows. At block t its body takes the block of the neighbour sums S, of the
  reciprocal degrees c, of the layer's input h and of the skip input, with the two weight matrices and the bias whole,
  and stores, at row p and column q of the block,

      max(((Σ_k S[p,k]·wl[k,q])·c[p] + bl[q]) + Σ_k h[p,k]·wr[k,q], 0) + 0.2·inp[p,q].

  Narrowing an operand to half precision changes nothing at exact values, and the matrix unit's product into a zero
  accumulator is the plain sum over the contracted index. Row p of block t is row 4000·t + p of each array, so the
  block a point writes back is that block of one function of the whole arrays; the 25 blocks tile the 100000 rows
  (row r lies in block r / 4000), hence the output array ends holding that function everywhere.
-/
import proofs.«108666_j83519934038393_2_alg».proof.Proof.Gen.KernelIdeal.Frame
import proofs.«108666_j83519934038393_2_alg».proof.Proof.Stages
import proofs.«108666_j83519934038393_2_alg».proof.Proof.LibKeepdims
import Idealize.ShloMosaic.Lib.Pipeline.Value

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ## The body's arithmetic at one entry of a block -/

/-- The matrix unit's product of a half-precision block with a narrowed weight matrix, into the zero accumulator, is the
    plain sum over the contracted index. -/
theorem blockProduct_apply (x : FVec Ideal S4000x128 .bf16) (w : FVec Ideal S128x128 .f32) (p : Fin 4000) (q : Fin 128) :
    matmul dot_S4000x128_S128x128_S4000x128_1_0_0_1_n_n none x (truncf .bf16 w bitsLt_bf16_f32)
        (constant S4000x128 .f32 0x00000000#32) (ix2 p q)
      = ∑ k : Fin 128, x (ix2 p k) * w (ix2 k q) :=
  Cert.LibPlainContract.matmul_plain_apply 4000 128 128 none x (truncf .bf16 w bitsLt_bf16_f32) p q

/-- The stored value at row p, column q of a block, from the blocks the body loads. -/
theorem pay_apply (x0 : FVec Ideal S4000x128 .bf16) (x1 : FVec Ideal S4000x1 .f32) (x2 : FVec Ideal S4000x128 .bf16)
    (x3 : FVec Ideal S128x128 .f32) (x4 : FVec Ideal S128 .f32) (x5 : FVec Ideal S128x128 .f32)
    (x6 : FVec Ideal S4000x128 .f32) (p : Fin 4000) (q : Fin 128) :
    k2_pay1 (F := Ideal) x0 x2 x3 x5 x1 x4 x6 (ix2 p q)
      = max ((((∑ k : Fin 128, x0 (ix2 p k) * x3 (ix2 k q)) * x1 (ix2 p (0 : Fin 1))) + x4 (ix1 q))
          + ∑ k : Fin 128, x2 (ix2 p k) * x5 (ix2 k q)) 0 + Cert.Stages.c02 * x6 (ix2 p q) := by
  unfold k2_pay1
  show max (((matmul dot_S4000x128_S128x128_S4000x128_1_0_0_1_n_n none (shapeCast S4000x128 x0 _)
                (truncf .bf16 (shapeCast S128x128 x3 _) bitsLt_bf16_f32) (constant S4000x128 .f32 0x00000000#32) (ix2 p q)
              * broadcastTo S4000x128 (shapeCast S4000x1 x1 _) broadcasts_S4000x1_S4000x128 (ix2 p q))
            + broadcastTo S4000x128 (shapeCast S1x128 (shapeCast S128 x4 _) shapeCasts_S128_S1x128)
                broadcasts_S1x128_S4000x128 (ix2 p q))
          + matmul dot_S4000x128_S128x128_S4000x128_1_0_0_1_n_n none (shapeCast S4000x128 x2 _)
              (truncf .bf16 (shapeCast S128x128 x5 _) bitsLt_bf16_f32) (constant S4000x128 .f32 0x00000000#32) (ix2 p q))
        (Ideal.ofBits .f32 0x00000000#32)
      + Ideal.ofBits .f32 0x3E4CCCCD#32 * shapeCast S4000x128 x6 _ (ix2 p q) = _
  rw [shapeCast_self x0, shapeCast_self x3, shapeCast_self x1, shapeCast_self x4, shapeCast_self x2, shapeCast_self x5,
    shapeCast_self x6, blockProduct_apply, blockProduct_apply, Cert.Lib.Keepdims.broadcastTo_a1_ab_apply,
    broadcastTo_1b_ab_apply, Cert.LibLreluRows.rowCast_apply, Ideal.ofBits_zero_f32]
  rfl

/-! ## The blocks a grid point reads and writes -/

variable (V : (c : Dev nD) → (b : Ref sig .tc) → Buf (Elt Ideal) ((c : Thread nD τ).loc b))

/-- Where each window's block sits at point t, decided over the 25 points: the row-blocked arrays at block (t, 0), the
    weights and the bias at their one block. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ win2_4.index t (0 : Fin 1) = 0
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- Row p of block t is row 4000·t + p of the array. -/
def row (t : Fin cfg2.N) (p : Fin 4000) : Fin 100000 :=
  ⟨t.val * 4000 + p.val, by have hN : cfg2.N = 25 := N_2; have := t.isLt; have := p.isLt; omega⟩

theorem row_val (t : Fin cfg2.N) (p : Fin 4000) : (row t p).val = t.val * 4000 + p.val := rfl

/-- The neighbour sums' block at point t, entry (p, k), is the array's entry (4000·t + p, k). -/
theorem blk0_apply (c : Dev nD) (t : Fin cfg2.N) (p : Fin 4000) (k : Fin 128) :
    (iblk2 V c 0 t : FVec Ideal S4000x128 .bf16) (ix2 p k)
      = (V c (Pipeline.arrRef spec2 0) : S100000x128.Idx → EReal) (ix2 (row t p) k) := by
  obtain ⟨⟨e0, e1⟩, -⟩ := idx_facts t
  show (V c (Pipeline.arrRef spec2 0) : S100000x128.Idx → EReal) (((cfg2.win 0).blk t).view.emb (ix2 p k)) = _
  refine congrArg (V c (Pipeline.arrRef spec2 0) : S100000x128.Idx → EReal) ?_
  funext a; apply Fin.ext
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

/-- The reciprocal degrees' block at point t, entry (p, 0), is the column's entry (4000·t + p, 0). -/
theorem blk1_apply (c : Dev nD) (t : Fin cfg2.N) (p : Fin 4000) :
    (iblk2 V c 1 t : FVec Ideal S4000x1 .f32) (ix2 p (0 : Fin 1))
      = (V c (Pipeline.arrRef spec2 1) : S100000x1.Idx → EReal) (ix2 (row t p) (0 : Fin 1)) := by
  obtain ⟨-, ⟨e0, e1⟩, -⟩ := idx_facts t
  show (V c (Pipeline.arrRef spec2 1) : S100000x1.Idx → EReal) (((cfg2.win 1).blk t).view.emb (ix2 p (0 : Fin 1))) = _
  refine congrArg (V c (Pipeline.arrRef spec2 1) : S100000x1.Idx → EReal) ?_
  funext a; apply Fin.ext
  match a with
  | ⟨0, _⟩ => show win2_1.index t (0 : Fin 2) * 4000 + 1 * p.val = t.val * 4000 + p.val; rw [e0]; omega
  | ⟨1, _⟩ => show win2_1.index t (1 : Fin 2) * 1 + 1 * 0 = 0; rw [e1]

/-- The layer input's block at point t, entry (p, k), is the array's entry (4000·t + p, k). -/
theorem blk2_apply (c : Dev nD) (t : Fin cfg2.N) (p : Fin 4000) (k : Fin 128) :
    (iblk2 V c 2 t : FVec Ideal S4000x128 .bf16) (ix2 p k)
      = (V c (Pipeline.arrRef spec2 2) : S100000x128.Idx → EReal) (ix2 (row t p) k) := by
  obtain ⟨-, -, ⟨e0, e1⟩, -⟩ := idx_facts t
  show (V c (Pipeline.arrRef spec2 2) : S100000x128.Idx → EReal) (((cfg2.win 2).blk t).view.emb (ix2 p k)) = _
  refine congrArg (V c (Pipeline.arrRef spec2 2) : S100000x128.Idx → EReal) ?_
  funext a; apply Fin.ext
  match a with
  | ⟨0, _⟩ => show win2_2.index t (0 : Fin 2) * 4000 + 1 * p.val = t.val * 4000 + p.val; rw [e0]; omega
  | ⟨1, _⟩ => show win2_2.index t (1 : Fin 2) * 128 + 1 * k.val = k.val; rw [e1]; omega

/-- The first weight matrix is staged whole. -/
theorem blk3_apply (c : Dev nD) (t : Fin cfg2.N) (k q : Fin 128) :
    (iblk2 V c 3 t : FVec Ideal S128x128 .f32) (ix2 k q)
      = (V c (Pipeline.arrRef spec2 3) : S128x128.Idx → EReal) (ix2 k q) := by
  obtain ⟨-, -, -, ⟨e0, e1⟩, -⟩ := idx_facts t
  show (V c (Pipeline.arrRef spec2 3) : S128x128.Idx → EReal) (((cfg2.win 3).blk t).view.emb (ix2 k q)) = _
  refine congrArg (V c (Pipeline.arrRef spec2 3) : S128x128.Idx → EReal) ?_
  funext a; apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The bias is staged whole. -/
theorem blk4_apply (c : Dev nD) (t : Fin cfg2.N) (q : Fin 128) :
    (iblk2 V c 4 t : FVec Ideal S128 .f32) (ix1 q)
      = (V c (Pipeline.arrRef spec2 4) : S128.Idx → EReal) (ix1 q) := by
  obtain ⟨-, -, -, -, e0, -⟩ := idx_facts t
  show (V c (Pipeline.arrRef spec2 4) : S128.Idx → EReal) (((cfg2.win 4).blk t).view.emb (ix1 q)) = _
  refine congrArg (V c (Pipeline.arrRef spec2 4) : S128.Idx → EReal) ?_
  funext a; apply Fin.ext
  match a with
  | ⟨0, _⟩ => show win2_4.index t (0 : Fin 1) * 128 + 1 * q.val = q.val; rw [e0]; omega

/-- The second weight matrix is staged whole. -/
theorem blk5_apply (c : Dev nD) (t : Fin cfg2.N) (k q : Fin 128) :
    (iblk2 V c 5 t : FVec Ideal S128x128 .f32) (ix2 k q)
      = (V c (Pipeline.arrRef spec2 5) : S128x128.Idx → EReal) (ix2 k q) := by
  obtain ⟨-, -, -, -, -, ⟨e0, e1⟩, -⟩ := idx_facts t
  show (V c (Pipeline.arrRef spec2 5) : S128x128.Idx → EReal) (((cfg2.win 5).blk t).view.emb (ix2 k q)) = _
  refine congrArg (V c (Pipeline.arrRef spec2 5) : S128x128.Idx → EReal) ?_
  funext a; apply Fin.ext
  match a with
  | ⟨0, _⟩ => show win2_5.index t (0 : Fin 2) * 128 + 1 * k.val = k.val; rw [e0]; omega
  | ⟨1, _⟩ => show win2_5.index t (1 : Fin 2) * 128 + 1 * q.val = q.val; rw [e1]; omega

/-- The skip input's block at point t, entry (p, q), is the array's entry (4000·t + p, q). -/
theorem blk6_apply (c : Dev nD) (t : Fin cfg2.N) (p : Fin 4000) (q : Fin 128) :
    (iblk2 V c 6 t : FVec Ideal S4000x128 .f32) (ix2 p q)
      = (V c (Pipeline.arrRef spec2 6) : S100000x128.Idx → EReal) (ix2 (row t p) q) := by
  obtain ⟨-, -, -, -, -, -, ⟨e0, e1⟩, -⟩ := idx_facts t
  show (V c (Pipeline.arrRef spec2 6) : S100000x128.Idx → EReal) (((cfg2.win 6).blk t).view.emb (ix2 p q)) = _
  refine congrArg (V c (Pipeline.arrRef spec2 6) : S100000x128.Idx → EReal) ?_
  funext a; apply Fin.ext
  match a with
  | ⟨0, _⟩ => show win2_6.index t (0 : Fin 2) * 4000 + 1 * p.val = t.val * 4000 + p.val; rw [e0]; omega
  | ⟨1, _⟩ => show win2_6.index t (1 : Fin 2) * 128 + 1 * q.val = q.val; rw [e1]; omega

/-- Entry (p, q) of the output's block at point t is the output array's entry (4000·t + p, q). -/
theorem emb7 (t : Fin cfg2.N) (p : Fin 4000) (q : Fin 128) :
    (((cfg2.win 7).blk t).view.emb (ix2 p q) : S100000x128.Idx) = ix2 (row t p) q := by
  obtain ⟨-, -, -, -, -, -, -, ⟨e0, e1⟩⟩ := idx_facts t
  funext a; apply Fin.ext
  match a with
  | ⟨0, _⟩ => show win2_7.index t (0 : Fin 2) * 4000 + 1 * p.val = t.val * 4000 + p.val; rw [e0]; omega
  | ⟨1, _⟩ => show win2_7.index t (1 : Fin 2) * 128 + 1 * q.val = q.val; rw [e1]; omega

/-! ## From blocks to the array -/

/-- The layer's function of the arrays the region finds: what the output array will hold. -/
def G (c : Dev nD) : Cert.Dense.Mat 100000 128 :=
  Cert.Stages.hidK (N := 100000) (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (V c (Pipeline.arrRef spec2 6))

/-- The value the body stores at entry (p, q) of block t is the layer's function of the whole arrays at row 4000·t + p:
    every block entry it reads is the array's entry at that row (or the whole weight's, the whole bias's). -/
theorem entry_eq (c : Dev nD) (t : Fin cfg2.N) (p : Fin 4000) (q : Fin 128)
    (x0 : FVec Ideal S4000x128 .bf16) (x1 : FVec Ideal S4000x1 .f32) (x2 : FVec Ideal S4000x128 .bf16)
    (x3 : FVec Ideal S128x128 .f32) (x4 : FVec Ideal S128 .f32) (x5 : FVec Ideal S128x128 .f32)
    (x6 : FVec Ideal S4000x128 .f32)
    (h0 : x0 = iblk2 V c 0 t) (h1 : x1 = iblk2 V c 1 t) (h2 : x2 = iblk2 V c 2 t) (h3 : x3 = iblk2 V c 3 t)
    (h4 : x4 = iblk2 V c 4 t) (h5 : x5 = iblk2 V c 5 t) (h6 : x6 = iblk2 V c 6 t) :
    max ((((∑ k : Fin 128, x0 (ix2 p k) * x3 (ix2 k q)) * x1 (ix2 p (0 : Fin 1))) + x4 (ix1 q))
        + ∑ k : Fin 128, x2 (ix2 p k) * x5 (ix2 k q)) 0 + Cert.Stages.c02 * x6 (ix2 p q)
      = G V c (ix2 (row t p) q) := by
  subst h0 h1 h2 h3 h4 h5 h6
  unfold G
  rw [Cert.Stages.hidK_apply]
  refine congrArg₂ (· + ·) (congrArg (fun z => max z 0) (congrArg₂ (· + ·) (congrArg₂ (· + ·) (congrArg₂ (· * ·)
    (Finset.sum_congr rfl fun k _ => congrArg₂ (· * ·) ?_ ?_) ?_) ?_)
    (Finset.sum_congr rfl fun k _ => congrArg₂ (· * ·) ?_ ?_))) (congrArg (fun z => Cert.Stages.c02 * z) ?_)
  · exact blk0_apply V c t p k
  · exact blk3_apply V c t k q
  · exact blk1_apply V c t p
  · exact blk4_apply V c t q
  · exact blk2_apply V c t p k
  · exact blk5_apply V c t k q
  · exact blk6_apply V c t p q

/-- What point t writes back is block t of the layer's function of the whole arrays. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 V c).after 7 t) = _
  rw [after2_7]
  unfold out2_7
  rw [View.canon_unit_zero hz2]
  simp only [View.ld_unit_zero (S := S4000x128) hz2, View.ld_unit_zero (S := S128x128) hz2,
    View.ld_unit_zero (S := S4000x1) hz2, View.ld_unit_zero (S := S128) hz1]
  funext j
  obtain ⟨p, q, rfl⟩ : ∃ (p : Fin 4000) (q : Fin 128), j = ix2 p q := ⟨j 0, j 1, eq_ix2 j⟩
  show k2_pay1 (F := Ideal) (iblk2 V c 0 t) (iblk2 V c 2 t) (iblk2 V c 3 t) (iblk2 V c 5 t) (iblk2 V c 1 t)
      (iblk2 V c 4 t) (iblk2 V c 6 t) (ix2 p q)
    = G V c (((cfg2.win 7).blk t).view.emb (ix2 p q))
  rw [emb7]
  exact (pay_apply _ _ _ _ _ _ _ p q).trans (entry_eq V c t p q _ _ _ _ _ _ _ rfl rfl rfl rfl rfl rfl rfl)

/-- An index of the output array is in point t's block iff each coordinate is in the block's range on its axis. -/
theorem mem_blk (t : Fin cfg2.N) (i : S100000x128.Idx) :
    i ∈ ((cfg2.win 7).blk t).view.set ↔ ∀ a : Fin 2, win2_7.index t a * S4000x128.size a ≤ (i a).val
      ∧ (i a).val < win2_7.index t a * S4000x128.size a + S4000x128.size a := by
  show i ∈ ((View.whole main_v51).slice (win2_7.rect t)).set ↔ _
  rw [View.set_slice_whole, Rect.mem_set_unit]
  exact Iff.rfl

/-- Every row lies in some point's block: row r in block r / 4000. -/
theorem cover (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 25 := N_2
  have ht : (i 0).val / 4000 < cfg2.N := by omega
  obtain ⟨-, -, -, -, -, -, -, ⟨e0, e1⟩⟩ := idx_facts (⟨(i 0).val / 4000, ht⟩ : Fin cfg2.N)
  have e0' : win2_7.index (⟨(i 0).val / 4000, ht⟩ : Fin cfg2.N) (0 : Fin 2) = (i 0).val / 4000 := e0
  refine ⟨⟨(i 0).val / 4000, ht⟩, flush2_7 _, ?_⟩
  rw [mem_blk]
  intro a
  match a with
  | ⟨0, _⟩ =>
    show win2_7.index (⟨(i 0).val / 4000, ht⟩ : Fin cfg2.N) (0 : Fin 2) * 4000 ≤ (i 0).val
      ∧ (i 0).val < win2_7.index (⟨(i 0).val / 4000, ht⟩ : Fin cfg2.N) (0 : Fin 2) * 4000 + 4000
    rw [e0']; omega
  | ⟨1, _⟩ =>
    show win2_7.index (⟨(i 0).val / 4000, ht⟩ : Fin cfg2.N) (1 : Fin 2) * 128 ≤ (i 1).val
      ∧ (i 1).val < win2_7.index (⟨(i 0).val / 4000, ht⟩ : Fin cfg2.N) (1 : Fin 2) * 128 + 128
    rw [e1]; omega

/-- The output array after the region holds the layer's function at every entry. -/
theorem final_G (c : Dev nD) : (dat2 (F := Ideal) V c).arrAt 7 cfg2.N = G V c :=
  (dat2 (F := Ideal) V c).arrAt_eq_of_cover 7 _ (fun t _ => flushed_eq V c t) cover

/-- The output array after the region: the hidden layer's function of the arrays the region found, at every entry. -/
theorem final (V : (c : Dev nD) → (b : Ref sig .tc) → Buf (Elt Ideal) ((c : Thread nD τ).loc b)) (c : Dev nD) :
    (dat2 (F := Ideal) V c).arrAt 7 cfg2.N
      = Cert.Stages.hidK (N := 100000) (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (V c (Pipeline.arrRef spec2 6)) :=
  final_G V c

end Cert.KernelIdeal.Reg2

end
-- ==== Proof.Region3.lean ====
/-
  One hidden layer's tiled region read as a whole array.

  The region walks 25 blocks of 4000 rows. At block t its body takes the block of the neighbour sums S, of the
  reciprocal degrees c, of the layer's input h and of the skip input, with the two weight matrices and the bias whole,
  and stores, at row p and column q of the block,

      max(((Σ_k S[p,k]·wl[k,q])·c[p] + bl[q]) + Σ_k h[p,k]·wr[k,q], 0) + 0.2·inp[p,q].

  Narrowing an operand to half precision changes nothing at exact values, and the matrix unit's product into a zero
  accumulator is the plain sum over the contracted index. Row p of block t is row 4000·t + p of each array, so the
  block a point writes back is that block of one function of the whole arrays; the 25 blocks tile the 100000 rows
  (row r lies in block r / 4000), hence the output array ends holding that function everywhere.
-/
import proofs.«108666_j83519934038393_2_alg».proof.Proof.Gen.KernelIdeal.Frame
import proofs.«108666_j83519934038393_2_alg».proof.Proof.Stages
import proofs.«108666_j83519934038393_2_alg».proof.Proof.LibKeepdims
import Idealize.ShloMosaic.Lib.Pipeline.Value

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-! ## The body's arithmetic at one entry of a block -/

/-- The matrix unit's product of a half-precision block with a narrowed weight matrix, into the zero accumulator, is the
    plain sum over the contracted index. -/
theorem blockProduct_apply (x : FVec Ideal S4000x128 .bf16) (w : FVec Ideal S128x128 .f32) (p : Fin 4000) (q : Fin 128) :
    matmul dot_S4000x128_S128x128_S4000x128_1_0_0_1_n_n none x (truncf .bf16 w bitsLt_bf16_f32)
        (constant S4000x128 .f32 0x00000000#32) (ix2 p q)
      = ∑ k : Fin 128, x (ix2 p k) * w (ix2 k q) :=
  Cert.LibPlainContract.matmul_plain_apply 4000 128 128 none x (truncf .bf16 w bitsLt_bf16_f32) p q

/-- The stored value at row p, column q of a block, from the blocks the body loads. -/
theorem pay_apply (x0 : FVec Ideal S4000x128 .bf16) (x1 : FVec Ideal S4000x1 .f32) (x2 : FVec Ideal S4000x128 .bf16)
    (x3 : FVec Ideal S128x128 .f32) (x4 : FVec Ideal S128 .f32) (x5 : FVec Ideal S128x128 .f32)
    (x6 : FVec Ideal S4000x128 .f32) (p : Fin 4000) (q : Fin 128) :
    k3_pay1 (F := Ideal) x0 x2 x3 x5 x1 x4 x6 (ix2 p q)
      = max ((((∑ k : Fin 128, x0 (ix2 p k) * x3 (ix2 k q)) * x1 (ix2 p (0 : Fin 1))) + x4 (ix1 q))
          + ∑ k : Fin 128, x2 (ix2 p k) * x5 (ix2 k q)) 0 + Cert.Stages.c02 * x6 (ix2 p q) := by
  unfold k3_pay1
  show max (((matmul dot_S4000x128_S128x128_S4000x128_1_0_0_1_n_n none (shapeCast S4000x128 x0 _)
                (truncf .bf16 (shapeCast S128x128 x3 _) bitsLt_bf16_f32) (constant S4000x128 .f32 0x00000000#32) (ix2 p q)
              * broadcastTo S4000x128 (shapeCast S4000x1 x1 _) broadcasts_S4000x1_S4000x128 (ix2 p q))
            + broadcastTo S4000x128 (shapeCast S1x128 (shapeCast S128 x4 _) shapeCasts_S128_S1x128)
                broadcasts_S1x128_S4000x128 (ix2 p q))
          + matmul dot_S4000x128_S128x128_S4000x128_1_0_0_1_n_n none (shapeCast S4000x128 x2 _)
              (truncf .bf16 (shapeCast S128x128 x5 _) bitsLt_bf16_f32) (constant S4000x128 .f32 0x00000000#32) (ix2 p q))
        (Ideal.ofBits .f32 0x00000000#32)
      + Ideal.ofBits .f32 0x3E4CCCCD#32 * shapeCast S4000x128 x6 _ (ix2 p q) = _
  rw [shapeCast_self x0, shapeCast_self x3, shapeCast_self x1, shapeCast_self x4, shapeCast_self x2, shapeCast_self x5,
    shapeCast_self x6, blockProduct_apply, blockProduct_apply, Cert.Lib.Keepdims.broadcastTo_a1_ab_apply,
    broadcastTo_1b_ab_apply, Cert.LibLreluRows.rowCast_apply, Ideal.ofBits_zero_f32]
  rfl

/-! ## The blocks a grid point reads and writes -/

variable (V : (c : Dev nD) → (b : Ref sig .tc) → Buf (Elt Ideal) ((c : Thread nD τ).loc b))

/-- Where each window's block sits at point t, decided over the 25 points: the row-blocked arrays at block (t, 0), the
    weights and the bias at their one block. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ win3_4.index t (0 : Fin 1) = 0
    ∧ (win3_5.index t (0 : Fin 2) = 0 ∧ win3_5.index t (1 : Fin 2) = 0)
    ∧ (win3_6.index t (0 : Fin 2) = t.val ∧ win3_6.index t (1 : Fin 2) = 0)
    ∧ (win3_7.index t (0 : Fin 2) = t.val ∧ win3_7.index t (1 : Fin 2) = 0) :=
  (by decide +kernel : ∀ t : Fin grid3.N, _)

/-- Row p of block t is row 4000·t + p of the array. -/
def row (t : Fin cfg3.N) (p : Fin 4000) : Fin 100000 :=
  ⟨t.val * 4000 + p.val, by have hN : cfg3.N = 25 := N_3; have := t.isLt; have := p.isLt; omega⟩

theorem row_val (t : Fin cfg3.N) (p : Fin 4000) : (row t p).val = t.val * 4000 + p.val := rfl

/-- The neighbour sums' block at point t, entry (p, k), is the array's entry (4000·t + p, k). -/
theorem blk0_apply (c : Dev nD) (t : Fin cfg3.N) (p : Fin 4000) (k : Fin 128) :
    (iblk3 V c 0 t : FVec Ideal S4000x128 .bf16) (ix2 p k)
      = (V c (Pipeline.arrRef spec3 0) : S100000x128.Idx → EReal) (ix2 (row t p) k) := by
  obtain ⟨⟨e0, e1⟩, -⟩ := idx_facts t
  show (V c (Pipeline.arrRef spec3 0) : S100000x128.Idx → EReal) (((cfg3.win 0).blk t).view.emb (ix2 p k)) = _
  refine congrArg (V c (Pipeline.arrRef spec3 0) : S100000x128.Idx → EReal) ?_
  funext a; apply Fin.ext
  match a with
  | ⟨0, _⟩ => show win3_0.index t (0 : Fin 2) * 4000 + 1 * p.val = t.val * 4000 + p.val; rw [e0]; omega
  | ⟨1, _⟩ => show win3_0.index t (1 : Fin 2) * 128 + 1 * k.val = k.val; rw [e1]; omega

/-- The reciprocal degrees' block at point t, entry (p, 0), is the column's entry (4000·t + p, 0). -/
theorem blk1_apply (c : Dev nD) (t : Fin cfg3.N) (p : Fin 4000) :
    (iblk3 V c 1 t : FVec Ideal S4000x1 .f32) (ix2 p (0 : Fin 1))
      = (V c (Pipeline.arrRef spec3 1) : S100000x1.Idx → EReal) (ix2 (row t p) (0 : Fin 1)) := by
  obtain ⟨-, ⟨e0, e1⟩, -⟩ := idx_facts t
  show (V c (Pipeline.arrRef spec3 1) : S100000x1.Idx → EReal) (((cfg3.win 1).blk t).view.emb (ix2 p (0 : Fin 1))) = _
  refine congrArg (V c (Pipeline.arrRef spec3 1) : S100000x1.Idx → EReal) ?_
  funext a; apply Fin.ext
  match a with
  | ⟨0, _⟩ => show win3_1.index t (0 : Fin 2) * 4000 + 1 * p.val = t.val * 4000 + p.val; rw [e0]; omega
  | ⟨1, _⟩ => show win3_1.index t (1 : Fin 2) * 1 + 1 * 0 = 0; rw [e1]

/-- The layer input's block at point t, entry (p, k), is the array's entry (4000·t + p, k). -/
theorem blk2_apply (c : Dev nD) (t : Fin cfg3.N) (p : Fin 4000) (k : Fin 128) :
    (iblk3 V c 2 t : FVec Ideal S4000x128 .bf16) (ix2 p k)
      = (V c (Pipeline.arrRef spec3 2) : S100000x128.Idx → EReal) (ix2 (row t p) k) := by
  obtain ⟨-, -, ⟨e0, e1⟩, -⟩ := idx_facts t
  show (V c (Pipeline.arrRef spec3 2) : S100000x128.Idx → EReal) (((cfg3.win 2).blk t).view.emb (ix2 p k)) = _
  refine congrArg (V c (Pipeline.arrRef spec3 2) : S100000x128.Idx → EReal) ?_
  funext a; apply Fin.ext
  match a with
  | ⟨0, _⟩ => show win3_2.index t (0 : Fin 2) * 4000 + 1 * p.val = t.val * 4000 + p.val; rw [e0]; omega
  | ⟨1, _⟩ => show win3_2.index t (1 : Fin 2) * 128 + 1 * k.val = k.val; rw [e1]; omega

/-- The first weight matrix is staged whole. -/
theorem blk3_apply (c : Dev nD) (t : Fin cfg3.N) (k q : Fin 128) :
    (iblk3 V c 3 t : FVec Ideal S128x128 .f32) (ix2 k q)
      = (V c (Pipeline.arrRef spec3 3) : S128x128.Idx → EReal) (ix2 k q) := by
  obtain ⟨-, -, -, ⟨e0, e1⟩, -⟩ := idx_facts t
  show (V c (Pipeline.arrRef spec3 3) : S128x128.Idx → EReal) (((cfg3.win 3).blk t).view.emb (ix2 k q)) = _
  refine congrArg (V c (Pipeline.arrRef spec3 3) : S128x128.Idx → EReal) ?_
  funext a; apply Fin.ext
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- The bias is staged whole. -/
theorem blk4_apply (c : Dev nD) (t : Fin cfg3.N) (q : Fin 128) :
    (iblk3 V c 4 t : FVec Ideal S128 .f32) (ix1 q)
      = (V c (Pipeline.arrRef spec3 4) : S128.Idx → EReal) (ix1 q) := by
  obtain ⟨-, -, -, -, e0, -⟩ := idx_facts t
  show (V c (Pipeline.arrRef spec3 4) : S128.Idx → EReal) (((cfg3.win 4).blk t).view.emb (ix1 q)) = _
  refine congrArg (V c (Pipeline.arrRef spec3 4) : S128.Idx → EReal) ?_
  funext a; apply Fin.ext
  match a with
  | ⟨0, _⟩ => show win3_4.index t (0 : Fin 1) * 128 + 1 * q.val = q.val; rw [e0]; omega

/-- The second weight matrix is staged whole. -/
theorem blk5_apply (c : Dev nD) (t : Fin cfg3.N) (k q : Fin 128) :
    (iblk3 V c 5 t : FVec Ideal S128x128 .f32) (ix2 k q)
      = (V c (Pipeline.arrRef spec3 5) : S128x128.Idx → EReal) (ix2 k q) := by
  obtain ⟨-, -, -, -, -, ⟨e0, e1⟩, -⟩ := idx_facts t
  show (V c (Pipeline.arrRef spec3 5) : S128x128.Idx → EReal) (((cfg3.win 5).blk t).view.emb (ix2 k q)) = _
  refine congrArg (V c (Pipeline.arrRef spec3 5) : S128x128.Idx → EReal) ?_
  funext a; apply Fin.ext
  match a with
  | ⟨0, _⟩ => show win3_5.index t (0 : Fin 2) * 128 + 1 * k.val = k.val; rw [e0]; omega
  | ⟨1, _⟩ => show win3_5.index t (1 : Fin 2) * 128 + 1 * q.val = q.val; rw [e1]; omega

/-- The skip input's block at point t, entry (p, q), is the array's entry (4000·t + p, q). -/
theorem blk6_apply (c : Dev nD) (t : Fin cfg3.N) (p : Fin 4000) (q : Fin 128) :
    (iblk3 V c 6 t : FVec Ideal S4000x128 .f32) (ix2 p q)
      = (V c (Pipeline.arrRef spec3 6) : S100000x128.Idx → EReal) (ix2 (row t p) q) := by
  obtain ⟨-, -, -, -, -, -, ⟨e0, e1⟩, -⟩ := idx_facts t
  show (V c (Pipeline.arrRef spec3 6) : S100000x128.Idx → EReal) (((cfg3.win 6).blk t).view.emb (ix2 p q)) = _
  refine congrArg (V c (Pipeline.arrRef spec3 6) : S100000x128.Idx → EReal) ?_
  funext a; apply Fin.ext
  match a with
  | ⟨0, _⟩ => show win3_6.index t (0 : Fin 2) * 4000 + 1 * p.val = t.val * 4000 + p.val; rw [e0]; omega
  | ⟨1, _⟩ => show win3_6.index t (1 : Fin 2) * 128 + 1 * q.val = q.val; rw [e1]; omega

/-- Entry (p, q) of the output's block at point t is the output array's entry (4000·t + p, q). -/
theorem emb7 (t : Fin cfg3.N) (p : Fin 4000) (q : Fin 128) :
    (((cfg3.win 7).blk t).view.emb (ix2 p q) : S100000x128.Idx) = ix2 (row t p) q := by
  obtain ⟨-, -, -, -, -, -, -, ⟨e0, e1⟩⟩ := idx_facts t
  funext a; apply Fin.ext
  match a with
  | ⟨0, _⟩ => show win3_7.index t (0 : Fin 2) * 4000 + 1 * p.val = t.val * 4000 + p.val; rw [e0]; omega
  | ⟨1, _⟩ => show win3_7.index t (1 : Fin 2) * 128 + 1 * q.val = q.val; rw [e1]; omega

/-! ## From blocks to the array -/

/-- The layer's function of the arrays the region finds: what the output array will hold. -/
def G (c : Dev nD) : Cert.Dense.Mat 100000 128 :=
  Cert.Stages.hidK (N := 100000) (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6))

/-- The value the body stores at entry (p, q) of block t is the layer's function of the whole arrays at row 4000·t + p:
    every block entry it reads is the array's entry at that row (or the whole weight's, the whole bias's). -/
theorem entry_eq (c : Dev nD) (t : Fin cfg3.N) (p : Fin 4000) (q : Fin 128)
    (x0 : FVec Ideal S4000x128 .bf16) (x1 : FVec Ideal S4000x1 .f32) (x2 : FVec Ideal S4000x128 .bf16)
    (x3 : FVec Ideal S128x128 .f32) (x4 : FVec Ideal S128 .f32) (x5 : FVec Ideal S128x128 .f32)
    (x6 : FVec Ideal S4000x128 .f32)
    (h0 : x0 = iblk3 V c 0 t) (h1 : x1 = iblk3 V c 1 t) (h2 : x2 = iblk3 V c 2 t) (h3 : x3 = iblk3 V c 3 t)
    (h4 : x4 = iblk3 V c 4 t) (h5 : x5 = iblk3 V c 5 t) (h6 : x6 = iblk3 V c 6 t) :
    max ((((∑ k : Fin 128, x0 (ix2 p k) * x3 (ix2 k q)) * x1 (ix2 p (0 : Fin 1))) + x4 (ix1 q))
        + ∑ k : Fin 128, x2 (ix2 p k) * x5 (ix2 k q)) 0 + Cert.Stages.c02 * x6 (ix2 p q)
      = G V c (ix2 (row t p) q) := by
  subst h0 h1 h2 h3 h4 h5 h6
  unfold G
  rw [Cert.Stages.hidK_apply]
  refine congrArg₂ (· + ·) (congrArg (fun z => max z 0) (congrArg₂ (· + ·) (congrArg₂ (· + ·) (congrArg₂ (· * ·)
    (Finset.sum_congr rfl fun k _ => congrArg₂ (· * ·) ?_ ?_) ?_) ?_)
    (Finset.sum_congr rfl fun k _ => congrArg₂ (· * ·) ?_ ?_))) (congrArg (fun z => Cert.Stages.c02 * z) ?_)
  · exact blk0_apply V c t p k
  · exact blk3_apply V c t k q
  · exact blk1_apply V c t p
  · exact blk4_apply V c t q
  · exact blk2_apply V c t p k
  · exact blk5_apply V c t k q
  · exact blk6_apply V c t p q

/-- What point t writes back is block t of the layer's function of the whole arrays. -/
theorem flushed_eq (c : Dev nD) (t : Fin cfg3.N) :
    (dat3 (F := Ideal) V c).flushed 7 t = ((cfg3.win 7).blk t).view.read (Elt Ideal) (G V c) := by
  show (cfg3.win 7).cut (grid3.coords t) ((dat3 V c).after 7 t) = _
  rw [after3_7]
  unfold out3_7
  rw [View.canon_unit_zero hz2]
  simp only [View.ld_unit_zero (S := S4000x128) hz2, View.ld_unit_zero (S := S128x128) hz2,
    View.ld_unit_zero (S := S4000x1) hz2, View.ld_unit_zero (S := S128) hz1]
  funext j
  obtain ⟨p, q, rfl⟩ : ∃ (p : Fin 4000) (q : Fin 128), j = ix2 p q := ⟨j 0, j 1, eq_ix2 j⟩
  show k3_pay1 (F := Ideal) (iblk3 V c 0 t) (iblk3 V c 2 t) (iblk3 V c 3 t) (iblk3 V c 5 t) (iblk3 V c 1 t)
      (iblk3 V c 4 t) (iblk3 V c 6 t) (ix2 p q)
    = G V c (((cfg3.win 7).blk t).view.emb (ix2 p q))
  rw [emb7]
  exact (pay_apply _ _ _ _ _ _ _ p q).trans (entry_eq V c t p q _ _ _ _ _ _ _ rfl rfl rfl rfl rfl rfl rfl)

/-- An index of the output array is in point t's block iff each coordinate is in the block's range on its axis. -/
theorem mem_blk (t : Fin cfg3.N) (i : S100000x128.Idx) :
    i ∈ ((cfg3.win 7).blk t).view.set ↔ ∀ a : Fin 2, win3_7.index t a * S4000x128.size a ≤ (i a).val
      ∧ (i a).val < win3_7.index t a * S4000x128.size a + S4000x128.size a := by
  show i ∈ ((View.whole main_v70).slice (win3_7.rect t)).set ↔ _
  rw [View.set_slice_whole, Rect.mem_set_unit]
  exact Iff.rfl

/-- Every row lies in some point's block: row r in block r / 4000. -/
theorem cover (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 25 := N_3
  have ht : (i 0).val / 4000 < cfg3.N := by omega
  obtain ⟨-, -, -, -, -, -, -, ⟨e0, e1⟩⟩ := idx_facts (⟨(i 0).val / 4000, ht⟩ : Fin cfg3.N)
  have e0' : win3_7.index (⟨(i 0).val / 4000, ht⟩ : Fin cfg3.N) (0 : Fin 2) = (i 0).val / 4000 := e0
  refine ⟨⟨(i 0).val / 4000, ht⟩, flush3_7 _, ?_⟩
  rw [mem_blk]
  intro a
  match a with
  | ⟨0, _⟩ =>
    show win3_7.index (⟨(i 0).val / 4000, ht⟩ : Fin cfg3.N) (0 : Fin 2) * 4000 ≤ (i 0).val
      ∧ (i 0).val < win3_7.index (⟨(i 0).val / 4000, ht⟩ : Fin cfg3.N) (0 : Fin 2) * 4000 + 4000
    rw [e0']; omega
  | ⟨1, _⟩ =>
    show win3_7.index (⟨(i 0).val / 4000, ht⟩ : Fin cfg3.N) (1 : Fin 2) * 128 ≤ (i 1).val
      ∧ (i 1).val < win3_7.index (⟨(i 0).val / 4000, ht⟩ : Fin cfg3.N) (1 : Fin 2) * 128 + 128
    rw [e1]; omega

/-- The output array after the region holds the layer's function at every entry. -/
theorem final_G (c : Dev nD) : (dat3 (F := Ideal) V c).arrAt 7 cfg3.N = G V c :=
  (dat3 (F := Ideal) V c).arrAt_eq_of_cover 7 _ (fun t _ => flushed_eq V c t) cover

/-- The output array after the region: the hidden layer's function of the arrays the region found, at every entry. -/
theorem final (V : (c : Dev nD) → (b : Ref sig .tc) → Buf (Elt Ideal) ((c : Thread nD τ).loc b)) (c : Dev nD) :
    (dat3 (F := Ideal) V c).arrAt 7 cfg3.N
      = Cert.Stages.hidK (N := 100000) (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6)) :=
  final_G V c

end Cert.KernelIdeal.Reg3

end
-- ==== Proof.Region4.lean ====
/-
  The projection region before the last neighbour sum, read as a whole array.

  The region walks 25 blocks of 4000 rows. At block t its body multiplies the block of the last hidden layer's rows by the
  whole 128-by-47 weight matrix on the matrix unit, into a zero accumulator, and stores the product; narrowing to half
  precision changes nothing at exact values. Entry (p, q) of block t is therefore Σ_k h[4000·t + p, k]·W[k, q]: the
  block a point writes back is that block of the product of the whole arrays, and the 25 blocks tile the 100000 rows
  (row r lies in block r / 4000), so the output array ends holding the product everywhere.
-/
import proofs.«108666_j83519934038393_2_alg».proof.Proof.Gen.KernelIdeal.Frame
import proofs.«108666_j83519934038393_2_alg».proof.Proof.Stages
import Idealize.ShloMosaic.Lib.Pipeline.Value

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-! ## The body's arithmetic at one entry of a block -/

/-- The stored value at row p, column q of a block: the plain sum over the contracted index. -/
theorem pay_apply (x0 : FVec Ideal S4000x128 .bf16) (x1 : FVec Ideal S128x47 .f32) (p : Fin 4000) (q : Fin 47) :
    k4_pay1 (F := Ideal) x0 x1 (ix2 p q) = ∑ k : Fin 128, x0 (ix2 p k) * x1 (ix2 k q) := by
  unfold k4_pay1
  show matmul dot_S4000x128_S128x47_S4000x47_1_0_0_1_n_n none (shapeCast S4000x128 x0 _)
      (truncf .bf16 x1 bitsLt_bf16_f32) (constant S4000x47 .f32 0x00000000#32) (ix2 p q) = _
  rw [shapeCast_self x0]
  exact Cert.LibPlainContract.matmul_plain_apply 4000 128 47 none x0 (truncf .bf16 x1 bitsLt_bf16_f32) p q

/-! ## The blocks a grid point reads and writes -/

variable (V : (c : Dev nD) → (b : Ref sig .tc) → Buf (Elt Ideal) ((c : Thread nD τ).loc b))

/-- Where each window's block sits at point t, decided over the 25 points: the row-blocked arrays at block (t, 0), the
    weight matrix at its one block. -/
theorem idx_facts : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = t.val ∧ win4_2.index t (1 : Fin 2) = 0) :=
  (by decide +kernel : ∀ t : Fin grid4.N, _)

/-- Row p of block t is row 4000·t + p of the array. -/
def row (t : Fin cfg4.N) (p : Fin 4000) : Fin 100000 :=
  ⟨t.val * 4000 + p.val, by have hN : cfg4.N = 25 := N_4; have := t.isLt; have := p.isLt; omega⟩

/-- The hidden rows' block at point t, entry (p, k), is the array's entry (4000·t + p, k). -/
theorem blk0_apply (c : Dev nD) (t : Fin cfg4.N) (p : Fin 4000) (k : Fin 128) :
    (iblk4 V c 0 t : FVec Ideal S4000x128 .bf16) (ix2 p k)
      = (V c (Pipeline.arrRef spec4 0) : S100000x128.Idx → EReal) (ix2 (row t p) k) := by
  obtain ⟨⟨e0, e1⟩, -⟩ := idx_facts t
  show (V c (Pipeline.arrRef spec4 0) : S100000x128.Idx → EReal) (((cfg4.win 0).blk t).view.emb (ix2 p k)) = _
  refine congrArg (V c (Pipeline.arrRef spec4 0) : S100000x128.Idx → EReal) ?_
  funext a; apply Fin.ext
  match a with
  | ⟨0, _⟩ => show win4_0.index t (0 : Fin 2) * 4000 + 1 * p.val = t.val * 4000 + p.val; rw [e0]; omega
  | ⟨1, _⟩ => show win4_0.index t (1 : Fin 2) * 128 + 1 * k.val = k.val; rw [e1]; omega

/-- The weight matrix is staged whole. -/
theorem blk1_apply (c : Dev nD) (t : Fin cfg4.N) (k : Fin 128) (q : Fin 47) :
    (iblk4 V c 1 t : FVec Ideal S128x47 .f32) (ix2 k q)
      = (V c (Pipeline.arrRef spec4 1) : S128x47.Idx → EReal) (ix2 k q) := by
  obtain ⟨-, ⟨e0, e1⟩, -⟩ := idx_facts t
  show (V c (Pipeline.arrRef spec4 1) : S128x47.Idx → EReal) (((cfg4.win 1).blk t).view.emb (ix2 k q)) = _
  refine congrArg (V c (Pipeline.arrRef spec4 1) : S128x47.Idx → EReal) ?_
  funext a; apply Fin.ext
  match a with
  | ⟨0, _⟩ => show win4_1.index t (0 : Fin 2) * 128 + 1 * k.val = k.val; rw [e0]; omega
  | ⟨1, _⟩ => show win4_1.index t (1 : Fin 2) * 47 + 1 * q.val = q.val; rw [e1]; omega

/-- Entry (p, q) of the output's block at point t is the output array's entry (4000·t + p, q). -/
theorem emb2 (t : Fin cfg4.N) (p : Fin 4000) (q : Fin 47) :
    (((cfg4.win 2).blk t).view.emb (ix2 p q) : S100000x47.Idx) = ix2 (row t p) q := by
  obtain ⟨-, -, ⟨e0, e1⟩⟩ := idx_facts t
  funext a; apply Fin.ext
  match a with
  | ⟨0, _⟩ => show win4_2.index t (0 : Fin 2) * 4000 + 1 * p.val = t.val * 4000 + p.val; rw [e0]; omega
  | ⟨1, _⟩ => show win4_2.index t (1 : Fin 2) * 47 + 1 * q.val = q.val; rw [e1]; omega

/-! ## From blocks to the array -/

/-- The product of the arrays the region finds: what the output array will hold. -/
def G (c : Dev nD) : Cert.Dense.Mat 100000 47 :=
  Cert.Stages.proj (N := 100000) (V c (Pipeline.arrRef spec4 0)) (V c (Pipeline.arrRef spec4 1))

/-- The sum the body stores at entry (p, q) of block t is the whole arrays' product at row 4000·t + p. -/
theorem entry_eq (c : Dev nD) (t : Fin cfg4.N) (p : Fin 4000) (q : Fin 47)
    (x0 : FVec Ideal S4000x128 .bf16) (x1 : FVec Ideal S128x47 .f32)
    (h0 : x0 = iblk4 V c 0 t) (h1 : x1 = iblk4 V c 1 t) :
    ∑ k : Fin 128, x0 (ix2 p k) * x1 (ix2 k q) = G V c (ix2 (row t p) q) := by
  subst h0 h1
  unfold G
  rw [Cert.Stages.proj_apply]
  refine Finset.sum_congr rfl fun k _ => congrArg₂ (· * ·) ?_ ?_
  · exact blk0_apply V c t p k
  · exact blk1_apply V c t k q

/-- What point t writes back is block t of the product of the whole arrays. -/
theorem flushed_eq (c : Dev nD) (t : Fin cfg4.N) :
    (dat4 (F := Ideal) V c).flushed 2 t = ((cfg4.win 2).blk t).view.read (Elt Ideal) (G V c) := by
  show (cfg4.win 2).cut (grid4.coords t) ((dat4 V c).after 2 t) = _
  rw [after4_2]
  unfold out4_2
  rw [View.canon_unit_zero hz2]
  simp only [View.ld_unit_zero (S := S4000x128) hz2, View.ld_unit_zero (S := S128x47) hz2]
  funext j
  obtain ⟨p, q, rfl⟩ : ∃ (p : Fin 4000) (q : Fin 47), j = ix2 p q := ⟨j 0, j 1, eq_ix2 j⟩
  show k4_pay1 (F := Ideal) (iblk4 V c 0 t) (iblk4 V c 1 t) (ix2 p q)
    = G V c (((cfg4.win 2).blk t).view.emb (ix2 p q))
  rw [emb2]
  exact (pay_apply _ _ p q).trans (entry_eq V c t p q _ _ rfl rfl)

/-- An index of the output array is in point t's block iff each coordinate is in the block's range on its axis. -/
theorem mem_blk (t : Fin cfg4.N) (i : S100000x47.Idx) :
    i ∈ ((cfg4.win 2).blk t).view.set ↔ ∀ a : Fin 2, win4_2.index t a * S4000x47.size a ≤ (i a).val
      ∧ (i a).val < win4_2.index t a * S4000x47.size a + S4000x47.size a := by
  show i ∈ ((View.whole main_v71).slice (win4_2.rect t)).set ↔ _
  rw [View.set_slice_whole, Rect.mem_set_unit]
  exact Iff.rfl

/-- Every row lies in some point's block: row r in block r / 4000. -/
theorem cover (i : S100000x47.Idx) :
    ∃ t : Fin cfg4.N, (cfg4.win 2).flush t = true ∧ i ∈ ((cfg4.win 2).blk t).view.set := by
  have hi0 : (i 0).val < 100000 := (i 0).isLt
  have hi1 : (i 1).val < 47 := (i 1).isLt
  have hN : cfg4.N = 25 := N_4
  have ht : (i 0).val / 4000 < cfg4.N := by omega
  obtain ⟨-, -, ⟨e0, e1⟩⟩ := idx_facts (⟨(i 0).val / 4000, ht⟩ : Fin cfg4.N)
  have e0' : win4_2.index (⟨(i 0).val / 4000, ht⟩ : Fin cfg4.N) (0 : Fin 2) = (i 0).val / 4000 := e0
  refine ⟨⟨(i 0).val / 4000, ht⟩, flush4_2 _, ?_⟩
  rw [mem_blk]
  intro a
  match a with
  | ⟨0, _⟩ =>
    show win4_2.index (⟨(i 0).val / 4000, ht⟩ : Fin cfg4.N) (0 : Fin 2) * 4000 ≤ (i 0).val
      ∧ (i 0).val < win4_2.index (⟨(i 0).val / 4000, ht⟩ : Fin cfg4.N) (0 : Fin 2) * 4000 + 4000
    rw [e0']; omega
  | ⟨1, _⟩ =>
    show win4_2.index (⟨(i 0).val / 4000, ht⟩ : Fin cfg4.N) (1 : Fin 2) * 47 ≤ (i 1).val
      ∧ (i 1).val < win4_2.index (⟨(i 0).val / 4000, ht⟩ : Fin cfg4.N) (1 : Fin 2) * 47 + 47
    rw [e1]; omega

/-- The output array after the region holds the product at every entry. -/
theorem final_G (c : Dev nD) : (dat4 (F := Ideal) V c).arrAt 2 cfg4.N = G V c :=
  (dat4 (F := Ideal) V c).arrAt_eq_of_cover 2 _ (fun t _ => flushed_eq V c t) cover

/-- The output array after the region: the product of the hidden rows with the weight matrix, at every entry. -/
theorem final (V : (c : Dev nD) → (b : Ref sig .tc) → Buf (Elt Ideal) ((c : Thread nD τ).loc b)) (c : Dev nD) :
    (dat4 (F := Ideal) V c).arrAt 2 cfg4.N
      = Cert.Stages.proj (N := 100000) (V c (Pipeline.arrRef spec4 0)) (V c (Pipeline.arrRef spec4 1)) :=
  final_G V c

end Cert.KernelIdeal.Reg4

end
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.Region5.lean ====
/-
  The last kernel region (the output layer), read as whole arrays.

  The region walks the N = 100000 rows in 25 blocks of 4000 rows. At point t it takes rows 4000·t … 4000·t + 3999 of the
  neighbour sum Z of the projected rows, of the column c of reciprocal degrees and of h, and the whole weight matrix and
  bias, forms the block's scores  (Z[p,q]·c[p] + b[q]) + Σ_k h[p,k]·W[k,q],  and writes back their row-wise log-softmax:
  each score minus its row's maximum, minus the logarithm of the row's sum of exponentials of those differences.
  The maximum and the sum of a row read that row's scores only, and a row's scores read that row's entries only, so
  entry (4000·t + p, q) of the output is the entry of  Stages.lsm (Stages.logitsK Z c h W b)  of the whole arrays at that
  row: the blocks tile the array, so the array ends holding that function.
-/
import proofs.«108666_j83519934038393_2_alg».proof.Proof.Gen.KernelIdeal.Frame
import proofs.«108666_j83519934038393_2_alg».proof.Proof.Stages
import proofs.«108666_j83519934038393_2_alg».proof.Proof.LibRowFold
import proofs.«108666_j83519934038393_2_alg».proof.Proof.LibKeepdims
import Idealize.ShloMosaic.Lib.Pipeline.Value

noncomputable section

namespace Cert.KernelIdeal.Reg5

open Idealize.ShloMosaic Idealize.ShloMosaic.ValueIdx Idealize.ShloMosaic.TcCoe Idealize.SL.Sem
open Idealize.ShloMosaic.Pipeline (Dat)
open Cert.KernelIdeal Cert.KernelIdeal.Gen
open Cert.Dense (Mat Row)

/-! ## The last layer's body on one block of rows -/

/-- The word the row maximum starts from is −∞. -/
theorem negInf : Ideal.ofBits .f32 0xFF800000#32 = (⊥ : EReal) := by simp [Ideal.ofBits, Ideal.ieee]

/-- The scores of a block at one entry: the neighbour sum scaled by the row's factor, plus the bias, plus the
    product of the row of h with the column of the weights. -/
theorem scores_apply (hc0 : S4000x128.ShapeCasts S4000x128) (hb : FTy.bf16.bits < FTy.f32.bits)
    (hc1 : S4000x47.ShapeCasts S4000x47) (hc2 : S4000x1.ShapeCasts S4000x1) (hbc : S4000x1.Broadcasts S4000x47)
    (hc3 : S47.ShapeCasts S1x47) (hbr : S1x47.Broadcasts S4000x47)
    (h : FVec Ideal S4000x128 .bf16) (wr : FVec Ideal S128x47 .f32) (Z : FVec Ideal S4000x47 .f32)
    (c : FVec Ideal S4000x1 .f32) (bl : FVec Ideal S47 .f32) (p : Fin 4000) (q : Fin 47) :
    addf (addf (mulf (shapeCast S4000x47 Z hc1) (broadcastTo S4000x47 (shapeCast S4000x1 c hc2) hbc))
          (broadcastTo S4000x47 (shapeCast S1x47 bl hc3) hbr))
        (matmul (DotDims.plain 4000 128 47) none (shapeCast S4000x128 h hc0) (truncf .bf16 wr hb)
          (constant S4000x47 .f32 0x00000000#32)) (ix2 p q)
      = ((Z (ix2 p q) * c (ix2 p (0 : Fin 1))) + bl (ix1 q)) + ∑ k : Fin 128, h (ix2 p k) * wr (ix2 k q) := by
  have e1 : shapeCast S4000x47 Z hc1 (ix2 p q) = Z (ix2 p q) := by rw [shapeCast_self]
  have e2 : broadcastTo S4000x47 (shapeCast S4000x1 c hc2) hbc (ix2 p q) = c (ix2 p (0 : Fin 1)) :=
    (Cert.Lib.Keepdims.broadcastTo_a1_ab_apply (shapeCast S4000x1 c hc2) hbc p q).trans (by rw [shapeCast_self])
  have e3 : broadcastTo S4000x47 (shapeCast S1x47 bl hc3) hbr (ix2 p q) = bl (ix1 q) :=
    (broadcastTo_1b_ab_apply (shapeCast S1x47 bl hc3) hbr p q).trans (Cert.LibLreluRows.rowCast_apply hc3 bl q)
  have e4 : matmul (DotDims.plain 4000 128 47) none (shapeCast S4000x128 h hc0) (truncf .bf16 wr hb)
        (constant S4000x47 .f32 0x00000000#32) (ix2 p q) = ∑ k : Fin 128, h (ix2 p k) * wr (ix2 k q) :=
    (Cert.LibPlainContract.matmul_plain_apply 4000 128 47 none (shapeCast S4000x128 h hc0) (truncf .bf16 wr hb) p q).trans
      (Finset.sum_congr rfl fun k _ => by rw [shapeCast_self]; rfl)
  show (shapeCast S4000x47 Z hc1 (ix2 p q) * broadcastTo S4000x47 (shapeCast S4000x1 c hc2) hbc (ix2 p q)
        + broadcastTo S4000x47 (shapeCast S1x47 bl hc3) hbr (ix2 p q))
      + matmul (DotDims.plain 4000 128 47) none (shapeCast S4000x128 h hc0) (truncf .bf16 wr hb)
          (constant S4000x47 .f32 0x00000000#32) (ix2 p q) = _
  rw [e1, e2, e3, e4]

/-- The row maximum, kept as a column and spread back over the row, at one entry. -/
theorem spreadMax_apply (hr : S4000x47.Reduces [1] S4000) (hφ : FKind.Formats .f32)
    (hm : (0xFF800000#32 : BitVec 32) = FKind.maximumf.neutral .f32 hφ)
    (hc : S4000.ShapeCasts S4000x1) (hbc : S4000x1.Broadcasts S4000x47)
    (s : FVec Ideal S4000x47 .f32) (p : Fin 4000) (q : Fin 47) :
    broadcastTo S4000x47 (shapeCast S4000x1 (multiReduction .maximumf [1] S4000 s 0xFF800000#32 hr hφ hm) hc) hbc (ix2 p q)
      = Stages.rowMax s p :=
  (Cert.Lib.Keepdims.broadcastTo_a1_ab_apply _ hbc p q).trans
    ((Cert.Lib.Keepdims.shapeCast_a_a1_apply _ hc p (0 : Fin 1)).trans
      ((Cert.Lib.RowFold.multiReduction_maximumf_row s 0xFF800000#32 hr hφ hm p).trans
        (by rw [negInf]; rfl)))

/-- The log-softmax of a block of scores, as the body computes it, at one entry. -/
theorem lsmTile_apply (hr : S4000x47.Reduces [1] S4000) (hφ : FKind.Formats .f32)
    (hm : (0xFF800000#32 : BitVec 32) = FKind.maximumf.neutral .f32 hφ)
    (ha : (0x00000000#32 : BitVec 32) = FKind.add.neutral .f32 hφ)
    (hc : S4000.ShapeCasts S4000x1) (hbc : S4000x1.Broadcasts S4000x47)
    (s : FVec Ideal S4000x47 .f32) (p : Fin 4000) (q : Fin 47) :
    subf (subf s (broadcastTo S4000x47 (shapeCast S4000x1 (multiReduction .maximumf [1] S4000 s 0xFF800000#32 hr hφ hm) hc) hbc))
      (broadcastTo S4000x47 (log (shapeCast S4000x1 (multiReduction .add [1] S4000
          (exp (subf s (broadcastTo S4000x47 (shapeCast S4000x1 (multiReduction .maximumf [1] S4000 s 0xFF800000#32 hr hφ hm) hc) hbc)))
          0x00000000#32 hr hφ ha) hc)) hbc) (ix2 p q)
      = Stages.lsm s (ix2 p q) := by
  have em : ∀ k : Fin 47, broadcastTo S4000x47 (shapeCast S4000x1 (multiReduction .maximumf [1] S4000 s 0xFF800000#32 hr hφ hm) hc) hbc (ix2 p k)
      = Stages.rowMax s p := fun k => spreadMax_apply hr hφ hm hc hbc s p k
  have es : broadcastTo S4000x47 (log (shapeCast S4000x1 (multiReduction .add [1] S4000
          (exp (subf s (broadcastTo S4000x47 (shapeCast S4000x1 (multiReduction .maximumf [1] S4000 s 0xFF800000#32 hr hφ hm) hc) hbc)))
          0x00000000#32 hr hφ ha) hc)) hbc (ix2 p q)
      = Ideal.log (∑ k : Fin 47, Ideal.exp (s (ix2 p k) - Stages.rowMax s p)) := by
    refine (Cert.Lib.Keepdims.broadcastTo_a1_ab_apply _ hbc p q).trans ?_
    show Ideal.log (shapeCast S4000x1 _ hc (ix2 p (0 : Fin 1))) = _
    refine congrArg Ideal.log ?_
    refine (Cert.Lib.Keepdims.shapeCast_a_a1_apply _ hc p (0 : Fin 1)).trans ?_
    refine (Cert.Lib.RowFold.multiReduction_add_row _ 0x00000000#32 hr hφ ha p).trans ?_
    refine Finset.sum_congr rfl fun k _ => ?_
    show Ideal.exp (s (ix2 p k) - broadcastTo S4000x47 (shapeCast S4000x1 (multiReduction .maximumf [1] S4000 s 0xFF800000#32 hr hφ hm) hc) hbc (ix2 p k)) = _
    rw [em k]
  rw [Stages.lsm_apply]
  show (s (ix2 p q) - broadcastTo S4000x47 (shapeCast S4000x1 (multiReduction .maximumf [1] S4000 s 0xFF800000#32 hr hφ hm) hc) hbc (ix2 p q))
      - broadcastTo S4000x47 (log (shapeCast S4000x1 (multiReduction .add [1] S4000
          (exp (subf s (broadcastTo S4000x47 (shapeCast S4000x1 (multiReduction .maximumf [1] S4000 s 0xFF800000#32 hr hφ hm) hc) hbc)))
          0x00000000#32 hr hφ ha) hc)) hbc (ix2 p q) = _
  rw [em q, es]

/-- The body's stored value on a block is the row-wise log-softmax of the block's scores. -/
theorem pay_eq (h : FVec Ideal S4000x128 .bf16) (wr : FVec Ideal S128x47 .f32) (Z : FVec Ideal S4000x47 .f32)
    (c : FVec Ideal S4000x1 .f32) (bl : FVec Ideal S47 .f32) :
    k5_pay1 (F := Ideal) h wr Z c bl = Stages.lsm (N := 4000) (Stages.logitsK Z c h wr bl) := by
  funext i
  obtain ⟨p, q, rfl⟩ : ∃ (p : Fin 4000) (q : Fin 47), i = ix2 p q := ⟨i 0, i 1, eq_ix2 i⟩
  unfold k5_pay1
  refine (lsmTile_apply _ _ _ _ _ _ _ p q).trans ?_
  refine congrArg (fun v : Mat 4000 47 => Stages.lsm v (ix2 p q)) ?_
  funext j
  obtain ⟨p', q', rfl⟩ : ∃ (p' : Fin 4000) (q' : Fin 47), j = ix2 p' q' := ⟨j 0, j 1, eq_ix2 j⟩
  exact (scores_apply _ _ _ _ _ _ _ h wr Z c bl p' q').trans (Stages.logitsK_apply Z c h wr bl p' q').symm

/-! ## From blocks to the array

A block of the output holds rows 4000·t … 4000·t + 3999 of the array, and so do the blocks of the neighbour sums, of the
factors and of h at the same point, while the weights and the bias are whole. The log-softmax of a row reads that row's
scores only, and a row's scores read that row's entries only, so the body's value on a block is the block of the
log-softmax of the scores of the whole arrays. -/

/-- The log-softmax at a row depends on that row's scores only. -/
theorem lsm_row_congr {N N' : Nat} (v : Mat N 47) (v' : Mat N' 47) (p : Fin N) (p' : Fin N')
    (hrow : ∀ k : Fin 47, v (ix2 p k) = v' (ix2 p' k)) (q : Fin 47) :
    Stages.lsm v (ix2 p q) = Stages.lsm v' (ix2 p' q) := by
  have hm : Stages.rowMax v p = Stages.rowMax v' p' := by
    unfold Stages.rowMax
    exact congrArg (fun f : Fin 47 → EReal => (Finset.univ : Finset (Fin 47)).fold max (⊥ : EReal) f) (funext hrow)
  rw [Stages.lsm_apply, Stages.lsm_apply, hm, hrow q]
  refine congrArg (fun z => (v' (ix2 p' q) - Stages.rowMax v' p') - Ideal.log z) ?_
  exact Finset.sum_congr rfl fun k _ => by rw [hrow k]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The output array as one function of the five arrays the region reads: the row-wise log-softmax of the scores. -/
abbrev G (c : Dev nD) : Mat 100000 47 :=
  Stages.lsm (N := 100000) (Stages.logitsK (V c (Pipeline.arrRef spec5 0) : Mat 100000 47) (V c (Pipeline.arrRef spec5 1) : Mat 100000 1)
    (V c (Pipeline.arrRef spec5 2) : Mat 100000 128) (V c (Pipeline.arrRef spec5 3) : Mat 128 47) (V c (Pipeline.arrRef spec5 4) : Row 47))

/-- The block indices over the grid: the row-blocked windows move with the point, the weights and the bias stay. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

theorem blk0_apply (c : Dev nD) (t : Fin cfg5.N) (p : Fin 4000) (k : Fin 47) (P : Fin 100000)
    (hP : P.val = t.val * 4000 + p.val) :
    (iblk5 V c 0 t : Mat 4000 47) (ix2 p k) = (V c (Pipeline.arrRef spec5 0) : Mat 100000 47) (ix2 P k) := by
  obtain ⟨e00, e01, -⟩ := idx_facts t
  unfold iblk5
  rw [View.read_apply]
  refine congrArg (V c (Pipeline.arrRef spec5 0)) ?_
  funext a; apply Fin.ext
  match a with
  | ⟨0, _⟩ => show win5_0.index t (0 : Fin 2) * 4000 + 1 * p.val = P.val; omega
  | ⟨1, _⟩ => show win5_0.index t (1 : Fin 2) * 47 + 1 * k.val = k.val; omega

theorem blk1_apply (c : Dev nD) (t : Fin cfg5.N) (p : Fin 4000) (P : Fin 100000)
    (hP : P.val = t.val * 4000 + p.val) :
    (iblk5 V c 1 t : Mat 4000 1) (ix2 p (0 : Fin 1)) = (V c (Pipeline.arrRef spec5 1) : Mat 100000 1) (ix2 P (0 : Fin 1)) := by
  obtain ⟨-, -, e10, e11, -⟩ := idx_facts t
  unfold iblk5
  rw [View.read_apply]
  refine congrArg (V c (Pipeline.arrRef spec5 1)) ?_
  funext a; apply Fin.ext
  match a with
  | ⟨0, _⟩ => show win5_1.index t (0 : Fin 2) * 4000 + 1 * p.val = P.val; omega
  | ⟨1, _⟩ => show win5_1.index t (1 : Fin 2) * 1 + 1 * 0 = 0; omega

theorem blk2_apply (c : Dev nD) (t : Fin cfg5.N) (p : Fin 4000) (k : Fin 128) (P : Fin 100000)
    (hP : P.val = t.val * 4000 + p.val) :
    (iblk5 V c 2 t : Mat 4000 128) (ix2 p k) = (V c (Pipeline.arrRef spec5 2) : Mat 100000 128) (ix2 P k) := by
  obtain ⟨-, -, -, -, e20, e21, -⟩ := idx_facts t
  unfold iblk5
  rw [View.read_apply]
  refine congrArg (V c (Pipeline.arrRef spec5 2)) ?_
  funext a; apply Fin.ext
  match a with
  | ⟨0, _⟩ => show win5_2.index t (0 : Fin 2) * 4000 + 1 * p.val = P.val; omega
  | ⟨1, _⟩ => show win5_2.index t (1 : Fin 2) * 128 + 1 * k.val = k.val; omega

theorem blk3_apply (c : Dev nD) (t : Fin cfg5.N) (k : Fin 128) (q : Fin 47) :
    (iblk5 V c 3 t : Mat 128 47) (ix2 k q) = (V c (Pipeline.arrRef spec5 3) : Mat 128 47) (ix2 k q) := by
  obtain ⟨-, -, -, -, -, -, e30, e31, -⟩ := idx_facts t
  unfold iblk5
  rw [View.read_apply]
  refine congrArg (V c (Pipeline.arrRef spec5 3)) ?_
  funext a; apply Fin.ext
  match a with
  | ⟨0, _⟩ => show win5_3.index t (0 : Fin 2) * 128 + 1 * k.val = k.val; omega
  | ⟨1, _⟩ => show win5_3.index t (1 : Fin 2) * 47 + 1 * q.val = q.val; omega

theorem blk4_apply (c : Dev nD) (t : Fin cfg5.N) (q : Fin 47) :
    (iblk5 V c 4 t : Row 47) (ix1 q) = (V c (Pipeline.arrRef spec5 4) : Row 47) (ix1 q) := by
  obtain ⟨-, -, -, -, -, -, -, -, e40, -⟩ := idx_facts t
  unfold iblk5
  rw [View.read_apply]
  refine congrArg (V c (Pipeline.arrRef spec5 4)) ?_
  funext a; apply Fin.ext
  match a with
  | ⟨0, _⟩ => show win5_4.index t (0 : Fin 1) * 47 + 1 * q.val = q.val; omega

/-- Row p of block t is row 4000·t + p of the array. -/
def rowAt (t : Fin cfg5.N) (p : Fin 4000) : Fin 100000 :=
  ⟨t.val * 4000 + p.val, by have h1 : t.val < 25 := t.isLt; have h2 : p.val < 4000 := p.isLt; omega⟩

theorem emb5 (t : Fin cfg5.N) (p : Fin 4000) (q : Fin 47) :
    ((cfg5.win 5).blk t).view.emb (ix2 p q) = ix2 (rowAt t p) q := by
  obtain ⟨-, -, -, -, -, -, -, -, -, e50, e51⟩ := idx_facts t
  funext a; apply Fin.ext
  match a with
  | ⟨0, _⟩ => show win5_5.index t (0 : Fin 2) * 4000 + 1 * p.val = t.val * 4000 + p.val; omega
  | ⟨1, _⟩ => show win5_5.index t (1 : Fin 2) * 47 + 1 * q.val = q.val; omega

/-- The scores of row p of the blocks at point t are the scores of row 4000·t + p of the arrays. -/
theorem scores_row (c : Dev nD) (t : Fin cfg5.N) (p : Fin 4000) (k : Fin 47) :
    Stages.logitsK (N := 4000) (iblk5 V c 0 t : Mat 4000 47) (iblk5 V c 1 t : Mat 4000 1) (iblk5 V c 2 t : Mat 4000 128)
        (iblk5 V c 3 t : Mat 128 47) (iblk5 V c 4 t : Row 47) (ix2 p k)
      = Stages.logitsK (N := 100000) (V c (Pipeline.arrRef spec5 0) : Mat 100000 47) (V c (Pipeline.arrRef spec5 1) : Mat 100000 1)
        (V c (Pipeline.arrRef spec5 2) : Mat 100000 128) (V c (Pipeline.arrRef spec5 3) : Mat 128 47)
        (V c (Pipeline.arrRef spec5 4) : Row 47) (ix2 (rowAt t p) k) := by
  rw [Stages.logitsK_apply, Stages.logitsK_apply]
  refine congrArg₂ (· + ·) (congrArg₂ (· + ·) (congrArg₂ (· * ·) ?_ ?_) ?_)
    (Finset.sum_congr rfl fun k' _ => congrArg₂ (· * ·) ?_ ?_)
  · exact blk0_apply V c t p k (rowAt t p) rfl
  · exact blk1_apply V c t p (rowAt t p) rfl
  · exact blk4_apply V c t k
  · exact blk2_apply V c t p k' (rowAt t p) rfl
  · exact blk3_apply V c t k' k

/-- What point t writes back is block t of the log-softmax of the scores of the whole arrays. -/
theorem flushed_eq (c : Dev nD) (t : Fin cfg5.N) :
    (dat5 (F := Ideal) V c).flushed 5 t = ((cfg5.win 5).blk t).view.read (Elt Ideal) (G V c) := by
  show (cfg5.win 5).cut (grid5.coords t) ((dat5 V c).after 5 t) = _
  rw [after5_5]
  unfold out5_5
  rw [View.canon_unit_zero hz2]
  simp only [View.ld_unit_zero (S := S4000x128) hz2, View.ld_unit_zero (S := S128x47) hz2,
    View.ld_unit_zero (S := S4000x47) hz2, View.ld_unit_zero (S := S4000x1) hz2, View.ld_unit_zero (S := S47) hz1]
  funext j
  obtain ⟨p, q, rfl⟩ : ∃ (p : Fin 4000) (q : Fin 47), j = ix2 p q := ⟨j 0, j 1, eq_ix2 j⟩
  show k5_pay1 (F := Ideal) (iblk5 V c 2 t) (iblk5 V c 3 t) (iblk5 V c 0 t) (iblk5 V c 1 t) (iblk5 V c 4 t) (ix2 p q)
    = G V c (((cfg5.win 5).blk t).view.emb (ix2 p q))
  rw [emb5]
  refine (congrFun (pay_eq _ _ _ _ _) (ix2 p q)).trans ?_
  exact lsm_row_congr _ _ p (rowAt t p) (fun k => scores_row V c t p k) q

/-- An index of the array lies in point t's block iff each coordinate is in the block's range. -/
theorem mem_blk (t : Fin cfg5.N) (i : S100000x47.Idx) :
    i ∈ ((cfg5.win 5).blk t).view.set ↔ ∀ a : Fin 2, win5_5.index t a * S4000x47.size a ≤ (i a).val ∧ (i a).val < win5_5.index t a * S4000x47.size a + S4000x47.size a := by
  show i ∈ ((View.whole main_v83).slice (win5_5.rect t)).set ↔ _
  rw [View.set_slice_whole, Rect.mem_set_unit]
  exact Iff.rfl

/-- Row r lies in the block of point r / 4000. -/
theorem cover (i : S100000x47.Idx) : ∃ t : Fin cfg5.N, (cfg5.win 5).flush t = true ∧ i ∈ ((cfg5.win 5).blk t).view.set := by
  have hi0 : (i 0).val < 100000 := (i 0).isLt
  have hi1 : (i 1).val < 47 := (i 1).isLt
  let t : Fin cfg5.N := ⟨(i 0).val / 4000, by show _ < 25; omega⟩
  obtain ⟨-, -, -, -, -, -, -, -, -, e50, e51⟩ := idx_facts t
  have htv : t.val = (i 0).val / 4000 := rfl
  refine ⟨t, flush5_5 t, ?_⟩
  rw [mem_blk]
  intro a
  match a with
  | ⟨0, _⟩ => show win5_5.index t (0 : Fin 2) * 4000 ≤ (i 0).val ∧ (i 0).val < win5_5.index t (0 : Fin 2) * 4000 + 4000; omega
  | ⟨1, _⟩ => show win5_5.index t (1 : Fin 2) * 47 ≤ (i 1).val ∧ (i 1).val < win5_5.index t (1 : Fin 2) * 47 + 47; omega

/-- The output array after the region: the row-wise log-softmax of the scores of the five arrays the region reads. -/
theorem final (c : Dev nD) :
    (dat5 (F := Ideal) V c).arrAt 5 cfg5.N
      = Stages.lsm (N := 100000) (Stages.logitsK (V c (Pipeline.arrRef spec5 0) : Mat 100000 47) (V c (Pipeline.arrRef spec5 1) : Mat 100000 1)
          (V c (Pipeline.arrRef spec5 2) : Mat 100000 128) (V c (Pipeline.arrRef spec5 3) : Mat 128 47) (V c (Pipeline.arrRef spec5 4) : Row 47)) :=
  (dat5 V c).arrAt_eq_of_cover 5 (G V c) (fun t _ => flushed_eq V c t) cover

end Cert.KernelIdeal.Reg5

end
-- ==== Proof.KBound.lean ====
/-
  The contents of the buffers at every boundary of the walk through the idealized kernel program, by name.

  The program alternates stretches of host operations with kernel regions. Walking it from the launch memory, each
  boundary's contents are the previous boundary's, changed at the buffers the segment writes: a host stretch writes
  its operations' results, a region writes its output arrays and leaves every other buffer (its input arrays among
  them) as it found it. Followed through, the result buffer ends at `out`: the row-wise log-softmax of the last
  layer's scores, computed from three hidden layers over the rectified input projection.
-/
import proofs.«108666_j83519934038393_2_alg».proof.Proof.Gen.KernelIdeal.Frame
import proofs.«108666_j83519934038393_2_alg».proof.Proof.Stages
import proofs.«108666_j83519934038393_2_alg».proof.Proof.KVal
import proofs.«108666_j83519934038393_2_alg».proof.Proof.KNames
import proofs.«108666_j83519934038393_2_alg».proof.Proof.Region0
import proofs.«108666_j83519934038393_2_alg».proof.Proof.Region1
import proofs.«108666_j83519934038393_2_alg».proof.Proof.Region2
import proofs.«108666_j83519934038393_2_alg».proof.Proof.Region3
import proofs.«108666_j83519934038393_2_alg».proof.Proof.Region4
import proofs.«108666_j83519934038393_2_alg».proof.Proof.Region5
import Idealize.ShloMosaic.Lib.StableHlo.Run

set_option maxRecDepth 16384

noncomputable section

namespace Cert.KernelIdeal.KBound

open Cert.KernelIdeal Cert.KernelIdeal.Gen Cert.KernelIdeal.KVal
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)

/-- The named activations at the launch memory's arguments. -/
abbrev inp : Cert.Dense.Mat 100000 128 := Cert.KernelIdeal.KNames.inp (A0 m c) (A2 m c) (A3 m c)
abbrev h0 : Cert.Dense.Mat 100000 128 := Cert.KernelIdeal.KNames.h0 (A0 m c) (A2 m c) (A3 m c)
abbrev h1 : Cert.Dense.Mat 100000 128 := Cert.KernelIdeal.KNames.h1 (A0 m c) (A1 m c) (A2 m c) (A3 m c) (A4 m c) (A5 m c) (A6 m c)
abbrev h2 : Cert.Dense.Mat 100000 128 := Cert.KernelIdeal.KNames.h2 (A0 m c) (A1 m c) (A2 m c) (A3 m c) (A4 m c) (A5 m c) (A6 m c)
abbrev h3 : Cert.Dense.Mat 100000 128 := Cert.KernelIdeal.KNames.h3 (A0 m c) (A1 m c) (A2 m c) (A3 m c) (A4 m c) (A5 m c) (A6 m c)
abbrev zproj : Cert.Dense.Mat 100000 47 := Cert.KernelIdeal.KNames.zproj (A0 m c) (A1 m c) (A2 m c) (A3 m c) (A4 m c) (A5 m c) (A6 m c) (A7 m c)
abbrev out : Cert.Dense.Mat 100000 47 :=
  Cert.KernelIdeal.KNames.out (A0 m c) (A1 m c) (A2 m c) (A3 m c) (A4 m c) (A5 m c) (A6 m c) (A7 m c) (A8 m c) (A9 m c)

/-! ## After the first host stretch -/
theorem W1_v1 : W1 m ρ c (Proc.devRef .tc main_v1) = srcRaw (A1 m c) := by
  show StableHlo.after hostOps0 (W0 m ρ c) (Proc.devRef .tc main_v1) = _
  after_results
  all_goals rfl
theorem W1_v3 : W1 m ρ c (Proc.devRef .tc main_v3) = dstRaw (A1 m c) := by
  show StableHlo.after hostOps0 (W0 m ρ c) (Proc.devRef .tc main_v3) = _
  after_results
  all_goals rfl
theorem W1_v12 : W1 m ρ c (Proc.devRef .tc main_v12) = invd (A1 m c) := by
  show StableHlo.after hostOps0 (W0 m ρ c) (Proc.devRef .tc main_v12) = _
  after_results
  all_goals rfl
theorem W1_arg0 : W1 m ρ c (Proc.devRef .tc main_arg0) = A0 m c := by
  show StableHlo.after hostOps0 (W0 m ρ c) (Proc.devRef .tc main_arg0) = _
  after_results
  all_goals rfl
theorem W1_arg2 : W1 m ρ c (Proc.devRef .tc main_arg2) = A2 m c := by
  show StableHlo.after hostOps0 (W0 m ρ c) (Proc.devRef .tc main_arg2) = _
  after_results
  all_goals rfl
theorem W1_arg3 : W1 m ρ c (Proc.devRef .tc main_arg3) = A3 m c := by
  show StableHlo.after hostOps0 (W0 m ρ c) (Proc.devRef .tc main_arg3) = _
  after_results
  all_goals rfl
theorem W1_arg4 : W1 m ρ c (Proc.devRef .tc main_arg4) = A4 m c := by
  show StableHlo.after hostOps0 (W0 m ρ c) (Proc.devRef .tc main_arg4) = _
  after_results
  all_goals rfl
theorem W1_arg5 : W1 m ρ c (Proc.devRef .tc main_arg5) = A5 m c := by
  show StableHlo.after hostOps0 (W0 m ρ c) (Proc.devRef .tc main_arg5) = _
  after_results
  all_goals rfl
theorem W1_arg6 : W1 m ρ c (Proc.devRef .tc main_arg6) = A6 m c := by
  show StableHlo.after hostOps0 (W0 m ρ c) (Proc.devRef .tc main_arg6) = _
  after_results
  all_goals rfl
theorem W1_arg7 : W1 m ρ c (Proc.devRef .tc main_arg7) = A7 m c := by
  show StableHlo.after hostOps0 (W0 m ρ c) (Proc.devRef .tc main_arg7) = _
  after_results
  all_goals rfl
theorem W1_arg8 : W1 m ρ c (Proc.devRef .tc main_arg8) = A8 m c := by
  show StableHlo.after hostOps0 (W0 m ρ c) (Proc.devRef .tc main_arg8) = _
  after_results
  all_goals rfl
theorem W1_arg9 : W1 m ρ c (Proc.devRef .tc main_arg9) = A9 m c := by
  show StableHlo.after hostOps0 (W0 m ρ c) (Proc.devRef .tc main_arg9) = _
  after_results
  all_goals rfl
/-! ## After region 0 -/
theorem W2_v13_0 : W2 m ρ c (Proc.devRef .tc main_v13_0) = inp m c := by
  refine (W2_arr m ρ c 3).trans ((Cert.KernelIdeal.Reg0.final3 (V1 m ρ) c).trans ?_)
  show Cert.Stages.inproj (N := 100000) (W1 m ρ c (Proc.devRef .tc main_arg0)) (W1 m ρ c (Proc.devRef .tc main_arg2)) (W1 m ρ c (Proc.devRef .tc main_arg3)) = _
  rw [W1_arg0, W1_arg2, W1_arg3]
  rfl
theorem W2_v13_1 : W2 m ρ c (Proc.devRef .tc main_v13_1) = h0 m c := by
  refine (W2_arr m ρ c 4).trans ((Cert.KernelIdeal.Reg0.final4 (V1 m ρ) c).trans ?_)
  show Cert.Stages.relu (Cert.Stages.inproj (N := 100000) (W1 m ρ c (Proc.devRef .tc main_arg0)) (W1 m ρ c (Proc.devRef .tc main_arg2)) (W1 m ρ c (Proc.devRef .tc main_arg3))) = _
  rw [W1_arg0, W1_arg2, W1_arg3]
  rfl
theorem W2_v1 : W2 m ρ c (Proc.devRef .tc main_v1) = srcRaw (A1 m c) :=
  (W2_of_ne m ρ c main_v1 (by decide)).trans (W1_v1 m ρ c)
theorem W2_v3 : W2 m ρ c (Proc.devRef .tc main_v3) = dstRaw (A1 m c) :=
  (W2_of_ne m ρ c main_v3 (by decide)).trans (W1_v3 m ρ c)
theorem W2_v12 : W2 m ρ c (Proc.devRef .tc main_v12) = invd (A1 m c) :=
  (W2_of_ne m ρ c main_v12 (by decide)).trans (W1_v12 m ρ c)
theorem W2_arg4 : W2 m ρ c (Proc.devRef .tc main_arg4) = A4 m c :=
  (W2_of_ne m ρ c main_arg4 (by decide)).trans (W1_arg4 m ρ c)
theorem W2_arg5 : W2 m ρ c (Proc.devRef .tc main_arg5) = A5 m c :=
  (W2_of_ne m ρ c main_arg5 (by decide)).trans (W1_arg5 m ρ c)
theorem W2_arg6 : W2 m ρ c (Proc.devRef .tc main_arg6) = A6 m c :=
  (W2_of_ne m ρ c main_arg6 (by decide)).trans (W1_arg6 m ρ c)
theorem W2_arg7 : W2 m ρ c (Proc.devRef .tc main_arg7) = A7 m c :=
  (W2_of_ne m ρ c main_arg7 (by decide)).trans (W1_arg7 m ρ c)
theorem W2_arg8 : W2 m ρ c (Proc.devRef .tc main_arg8) = A8 m c :=
  (W2_of_ne m ρ c main_arg8 (by decide)).trans (W1_arg8 m ρ c)
theorem W2_arg9 : W2 m ρ c (Proc.devRef .tc main_arg9) = A9 m c :=
  (W2_of_ne m ρ c main_arg9 (by decide)).trans (W1_arg9 m ρ c)
/-! ## After the host stretch before region 1 -/
set_option maxHeartbeats 4000000 in
theorem W3_v25 : W3 m ρ c (Proc.devRef .tc main_v25) = agg (A1 m c) (h0 m c) := by
  show StableHlo.after hostOps1 (W2 m ρ c) (Proc.devRef .tc main_v25) = _
  generalize hX : (agg (A1 m c) (h0 m c)) = X
  after_results
  rw [W2_v3 m ρ c, W2_v13_1 m ρ c, W2_v1 m ρ c]
  exact hX
set_option maxHeartbeats 4000000 in
theorem W3_v27 : W3 m ρ c (Proc.devRef .tc main_v27) = wsl0 (A4 m c) := by
  show StableHlo.after hostOps1 (W2 m ρ c) (Proc.devRef .tc main_v27) = _
  generalize hX : (wsl0 (A4 m c)) = X
  after_results
  rw [W2_arg4 m ρ c]
  exact hX
set_option maxHeartbeats 4000000 in
theorem W3_v29 : W3 m ρ c (Proc.devRef .tc main_v29) = bsl0 (A5 m c) := by
  show StableHlo.after hostOps1 (W2 m ρ c) (Proc.devRef .tc main_v29) = _
  generalize hX : (bsl0 (A5 m c)) = X
  after_results
  rw [W2_arg5 m ρ c]
  exact hX
set_option maxHeartbeats 4000000 in
theorem W3_v31 : W3 m ρ c (Proc.devRef .tc main_v31) = wsl0 (A6 m c) := by
  show StableHlo.after hostOps1 (W2 m ρ c) (Proc.devRef .tc main_v31) = _
  generalize hX : (wsl0 (A6 m c)) = X
  after_results
  rw [W2_arg6 m ρ c]
  exact hX
set_option maxHeartbeats 4000000 in
theorem W3_v1 : W3 m ρ c (Proc.devRef .tc main_v1) = srcRaw (A1 m c) := by
  show StableHlo.after hostOps1 (W2 m ρ c) (Proc.devRef .tc main_v1) = _
  generalize hX : (srcRaw (A1 m c)) = X
  after_results
  exact (W2_v1 m ρ c).trans hX
set_option maxHeartbeats 4000000 in
theorem W3_v3 : W3 m ρ c (Proc.devRef .tc main_v3) = dstRaw (A1 m c) := by
  show StableHlo.after hostOps1 (W2 m ρ c) (Proc.devRef .tc main_v3) = _
  generalize hX : (dstRaw (A1 m c)) = X
  after_results
  exact (W2_v3 m ρ c).trans hX
set_option maxHeartbeats 4000000 in
theorem W3_v12 : W3 m ρ c (Proc.devRef .tc main_v12) = invd (A1 m c) := by
  show StableHlo.after hostOps1 (W2 m ρ c) (Proc.devRef .tc main_v12) = _
  generalize hX : (invd (A1 m c)) = X
  after_results
  exact (W2_v12 m ρ c).trans hX
set_option maxHeartbeats 4000000 in
theorem W3_v13_0 : W3 m ρ c (Proc.devRef .tc main_v13_0) = inp m c := by
  show StableHlo.after hostOps1 (W2 m ρ c) (Proc.devRef .tc main_v13_0) = _
  generalize hX : (inp m c) = X
  after_results
  exact (W2_v13_0 m ρ c).trans hX
set_option maxHeartbeats 4000000 in
theorem W3_v13_1 : W3 m ρ c (Proc.devRef .tc main_v13_1) = h0 m c := by
  show StableHlo.after hostOps1 (W2 m ρ c) (Proc.devRef .tc main_v13_1) = _
  generalize hX : (h0 m c) = X
  after_results
  exact (W2_v13_1 m ρ c).trans hX
set_option maxHeartbeats 4000000 in
theorem W3_arg4 : W3 m ρ c (Proc.devRef .tc main_arg4) = A4 m c := by
  show StableHlo.after hostOps1 (W2 m ρ c) (Proc.devRef .tc main_arg4) = _
  generalize hX : (A4 m c) = X
  after_results
  exact (W2_arg4 m ρ c).trans hX
set_option maxHeartbeats 4000000 in
theorem W3_arg5 : W3 m ρ c (Proc.devRef .tc main_arg5) = A5 m c := by
  show StableHlo.after hostOps1 (W2 m ρ c) (Proc.devRef .tc main_arg5) = _
  generalize hX : (A5 m c) = X
  after_results
  exact (W2_arg5 m ρ c).trans hX
set_option maxHeartbeats 4000000 in
theorem W3_arg6 : W3 m ρ c (Proc.devRef .tc main_arg6) = A6 m c := by
  show StableHlo.after hostOps1 (W2 m ρ c) (Proc.devRef .tc main_arg6) = _
  generalize hX : (A6 m c) = X
  after_results
  exact (W2_arg6 m ρ c).trans hX
set_option maxHeartbeats 4000000 in
theorem W3_arg7 : W3 m ρ c (Proc.devRef .tc main_arg7) = A7 m c := by
  show StableHlo.after hostOps1 (W2 m ρ c) (Proc.devRef .tc main_arg7) = _
  generalize hX : (A7 m c) = X
  after_results
  exact (W2_arg7 m ρ c).trans hX
set_option maxHeartbeats 4000000 in
theorem W3_arg8 : W3 m ρ c (Proc.devRef .tc main_arg8) = A8 m c := by
  show StableHlo.after hostOps1 (W2 m ρ c) (Proc.devRef .tc main_arg8) = _
  generalize hX : (A8 m c) = X
  after_results
  exact (W2_arg8 m ρ c).trans hX
set_option maxHeartbeats 4000000 in
theorem W3_arg9 : W3 m ρ c (Proc.devRef .tc main_arg9) = A9 m c := by
  show StableHlo.after hostOps1 (W2 m ρ c) (Proc.devRef .tc main_arg9) = _
  generalize hX : (A9 m c) = X
  after_results
  exact (W2_arg9 m ρ c).trans hX
/-! ## After region 1 -/
theorem W4_v32 : W4 m ρ c (Proc.devRef .tc main_v32) = h1 m c := by
  refine (W4_arr m ρ c 7).trans ((Cert.KernelIdeal.Reg1.final (V3 m ρ) c).trans ?_)
  show Cert.Stages.hidK (N := 100000) (W3 m ρ c (Proc.devRef .tc main_v25)) (W3 m ρ c (Proc.devRef .tc main_v12)) (W3 m ρ c (Proc.devRef .tc main_v13_1))
      (W3 m ρ c (Proc.devRef .tc main_v27)) (W3 m ρ c (Proc.devRef .tc main_v29)) (W3 m ρ c (Proc.devRef .tc main_v31)) (W3 m ρ c (Proc.devRef .tc main_v13_0)) = _
  rw [W3_v25, W3_v12, W3_v13_1, W3_v27, W3_v29, W3_v31, W3_v13_0]
  rfl
theorem W4_v1 : W4 m ρ c (Proc.devRef .tc main_v1) = srcRaw (A1 m c) :=
  (W4_of_ne m ρ c main_v1 (by decide)).trans (W3_v1 m ρ c)
theorem W4_v3 : W4 m ρ c (Proc.devRef .tc main_v3) = dstRaw (A1 m c) :=
  (W4_of_ne m ρ c main_v3 (by decide)).trans (W3_v3 m ρ c)
theorem W4_arg4 : W4 m ρ c (Proc.devRef .tc main_arg4) = A4 m c :=
  (W4_of_ne m ρ c main_arg4 (by decide)).trans (W3_arg4 m ρ c)
theorem W4_arg5 : W4 m ρ c (Proc.devRef .tc main_arg5) = A5 m c :=
  (W4_of_ne m ρ c main_arg5 (by decide)).trans (W3_arg5 m ρ c)
theorem W4_arg6 : W4 m ρ c (Proc.devRef .tc main_arg6) = A6 m c :=
  (W4_of_ne m ρ c main_arg6 (by decide)).trans (W3_arg6 m ρ c)
theorem W4_arg7 : W4 m ρ c (Proc.devRef .tc main_arg7) = A7 m c :=
  (W4_of_ne m ρ c main_arg7 (by decide)).trans (W3_arg7 m ρ c)
theorem W4_arg8 : W4 m ρ c (Proc.devRef .tc main_arg8) = A8 m c :=
  (W4_of_ne m ρ c main_arg8 (by decide)).trans (W3_arg8 m ρ c)
theorem W4_arg9 : W4 m ρ c (Proc.devRef .tc main_arg9) = A9 m c :=
  (W4_of_ne m ρ c main_arg9 (by decide)).trans (W3_arg9 m ρ c)
theorem W4_v12 : W4 m ρ c (Proc.devRef .tc main_v12) = invd (A1 m c) :=
  ((W4_arr m ρ c 1).trans (((dat1 (V3 m ρ) c).arrAt_in 1 rfl _).trans (A_eq1 (V3 m ρ) c 1))).trans (W3_v12 m ρ c)
theorem W4_v13_0 : W4 m ρ c (Proc.devRef .tc main_v13_0) = inp m c :=
  ((W4_arr m ρ c 6).trans (((dat1 (V3 m ρ) c).arrAt_in 6 rfl _).trans (A_eq1 (V3 m ρ) c 6))).trans (W3_v13_0 m ρ c)
/-! ## After the host stretch before region 2 -/
set_option maxHeartbeats 4000000 in
theorem W5_v44 : W5 m ρ c (Proc.devRef .tc main_v44) = agg (A1 m c) (h1 m c) := by
  show StableHlo.after hostOps2 (W4 m ρ c) (Proc.devRef .tc main_v44) = _
  generalize hX : (agg (A1 m c) (h1 m c)) = X
  after_results
  rw [W4_v3 m ρ c, W4_v32 m ρ c, W4_v1 m ρ c]
  exact hX
set_option maxHeartbeats 4000000 in
theorem W5_v46 : W5 m ρ c (Proc.devRef .tc main_v46) = wsl1 (A4 m c) := by
  show StableHlo.after hostOps2 (W4 m ρ c) (Proc.devRef .tc main_v46) = _
  generalize hX : (wsl1 (A4 m c)) = X
  after_results
  rw [W4_arg4 m ρ c]
  exact hX
set_option maxHeartbeats 4000000 in
theorem W5_v48 : W5 m ρ c (Proc.devRef .tc main_v48) = bsl1 (A5 m c) := by
  show StableHlo.after hostOps2 (W4 m ρ c) (Proc.devRef .tc main_v48) = _
  generalize hX : (bsl1 (A5 m c)) = X
  after_results
  rw [W4_arg5 m ρ c]
  exact hX
set_option maxHeartbeats 4000000 in
theorem W5_v50 : W5 m ρ c (Proc.devRef .tc main_v50) = wsl1 (A6 m c) := by
  show StableHlo.after hostOps2 (W4 m ρ c) (Proc.devRef .tc main_v50) = _
  generalize hX : (wsl1 (A6 m c)) = X
  after_results
  rw [W4_arg6 m ρ c]
  exact hX
set_option maxHeartbeats 4000000 in
theorem W5_v1 : W5 m ρ c (Proc.devRef .tc main_v1) = srcRaw (A1 m c) := by
  show StableHlo.after hostOps2 (W4 m ρ c) (Proc.devRef .tc main_v1) = _
  generalize hX : (srcRaw (A1 m c)) = X
  after_results
  exact (W4_v1 m ρ c).trans hX
set_option maxHeartbeats 4000000 in
theorem W5_v3 : W5 m ρ c (Proc.devRef .tc main_v3) = dstRaw (A1 m c) := by
  show StableHlo.after hostOps2 (W4 m ρ c) (Proc.devRef .tc main_v3) = _
  generalize hX : (dstRaw (A1 m c)) = X
  after_results
  exact (W4_v3 m ρ c).trans hX
set_option maxHeartbeats 4000000 in
theorem W5_v12 : W5 m ρ c (Proc.devRef .tc main_v12) = invd (A1 m c) := by
  show StableHlo.after hostOps2 (W4 m ρ c) (Proc.devRef .tc main_v12) = _
  generalize hX : (invd (A1 m c)) = X
  after_results
  exact (W4_v12 m ρ c).trans hX
set_option maxHeartbeats 4000000 in
theorem W5_v13_0 : W5 m ρ c (Proc.devRef .tc main_v13_0) = inp m c := by
  show StableHlo.after hostOps2 (W4 m ρ c) (Proc.devRef .tc main_v13_0) = _
  generalize hX : (inp m c) = X
  after_results
  exact (W4_v13_0 m ρ c).trans hX
set_option maxHeartbeats 4000000 in
theorem W5_v32 : W5 m ρ c (Proc.devRef .tc main_v32) = h1 m c := by
  show StableHlo.after hostOps2 (W4 m ρ c) (Proc.devRef .tc main_v32) = _
  generalize hX : (h1 m c) = X
  after_results
  exact (W4_v32 m ρ c).trans hX
set_option maxHeartbeats 4000000 in
theorem W5_arg4 : W5 m ρ c (Proc.devRef .tc main_arg4) = A4 m c := by
  show StableHlo.after hostOps2 (W4 m ρ c) (Proc.devRef .tc main_arg4) = _
  generalize hX : (A4 m c) = X
  after_results
  exact (W4_arg4 m ρ c).trans hX
set_option maxHeartbeats 4000000 in
theorem W5_arg5 : W5 m ρ c (Proc.devRef .tc main_arg5) = A5 m c := by
  show StableHlo.after hostOps2 (W4 m ρ c) (Proc.devRef .tc main_arg5) = _
  generalize hX : (A5 m c) = X
  after_results
  exact (W4_arg5 m ρ c).trans hX
set_option maxHeartbeats 4000000 in
theorem W5_arg6 : W5 m ρ c (Proc.devRef .tc main_arg6) = A6 m c := by
  show StableHlo.after hostOps2 (W4 m ρ c) (Proc.devRef .tc main_arg6) = _
  generalize hX : (A6 m c) = X
  after_results
  exact (W4_arg6 m ρ c).trans hX
set_option maxHeartbeats 4000000 in
theorem W5_arg7 : W5 m ρ c (Proc.devRef .tc main_arg7) = A7 m c := by
  show StableHlo.after hostOps2 (W4 m ρ c) (Proc.devRef .tc main_arg7) = _
  generalize hX : (A7 m c) = X
  after_results
  exact (W4_arg7 m ρ c).trans hX
set_option maxHeartbeats 4000000 in
theorem W5_arg8 : W5 m ρ c (Proc.devRef .tc main_arg8) = A8 m c := by
  show StableHlo.after hostOps2 (W4 m ρ c) (Proc.devRef .tc main_arg8) = _
  generalize hX : (A8 m c) = X
  after_results
  exact (W4_arg8 m ρ c).trans hX
set_option maxHeartbeats 4000000 in
theorem W5_arg9 : W5 m ρ c (Proc.devRef .tc main_arg9) = A9 m c := by
  show StableHlo.after hostOps2 (W4 m ρ c) (Proc.devRef .tc main_arg9) = _
  generalize hX : (A9 m c) = X
  after_results
  exact (W4_arg9 m ρ c).trans hX
/-! ## After region 2 -/
theorem W6_v51 : W6 m ρ c (Proc.devRef .tc main_v51) = h2 m c := by
  refine (W6_arr m ρ c 7).trans ((Cert.KernelIdeal.Reg2.final (V5 m ρ) c).trans ?_)
  show Cert.Stages.hidK (N := 100000) (W5 m ρ c (Proc.devRef .tc main_v44)) (W5 m ρ c (Proc.devRef .tc main_v12)) (W5 m ρ c (Proc.devRef .tc main_v32))
      (W5 m ρ c (Proc.devRef .tc main_v46)) (W5 m ρ c (Proc.devRef .tc main_v48)) (W5 m ρ c (Proc.devRef .tc main_v50)) (W5 m ρ c (Proc.devRef .tc main_v13_0)) = _
  rw [W5_v44, W5_v12, W5_v32, W5_v46, W5_v48, W5_v50, W5_v13_0]
  rfl
theorem W6_v1 : W6 m ρ c (Proc.devRef .tc main_v1) = srcRaw (A1 m c) :=
  (W6_of_ne m ρ c main_v1 (by decide)).trans (W5_v1 m ρ c)
theorem W6_v3 : W6 m ρ c (Proc.devRef .tc main_v3) = dstRaw (A1 m c) :=
  (W6_of_ne m ρ c main_v3 (by decide)).trans (W5_v3 m ρ c)
theorem W6_arg4 : W6 m ρ c (Proc.devRef .tc main_arg4) = A4 m c :=
  (W6_of_ne m ρ c main_arg4 (by decide)).trans (W5_arg4 m ρ c)
theorem W6_arg5 : W6 m ρ c (Proc.devRef .tc main_arg5) = A5 m c :=
  (W6_of_ne m ρ c main_arg5 (by decide)).trans (W5_arg5 m ρ c)
theorem W6_arg6 : W6 m ρ c (Proc.devRef .tc main_arg6) = A6 m c :=
  (W6_of_ne m ρ c main_arg6 (by decide)).trans (W5_arg6 m ρ c)
theorem W6_arg7 : W6 m ρ c (Proc.devRef .tc main_arg7) = A7 m c :=
  (W6_of_ne m ρ c main_arg7 (by decide)).trans (W5_arg7 m ρ c)
theorem W6_arg8 : W6 m ρ c (Proc.devRef .tc main_arg8) = A8 m c :=
  (W6_of_ne m ρ c main_arg8 (by decide)).trans (W5_arg8 m ρ c)
theorem W6_arg9 : W6 m ρ c (Proc.devRef .tc main_arg9) = A9 m c :=
  (W6_of_ne m ρ c main_arg9 (by decide)).trans (W5_arg9 m ρ c)
theorem W6_v12 : W6 m ρ c (Proc.devRef .tc main_v12) = invd (A1 m c) :=
  ((W6_arr m ρ c 1).trans (((dat2 (V5 m ρ) c).arrAt_in 1 rfl _).trans (A_eq2 (V5 m ρ) c 1))).trans (W5_v12 m ρ c)
theorem W6_v13_0 : W6 m ρ c (Proc.devRef .tc main_v13_0) = inp m c :=
  ((W6_arr m ρ c 6).trans (((dat2 (V5 m ρ) c).arrAt_in 6 rfl _).trans (A_eq2 (V5 m ρ) c 6))).trans (W5_v13_0 m ρ c)
/-! ## After the host stretch before region 3 -/
set_option maxHeartbeats 4000000 in
theorem W7_v63 : W7 m ρ c (Proc.devRef .tc main_v63) = agg (A1 m c) (h2 m c) := by
  show StableHlo.after hostOps3 (W6 m ρ c) (Proc.devRef .tc main_v63) = _
  generalize hX : (agg (A1 m c) (h2 m c)) = X
  after_results
  rw [W6_v3 m ρ c, W6_v51 m ρ c, W6_v1 m ρ c]
  exact hX
set_option maxHeartbeats 4000000 in
theorem W7_v65 : W7 m ρ c (Proc.devRef .tc main_v65) = wsl2 (A4 m c) := by
  show StableHlo.after hostOps3 (W6 m ρ c) (Proc.devRef .tc main_v65) = _
  generalize hX : (wsl2 (A4 m c)) = X
  after_results
  rw [W6_arg4 m ρ c]
  exact hX
set_option maxHeartbeats 4000000 in
theorem W7_v67 : W7 m ρ c (Proc.devRef .tc main_v67) = bsl2 (A5 m c) := by
  show StableHlo.after hostOps3 (W6 m ρ c) (Proc.devRef .tc main_v67) = _
  generalize hX : (bsl2 (A5 m c)) = X
  after_results
  rw [W6_arg5 m ρ c]
  exact hX
set_option maxHeartbeats 4000000 in
theorem W7_v69 : W7 m ρ c (Proc.devRef .tc main_v69) = wsl2 (A6 m c) := by
  show StableHlo.after hostOps3 (W6 m ρ c) (Proc.devRef .tc main_v69) = _
  generalize hX : (wsl2 (A6 m c)) = X
  after_results
  rw [W6_arg6 m ρ c]
  exact hX
set_option maxHeartbeats 4000000 in
theorem W7_v1 : W7 m ρ c (Proc.devRef .tc main_v1) = srcRaw (A1 m c) := by
  show StableHlo.after hostOps3 (W6 m ρ c) (Proc.devRef .tc main_v1) = _
  generalize hX : (srcRaw (A1 m c)) = X
  after_results
  exact (W6_v1 m ρ c).trans hX
set_option maxHeartbeats 4000000 in
theorem W7_v3 : W7 m ρ c (Proc.devRef .tc main_v3) = dstRaw (A1 m c) := by
  show StableHlo.after hostOps3 (W6 m ρ c) (Proc.devRef .tc main_v3) = _
  generalize hX : (dstRaw (A1 m c)) = X
  after_results
  exact (W6_v3 m ρ c).trans hX
set_option maxHeartbeats 4000000 in
theorem W7_v12 : W7 m ρ c (Proc.devRef .tc main_v12) = invd (A1 m c) := by
  show StableHlo.after hostOps3 (W6 m ρ c) (Proc.devRef .tc main_v12) = _
  generalize hX : (invd (A1 m c)) = X
  after_results
  exact (W6_v12 m ρ c).trans hX
set_option maxHeartbeats 4000000 in
theorem W7_v13_0 : W7 m ρ c (Proc.devRef .tc main_v13_0) = inp m c := by
  show StableHlo.after hostOps3 (W6 m ρ c) (Proc.devRef .tc main_v13_0) = _
  generalize hX : (inp m c) = X
  after_results
  exact (W6_v13_0 m ρ c).trans hX
set_option maxHeartbeats 4000000 in
theorem W7_v51 : W7 m ρ c (Proc.devRef .tc main_v51) = h2 m c := by
  show StableHlo.after hostOps3 (W6 m ρ c) (Proc.devRef .tc main_v51) = _
  generalize hX : (h2 m c) = X
  after_results
  exact (W6_v51 m ρ c).trans hX
set_option maxHeartbeats 4000000 in
theorem W7_arg7 : W7 m ρ c (Proc.devRef .tc main_arg7) = A7 m c := by
  show StableHlo.after hostOps3 (W6 m ρ c) (Proc.devRef .tc main_arg7) = _
  generalize hX : (A7 m c) = X
  after_results
  exact (W6_arg7 m ρ c).trans hX
set_option maxHeartbeats 4000000 in
theorem W7_arg8 : W7 m ρ c (Proc.devRef .tc main_arg8) = A8 m c := by
  show StableHlo.after hostOps3 (W6 m ρ c) (Proc.devRef .tc main_arg8) = _
  generalize hX : (A8 m c) = X
  after_results
  exact (W6_arg8 m ρ c).trans hX
set_option maxHeartbeats 4000000 in
theorem W7_arg9 : W7 m ρ c (Proc.devRef .tc main_arg9) = A9 m c := by
  show StableHlo.after hostOps3 (W6 m ρ c) (Proc.devRef .tc main_arg9) = _
  generalize hX : (A9 m c) = X
  after_results
  exact (W6_arg9 m ρ c).trans hX
/-! ## After region 3 -/
theorem W8_v70 : W8 m ρ c (Proc.devRef .tc main_v70) = h3 m c := by
  refine (W8_arr m ρ c 7).trans ((Cert.KernelIdeal.Reg3.final (V7 m ρ) c).trans ?_)
  show Cert.Stages.hidK (N := 100000) (W7 m ρ c (Proc.devRef .tc main_v63)) (W7 m ρ c (Proc.devRef .tc main_v12)) (W7 m ρ c (Proc.devRef .tc main_v51))
      (W7 m ρ c (Proc.devRef .tc main_v65)) (W7 m ρ c (Proc.devRef .tc main_v67)) (W7 m ρ c (Proc.devRef .tc main_v69)) (W7 m ρ c (Proc.devRef .tc main_v13_0)) = _
  rw [W7_v63, W7_v12, W7_v51, W7_v65, W7_v67, W7_v69, W7_v13_0]
  rfl
theorem W8_v1 : W8 m ρ c (Proc.devRef .tc main_v1) = srcRaw (A1 m c) :=
  (W8_of_ne m ρ c main_v1 (by decide)).trans (W7_v1 m ρ c)
theorem W8_v3 : W8 m ρ c (Proc.devRef .tc main_v3) = dstRaw (A1 m c) :=
  (W8_of_ne m ρ c main_v3 (by decide)).trans (W7_v3 m ρ c)
theorem W8_arg7 : W8 m ρ c (Proc.devRef .tc main_arg7) = A7 m c :=
  (W8_of_ne m ρ c main_arg7 (by decide)).trans (W7_arg7 m ρ c)
theorem W8_arg8 : W8 m ρ c (Proc.devRef .tc main_arg8) = A8 m c :=
  (W8_of_ne m ρ c main_arg8 (by decide)).trans (W7_arg8 m ρ c)
theorem W8_arg9 : W8 m ρ c (Proc.devRef .tc main_arg9) = A9 m c :=
  (W8_of_ne m ρ c main_arg9 (by decide)).trans (W7_arg9 m ρ c)
theorem W8_v12 : W8 m ρ c (Proc.devRef .tc main_v12) = invd (A1 m c) :=
  ((W8_arr m ρ c 1).trans (((dat3 (V7 m ρ) c).arrAt_in 1 rfl _).trans (A_eq3 (V7 m ρ) c 1))).trans (W7_v12 m ρ c)
/-! ## After region 4 -/
theorem W9_v71 : W9 m ρ c (Proc.devRef .tc main_v71) = zproj m c := by
  refine (W9_arr m ρ c 2).trans ((Cert.KernelIdeal.Reg4.final (V8 m ρ) c).trans ?_)
  show Cert.Stages.proj (N := 100000) (W8 m ρ c (Proc.devRef .tc main_v70)) (W8 m ρ c (Proc.devRef .tc main_arg7)) = _
  rw [W8_v70, W8_arg7]
  rfl
theorem W9_v1 : W9 m ρ c (Proc.devRef .tc main_v1) = srcRaw (A1 m c) :=
  (W9_of_ne m ρ c main_v1 (by decide)).trans (W8_v1 m ρ c)
theorem W9_v3 : W9 m ρ c (Proc.devRef .tc main_v3) = dstRaw (A1 m c) :=
  (W9_of_ne m ρ c main_v3 (by decide)).trans (W8_v3 m ρ c)
theorem W9_v12 : W9 m ρ c (Proc.devRef .tc main_v12) = invd (A1 m c) :=
  (W9_of_ne m ρ c main_v12 (by decide)).trans (W8_v12 m ρ c)
theorem W9_arg8 : W9 m ρ c (Proc.devRef .tc main_arg8) = A8 m c :=
  (W9_of_ne m ρ c main_arg8 (by decide)).trans (W8_arg8 m ρ c)
theorem W9_arg9 : W9 m ρ c (Proc.devRef .tc main_arg9) = A9 m c :=
  (W9_of_ne m ρ c main_arg9 (by decide)).trans (W8_arg9 m ρ c)
theorem W9_v70 : W9 m ρ c (Proc.devRef .tc main_v70) = h3 m c :=
  ((W9_arr m ρ c 0).trans (((dat4 (V8 m ρ) c).arrAt_in 0 rfl _).trans (A_eq4 (V8 m ρ) c 0))).trans (W8_v70 m ρ c)
/-! ## After the last host stretch -/
set_option maxHeartbeats 4000000 in
theorem W10_v82 : W10 m ρ c (Proc.devRef .tc main_v82) = agg47 (A1 m c) (zproj m c) := by
  show StableHlo.after hostOps5 (W9 m ρ c) (Proc.devRef .tc main_v82) = _
  generalize hX : (agg47 (A1 m c) (zproj m c)) = X
  after_results
  rw [W9_v3 m ρ c, W9_v71 m ρ c, W9_v1 m ρ c]
  exact hX
set_option maxHeartbeats 4000000 in
theorem W10_v12 : W10 m ρ c (Proc.devRef .tc main_v12) = invd (A1 m c) := by
  show StableHlo.after hostOps5 (W9 m ρ c) (Proc.devRef .tc main_v12) = _
  generalize hX : (invd (A1 m c)) = X
  after_results
  exact (W9_v12 m ρ c).trans hX
set_option maxHeartbeats 4000000 in
theorem W10_v70 : W10 m ρ c (Proc.devRef .tc main_v70) = h3 m c := by
  show StableHlo.after hostOps5 (W9 m ρ c) (Proc.devRef .tc main_v70) = _
  generalize hX : (h3 m c) = X
  after_results
  exact (W9_v70 m ρ c).trans hX
set_option maxHeartbeats 4000000 in
theorem W10_arg8 : W10 m ρ c (Proc.devRef .tc main_arg8) = A8 m c := by
  show StableHlo.after hostOps5 (W9 m ρ c) (Proc.devRef .tc main_arg8) = _
  generalize hX : (A8 m c) = X
  after_results
  exact (W9_arg8 m ρ c).trans hX
set_option maxHeartbeats 4000000 in
theorem W10_arg9 : W10 m ρ c (Proc.devRef .tc main_arg9) = A9 m c := by
  show StableHlo.after hostOps5 (W9 m ρ c) (Proc.devRef .tc main_arg9) = _
  generalize hX : (A9 m c) = X
  after_results
  exact (W9_arg9 m ρ c).trans hX
/-! ## After the last region: the result -/
/-- The result buffer after the run. -/
theorem W11_v83 : W11 m ρ c (Proc.devRef .tc main_v83) = out m c := by
  refine (W11_arr m ρ c 5).trans ((Cert.KernelIdeal.Reg5.final (V10 m ρ) c).trans ?_)
  show Cert.Stages.lsm (N := 100000) (Cert.Stages.logitsK (N := 100000) (W10 m ρ c (Proc.devRef .tc main_v82)) (W10 m ρ c (Proc.devRef .tc main_v12))
      (W10 m ρ c (Proc.devRef .tc main_v70)) (W10 m ρ c (Proc.devRef .tc main_arg9)) (W10 m ρ c (Proc.devRef .tc main_arg8))) = _
  rw [W10_v82, W10_v12, W10_v70, W10_arg9, W10_arg8]
  rfl

end Cert.KernelIdeal.KBound

end
-- ==== Proof.RefRunVal.lean ====
/-
  The run of the reference program, read back one layer at a time.

  The reference is a straight line of 159 host operations. Its buffers after the line are the launch contents folded
  through the operations in order, and a fold through a concatenation is the fold through the second part of the fold
  through the first. Cut after the input projection and after each of the four layers, every stretch's results are the
  stage functions of the values the previous stretch left (the edge list's two rows, the clamped in-degree, the input
  projection, the previous layer), so the result buffer ends at the last stage of the arguments.
-/
import proofs.«108666_j83519934038393_2_alg».proof.Proof.RefRead
import Idealize.ShloMosaic.Lib.StableHlo.Run

set_option maxRecDepth 16384

noncomputable section

namespace Cert.ReferenceIdeal.RunVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The fold through a concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1–21 of @main: the input projection and its rectification. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    binary main_arg0 main_arg2 main_v11 ((fun l r => Host.dotGeneral dot_S100000x100_S100x128_S100000x128_1_0_0_1_n_n none l r) : (⟨S100000x100, .f32⟩ : BufTy).Contents (Elt F) → (⟨S100x128, .f32⟩ : BufTy).Contents (Elt F) → (⟨S100000x128, .f32⟩ : BufTy).Contents (Elt F)),
    unary main_arg3 main_v12 (broadcastInDim S1x128 ![1] bcast_S128_S1x128_1 : (⟨S128, .f32⟩ : BufTy).Contents (Elt F) → (⟨S1x128, .f32⟩ : BufTy).Contents (Elt F)),
    unary main_v12 main_v13 (broadcastInDim S100000x128 ![0, 1] bcast_S1x128_S100000x128_0_1 : (⟨S1x128, .f32⟩ : BufTy).Contents (Elt F) → (⟨S100000x128, .f32⟩ : BufTy).Contents (Elt F)),
    binary main_v11 main_v13 main_v14 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v14) (TRef.of (T := ⟨S100000x128, .f32⟩) main_call0_v0) (TRef.of (T := ⟨S100000x128, .f32⟩) main_v15) maximumf ]
/-- Operations 22–55 of @main: the first hidden layer. -/
abbrev ops1 : List (HloOp τ sig (Elt F)) :=
  [ unary main_arg4 main_v16 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v16 main_v17 rfl shapeCasts_S1x128x128_S128x128,
    unary main_arg5 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128,
    unary main_arg6 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v20 main_v21 rfl shapeCasts_S1x128x128_S128x128,
    nullary main_c (constantI S_ 32 0#32),
    unary main_c main_v22 (broadcastInDim S1600000 ![] bcast_S_S1600000 : (⟨S_, .i32⟩ : BufTy).Contents (Elt F) → (⟨S1600000, .i32⟩ : BufTy).Contents (Elt F)),
    binary main_v1 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v24 (broadcastInDim S1600000 ![] bcast_S_S1600000 : (⟨S_, .i32⟩ : BufTy).Contents (Elt F) → (⟨S1600000, .i32⟩ : BufTy).Contents (Elt F)),
    binary main_v1 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v15 main_v27 main_v28 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_3 (constant S_ .f32 0x00000000#32),
    unary main_cst_3 main_v29 (broadcastInDim S100000x128 ![] bcast_S_S100000x128 : (⟨S_, .f32⟩ : BufTy).Contents (Elt F) → (⟨S100000x128, .f32⟩ : BufTy).Contents (Elt F)),
    unary main_v3 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v32 (broadcastInDim S100000x128 ![0, 1] bcast_S100000x1_S100000x128_0_1 : (⟨S100000x1, .f32⟩ : BufTy).Contents (Elt F) → (⟨S100000x128, .f32⟩ : BufTy).Contents (Elt F)),
    binary main_v31 main_v32 main_v33 (Host.divf : (⟨S100000x128, .f32⟩ : BufTy).Contents (Elt F) → (⟨S100000x128, .f32⟩ : BufTy).Contents (Elt F) → (⟨S100000x128, .f32⟩ : BufTy).Contents (Elt F)),
    binary main_v33 main_v17 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v19 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (addf : (⟨S100000x128, .f32⟩ : BufTy).Contents (Elt F) → (⟨S100000x128, .f32⟩ : BufTy).Contents (Elt F) → (⟨S100000x128, .f32⟩ : BufTy).Contents (Elt F)),
    binary main_v15 main_v21 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v37 main_v38 main_v39 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v39) (TRef.of (T := ⟨S100000x128, .f32⟩) main_call1_v0) (TRef.of (T := ⟨S100000x128, .f32⟩) main_v40) maximumf,
    nullary main_cst_4 (constant S_ .f32 0x3E4CCCCD#32),
    unary main_cst_4 main_v41 (broadcastInDim S100000x128 ![] bcast_S_S100000x128 : (⟨S_, .f32⟩ : BufTy).Contents (Elt F) → (⟨S100000x128, .f32⟩ : BufTy).Contents (Elt F)),
    binary main_v41 main_v14 main_v42 (mulf : (⟨S100000x128, .f32⟩ : BufTy).Contents (Elt F) → (⟨S100000x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)) ]
/-- Operations 56–89 of @main: the second hidden layer. -/
abbrev ops2 : List (HloOp τ sig (Elt F)) :=
  [ unary main_arg4 main_v44 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v44 main_v45 rfl shapeCasts_S1x128x128_S128x128,
    unary main_arg5 main_v46 ((extractStridedSlice S1x128 ![1, 0] · slices_S3x128_S1x128_1_0) : (⟨S3x128, .f32⟩ : BufTy).Contents (Elt F) → (⟨S1x128, .f32⟩ : BufTy).Contents (Elt F)),
    reshape main_v46 main_v47 rfl shapeCasts_S1x128_S128,
    unary main_arg6 main_v48 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v48 main_v49 rfl shapeCasts_S1x128x128_S128x128,
    nullary main_c_5 (constantI S_ 32 0#32),
    unary main_c_5 main_v50 (broadcastInDim S1600000 ![] bcast_S_S1600000 : (⟨S_, .i32⟩ : BufTy).Contents (Elt F) → (⟨S1600000, .i32⟩ : BufTy).Contents (Elt F)),
    binary main_v1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v52 (broadcastInDim S1600000 ![] bcast_S_S1600000 : (⟨S_, .i32⟩ : BufTy).Contents (Elt F) → (⟨S1600000, .i32⟩ : BufTy).Contents (Elt F)),
    binary main_v1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v43 main_v55 main_v56 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v57 (broadcastInDim S100000x128 ![] bcast_S_S100000x128 : (⟨S_, .f32⟩ : BufTy).Contents (Elt F) → (⟨S100000x128, .f32⟩ : BufTy).Contents (Elt F)),
    unary main_v3 main_v58 (broadcastInDim S1600000x1 ![0] bcast_S1600000_S1600000x1_0 : (⟨S1600000, .i32⟩ : BufTy).Contents (Elt F) → (⟨S1600000x1, .i32⟩ : BufTy).Contents (Elt F)),
    ternary main_v57 main_v58 main_v56 main_v59 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v60 (broadcastInDim S100000x128 ![0, 1] bcast_S100000x1_S100000x128_0_1 : (⟨S100000x1, .f32⟩ : BufTy).Contents (Elt F) → (⟨S100000x128, .f32⟩ : BufTy).Contents (Elt F)),
    binary main_v59 main_v60 main_v61 (Host.divf : (⟨S100000x128, .f32⟩ : BufTy).Contents (Elt F) → (⟨S100000x128, .f32⟩ : BufTy).Contents (Elt F) → (⟨S100000x128, .f32⟩ : BufTy).Contents (Elt F)),
    binary main_v61 main_v45 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v47 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    binary main_v43 main_v49 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v65 main_v66 main_v67 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v67) (TRef.of (T := ⟨S100000x128, .f32⟩) main_call2_v0) (TRef.of (T := ⟨S100000x128, .f32⟩) main_v68) maximumf,
    nullary main_cst_8 (constant S_ .f32 0x3E4CCCCD#32),
    unary main_cst_8 main_v69 (broadcastInDim S100000x128 ![] bcast_S_S100000x128 : (⟨S_, .f32⟩ : BufTy).Contents (Elt F) → (⟨S100000x128, .f32⟩ : BufTy).Contents (Elt F)),
    binary main_v69 main_v14 main_v70 (mulf : (⟨S100000x128, .f32⟩ : BufTy).Contents (Elt F) → (⟨S100000x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)) ]
/-- Operations 90–123 of @main: the third hidden layer. -/
abbrev ops3 : List (HloOp τ sig (Elt F)) :=
  [ unary main_arg4 main_v72 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v72 main_v73 rfl shapeCasts_S1x128x128_S128x128,
    unary main_arg5 main_v74 ((extractStridedSlice S1x128 ![2, 0] · slices_S3x128_S1x128_2_0) : (⟨S3x128, .f32⟩ : BufTy).Contents (Elt F) → (⟨S1x128, .f32⟩ : BufTy).Contents (Elt F)),
    reshape main_v74 main_v75 rfl shapeCasts_S1x128_S128,
    unary main_arg6 main_v76 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v76 main_v77 rfl shapeCasts_S1x128x128_S128x128,
    nullary main_c_9 (constantI S_ 32 0#32),
    unary main_c_9 main_v78 (broadcastInDim S1600000 ![] bcast_S_S1600000 : (⟨S_, .i32⟩ : BufTy).Contents (Elt F) → (⟨S1600000, .i32⟩ : BufTy).Contents (Elt F)),
    binary main_v1 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v80 (broadcastInDim S1600000 ![] bcast_S_S1600000 : (⟨S_, .i32⟩ : BufTy).Contents (Elt F) → (⟨S1600000, .i32⟩ : BufTy).Contents (Elt F)),
    binary main_v1 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_v1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v71 main_v83 main_v84 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_11 (constant S_ .f32 0x00000000#32),
    unary main_cst_11 main_v85 (broadcastInDim S100000x128 ![] bcast_S_S100000x128 : (⟨S_, .f32⟩ : BufTy).Contents (Elt F) → (⟨S100000x128, .f32⟩ : BufTy).Contents (Elt F)),
    unary main_v3 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v88 (broadcastInDim S100000x128 ![0, 1] bcast_S100000x1_S100000x128_0_1 : (⟨S100000x1, .f32⟩ : BufTy).Contents (Elt F) → (⟨S100000x128, .f32⟩ : BufTy).Contents (Elt F)),
    binary main_v87 main_v88 main_v89 (Host.divf : (⟨S100000x128, .f32⟩ : BufTy).Contents (Elt F) → (⟨S100000x128, .f32⟩ : BufTy).Contents (Elt F) → (⟨S100000x128, .f32⟩ : BufTy).Contents (Elt F)),
    binary main_v89 main_v73 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v75 main_v91 (broadcastInDim S1x128 ![1] bcast_S128_S1x128_1 : (⟨S128, .f32⟩ : BufTy).Contents (Elt F) → (⟨S1x128, .f32⟩ : BufTy).Contents (Elt F)),
    unary main_v91 main_v92 (broadcastInDim S100000x128 ![0, 1] bcast_S1x128_S100000x128_0_1 : (⟨S1x128, .f32⟩ : BufTy).Contents (Elt F) → (⟨S100000x128, .f32⟩ : BufTy).Contents (Elt F)),
    binary main_v90 main_v92 main_v93 (addf : (⟨S100000x128, .f32⟩ : BufTy).Contents (Elt F) → (⟨S100000x128, .f32⟩ : BufTy).Contents (Elt F) → (⟨S100000x128, .f32⟩ : BufTy).Contents (Elt F)),
    binary main_v71 main_v77 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v93 main_v94 main_v95 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v95) (TRef.of (T := ⟨S100000x128, .f32⟩) main_call3_v0) (TRef.of (T := ⟨S100000x128, .f32⟩) main_v96) maximumf,
    nullary main_cst_12 (constant S_ .f32 0x3E4CCCCD#32),
    unary main_cst_12 main_v97 (broadcastInDim S100000x128 ![] bcast_S_S100000x128 : (⟨S_, .f32⟩ : BufTy).Contents (Elt F) → (⟨S100000x128, .f32⟩ : BufTy).Contents (Elt F)),
    binary main_v97 main_v14 main_v98 (mulf : (⟨S100000x128, .f32⟩ : BufTy).Contents (Elt F) → (⟨S100000x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)) ]
/-- Operations 124–159 of @main: the last layer and the row-wise log-softmax. -/
abbrev ops4 : List (HloOp τ sig (Elt F)) :=
  [ nullary main_c_13 (constantI S_ 32 0#32),
    unary main_c_13 main_v100 (broadcastInDim S1600000 ![] bcast_S_S1600000 : (⟨S_, .i32⟩ : BufTy).Contents (Elt F) → (⟨S1600000, .i32⟩ : BufTy).Contents (Elt F)),
    binary main_v1 main_v100 main_v101 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v102 (broadcastInDim S1600000 ![] bcast_S_S1600000 : (⟨S_, .i32⟩ : BufTy).Contents (Elt F) → (⟨S1600000, .i32⟩ : BufTy).Contents (Elt F)),
    binary main_v1 main_v102 main_v103 (addi : (⟨S1600000, .i32⟩ : BufTy).Contents (Elt F) → (⟨S1600000, .i32⟩ : BufTy).Contents (Elt F) → (⟨S1600000, .i32⟩ : BufTy).Contents (Elt F)),
    ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v104 main_v105 (broadcastInDim S1600000x1 ![0] bcast_S1600000_S1600000x1_0 : (⟨S1600000, .i32⟩ : BufTy).Contents (Elt F) → (⟨S1600000x1, .i32⟩ : BufTy).Contents (Elt F)),
    binary main_v99 main_v105 main_v106 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_15 (constant S_ .f32 0x00000000#32),
    unary main_cst_15 main_v107 (broadcastInDim S100000x128 ![] bcast_S_S100000x128 : (⟨S_, .f32⟩ : BufTy).Contents (Elt F) → (⟨S100000x128, .f32⟩ : BufTy).Contents (Elt F)),
    unary main_v3 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v110 (broadcastInDim S100000x128 ![0, 1] bcast_S100000x1_S100000x128_0_1 : (⟨S100000x1, .f32⟩ : BufTy).Contents (Elt F) → (⟨S100000x128, .f32⟩ : BufTy).Contents (Elt F)),
    binary main_v109 main_v110 main_v111 (Host.divf : (⟨S100000x128, .f32⟩ : BufTy).Contents (Elt F) → (⟨S100000x128, .f32⟩ : BufTy).Contents (Elt F) → (⟨S100000x128, .f32⟩ : BufTy).Contents (Elt F)),
    binary main_v111 main_arg7 main_v112 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    unary main_arg8 main_v113 (broadcastInDim S1x47 ![1] bcast_S47_S1x47_1 : (⟨S47, .f32⟩ : BufTy).Contents (Elt F) → (⟨S1x47, .f32⟩ : BufTy).Contents (Elt F)),
    unary main_v113 main_v114 (broadcastInDim S100000x47 ![0, 1] bcast_S1x47_S100000x47_0_1 : (⟨S1x47, .f32⟩ : BufTy).Contents (Elt F) → (⟨S100000x47, .f32⟩ : BufTy).Contents (Elt F)),
    binary main_v112 main_v114 main_v115 (addf : (⟨S100000x47, .f32⟩ : BufTy).Contents (Elt F) → (⟨S100000x47, .f32⟩ : BufTy).Contents (Elt F) → (⟨S100000x47, .f32⟩ : BufTy).Contents (Elt F)),
    binary main_v99 main_arg9 main_v116 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    binary main_v115 main_v116 main_v117 (addf : (⟨S100000x47, .f32⟩ : BufTy).Contents (Elt F) → (⟨S100000x47, .f32⟩ : BufTy).Contents (Elt F) → (⟨S100000x47, .f32⟩ : BufTy).Contents (Elt F)),
    TRef.nullary (TRef.of (T := ⟨S_, .f32⟩) main_call4_cst) (constant S_ .f32 0xFF800000#32),
    TRef.binary (TRef.of (T := ⟨S100000x47, .f32⟩) main_v117) (TRef.of (T := ⟨S_, .f32⟩) main_call4_cst) (TRef.of (T := ⟨S100000, .f32⟩) main_call4_v0) (fun x v => Host.reduce FloatOps.maximumf x v reducesTo_S100000x47_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x47, .f32⟩) main_call4_v4) (broadcastInDim S100000x47 ![0, 1] bcast_S100000x1_S100000x47_0_1),
    TRef.binary (TRef.of (T := ⟨S100000x47, .f32⟩) main_v117) (TRef.of (T := ⟨S100000x47, .f32⟩) main_call4_v4) (TRef.of (T := ⟨S100000x47, .f32⟩) main_call4_v5) subf,
    TRef.unary (TRef.of (T := ⟨S100000x47, .f32⟩) main_call4_v5) (TRef.of (T := ⟨S100000x47, .f32⟩) main_call4_v6) Host.exp,
    TRef.nullary (TRef.of (T := ⟨S_, .f32⟩) main_call4_cst_1) (constant S_ .f32 0x00000000#32),
    TRef.binary (TRef.of (T := ⟨S100000x47, .f32⟩) main_call4_v6) (TRef.of (T := ⟨S_, .f32⟩) main_call4_cst_1) (TRef.of (T := ⟨S100000, .f32⟩) main_call4_v7) (fun x v => Host.reduceAdd x v reducesTo_S100000x47_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x47, .f32⟩) main_call4_v10) (broadcastInDim S100000x47 ![0, 1] bcast_S100000x1_S100000x47_0_1),
    TRef.binary (TRef.of (T := ⟨S100000x47, .f32⟩) main_call4_v5) (TRef.of (T := ⟨S100000x47, .f32⟩) main_call4_v10) (TRef.of (T := ⟨S100000x47, .f32⟩) main_v118) subf ]

set_option maxRecDepth 65536 in
/-- @main's operations are the five stretches in order. -/
theorem ops_split : (ops : List (HloOp τ sig (Elt F))) = ops0 ++ (ops1 ++ (ops2 ++ (ops3 ++ ops4))) := rfl

variable (m : (ℓ : Loc nD τ sig) → Buf (Elt F) ℓ) (c : Dev nD)

abbrev X0 := m ((c.tc : Thread nD τ).loc main_arg0)
abbrev X1 := m ((c.tc : Thread nD τ).loc main_arg1)
abbrev X2 := m ((c.tc : Thread nD τ).loc main_arg2)
abbrev X3 := m ((c.tc : Thread nD τ).loc main_arg3)
abbrev X4 := m ((c.tc : Thread nD τ).loc main_arg4)
abbrev X5 := m ((c.tc : Thread nD τ).loc main_arg5)
abbrev X6 := m ((c.tc : Thread nD τ).loc main_arg6)
abbrev X7 := m ((c.tc : Thread nD τ).loc main_arg7)
abbrev X8 := m ((c.tc : Thread nD τ).loc main_arg8)
abbrev X9 := m ((c.tc : Thread nD τ).loc main_arg9)

/-- The buffers at launch and after each stretch. -/
abbrev U0 : Valuation τ sig (Elt F) := launchContents m c
def U1 : Valuation τ sig (Elt F) := after ops0 (U0 m c)
def U2 : Valuation τ sig (Elt F) := after ops1 (U1 m c)
def U3 : Valuation τ sig (Elt F) := after ops2 (U2 m c)
def U4 : Valuation τ sig (Elt F) := after ops3 (U3 m c)
def U5 : Valuation τ sig (Elt F) := after ops4 (U4 m c)

theorem after_ops : after (ops : List (HloOp τ sig (Elt F))) (launchContents m c) = U5 m c := by
  rw [ops_split, after_append, after_append, after_append, after_append]
  rfl

/-! ## The arguments are never written -/
theorem U1_arg0 : U1 m c (Proc.devRef .tc main_arg0) = X0 m c := by
  show after ops0 (U0 m c) (Proc.devRef .tc main_arg0) = _
  after_results_simp
  all_goals rfl
theorem U1_arg1 : U1 m c (Proc.devRef .tc main_arg1) = X1 m c := by
  show after ops0 (U0 m c) (Proc.devRef .tc main_arg1) = _
  after_results_simp
  all_goals rfl
theorem U1_arg2 : U1 m c (Proc.devRef .tc main_arg2) = X2 m c := by
  show after ops0 (U0 m c) (Proc.devRef .tc main_arg2) = _
  after_results_simp
  all_goals rfl
theorem U1_arg3 : U1 m c (Proc.devRef .tc main_arg3) = X3 m c := by
  show after ops0 (U0 m c) (Proc.devRef .tc main_arg3) = _
  after_results_simp
  all_goals rfl
theorem U1_arg4 : U1 m c (Proc.devRef .tc main_arg4) = X4 m c := by
  show after ops0 (U0 m c) (Proc.devRef .tc main_arg4) = _
  after_results_simp
  all_goals rfl
theorem U1_arg5 : U1 m c (Proc.devRef .tc main_arg5) = X5 m c := by
  show after ops0 (U0 m c) (Proc.devRef .tc main_arg5) = _
  after_results_simp
  all_goals rfl
theorem U1_arg6 : U1 m c (Proc.devRef .tc main_arg6) = X6 m c := by
  show after ops0 (U0 m c) (Proc.devRef .tc main_arg6) = _
  after_results_simp
  all_goals rfl
theorem U1_arg7 : U1 m c (Proc.devRef .tc main_arg7) = X7 m c := by
  show after ops0 (U0 m c) (Proc.devRef .tc main_arg7) = _
  after_results_simp
  all_goals rfl
theorem U1_arg8 : U1 m c (Proc.devRef .tc main_arg8) = X8 m c := by
  show after ops0 (U0 m c) (Proc.devRef .tc main_arg8) = _
  after_results_simp
  all_goals rfl
theorem U1_arg9 : U1 m c (Proc.devRef .tc main_arg9) = X9 m c := by
  show after ops0 (U0 m c) (Proc.devRef .tc main_arg9) = _
  after_results_simp
  all_goals rfl
theorem U2_arg0 : U2 m c (Proc.devRef .tc main_arg0) = X0 m c := by
  show after ops1 (U1 m c) (Proc.devRef .tc main_arg0) = _
  after_results_simp
  exact U1_arg0 m c
theorem U2_arg1 : U2 m c (Proc.devRef .tc main_arg1) = X1 m c := by
  show after ops1 (U1 m c) (Proc.devRef .tc main_arg1) = _
  after_results_simp
  exact U1_arg1 m c
theorem U2_arg2 : U2 m c (Proc.devRef .tc main_arg2) = X2 m c := by
  show after ops1 (U1 m c) (Proc.devRef .tc main_arg2) = _
  after_results_simp
  exact U1_arg2 m c
theorem U2_arg3 : U2 m c (Proc.devRef .tc main_arg3) = X3 m c := by
  show after ops1 (U1 m c) (Proc.devRef .tc main_arg3) = _
  after_results_simp
  exact U1_arg3 m c
theorem U2_arg4 : U2 m c (Proc.devRef .tc main_arg4) = X4 m c := by
  show after ops1 (U1 m c) (Proc.devRef .tc main_arg4) = _
  after_results_simp
  exact U1_arg4 m c
theorem U2_arg5 : U2 m c (Proc.devRef .tc main_arg5) = X5 m c := by
  show after ops1 (U1 m c) (Proc.devRef .tc main_arg5) = _
  after_results_simp
  exact U1_arg5 m c
theorem U2_arg6 : U2 m c (Proc.devRef .tc main_arg6) = X6 m c := by
  show after ops1 (U1 m c) (Proc.devRef .tc main_arg6) = _
  after_results_simp
  exact U1_arg6 m c
theorem U2_arg7 : U2 m c (Proc.devRef .tc main_arg7) = X7 m c := by
  show after ops1 (U1 m c) (Proc.devRef .tc main_arg7) = _
  after_results_simp
  exact U1_arg7 m c
theorem U2_arg8 : U2 m c (Proc.devRef .tc main_arg8) = X8 m c := by
  show after ops1 (U1 m c) (Proc.devRef .tc main_arg8) = _
  after_results_simp
  exact U1_arg8 m c
theorem U2_arg9 : U2 m c (Proc.devRef .tc main_arg9) = X9 m c := by
  show after ops1 (U1 m c) (Proc.devRef .tc main_arg9) = _
  after_results_simp
  exact U1_arg9 m c
theorem U3_arg0 : U3 m c (Proc.devRef .tc main_arg0) = X0 m c := by
  show after ops2 (U2 m c) (Proc.devRef .tc main_arg0) = _
  after_results_simp
  exact U2_arg0 m c
theorem U3_arg1 : U3 m c (Proc.devRef .tc main_arg1) = X1 m c := by
  show after ops2 (U2 m c) (Proc.devRef .tc main_arg1) = _
  after_results_simp
  exact U2_arg1 m c
theorem U3_arg2 : U3 m c (Proc.devRef .tc main_arg2) = X2 m c := by
  show after ops2 (U2 m c) (Proc.devRef .tc main_arg2) = _
  after_results_simp
  exact U2_arg2 m c
theorem U3_arg3 : U3 m c (Proc.devRef .tc main_arg3) = X3 m c := by
  show after ops2 (U2 m c) (Proc.devRef .tc main_arg3) = _
  after_results_simp
  exact U2_arg3 m c
theorem U3_arg4 : U3 m c (Proc.devRef .tc main_arg4) = X4 m c := by
  show after ops2 (U2 m c) (Proc.devRef .tc main_arg4) = _
  after_results_simp
  exact U2_arg4 m c
theorem U3_arg5 : U3 m c (Proc.devRef .tc main_arg5) = X5 m c := by
  show after ops2 (U2 m c) (Proc.devRef .tc main_arg5) = _
  after_results_simp
  exact U2_arg5 m c
theorem U3_arg6 : U3 m c (Proc.devRef .tc main_arg6) = X6 m c := by
  show after ops2 (U2 m c) (Proc.devRef .tc main_arg6) = _
  after_results_simp
  exact U2_arg6 m c
theorem U3_arg7 : U3 m c (Proc.devRef .tc main_arg7) = X7 m c := by
  show after ops2 (U2 m c) (Proc.devRef .tc main_arg7) = _
  after_results_simp
  exact U2_arg7 m c
theorem U3_arg8 : U3 m c (Proc.devRef .tc main_arg8) = X8 m c := by
  show after ops2 (U2 m c) (Proc.devRef .tc main_arg8) = _
  after_results_simp
  exact U2_arg8 m c
theorem U3_arg9 : U3 m c (Proc.devRef .tc main_arg9) = X9 m c := by
  show after ops2 (U2 m c) (Proc.devRef .tc main_arg9) = _
  after_results_simp
  exact U2_arg9 m c
theorem U4_arg0 : U4 m c (Proc.devRef .tc main_arg0) = X0 m c := by
  show after ops3 (U3 m c) (Proc.devRef .tc main_arg0) = _
  after_results_simp
  exact U3_arg0 m c
theorem U4_arg1 : U4 m c (Proc.devRef .tc main_arg1) = X1 m c := by
  show after ops3 (U3 m c) (Proc.devRef .tc main_arg1) = _
  after_results_simp
  exact U3_arg1 m c
theorem U4_arg2 : U4 m c (Proc.devRef .tc main_arg2) = X2 m c := by
  show after ops3 (U3 m c) (Proc.devRef .tc main_arg2) = _
  after_results_simp
  exact U3_arg2 m c
theorem U4_arg3 : U4 m c (Proc.devRef .tc main_arg3) = X3 m c := by
  show after ops3 (U3 m c) (Proc.devRef .tc main_arg3) = _
  after_results_simp
  exact U3_arg3 m c
theorem U4_arg4 : U4 m c (Proc.devRef .tc main_arg4) = X4 m c := by
  show after ops3 (U3 m c) (Proc.devRef .tc main_arg4) = _
  after_results_simp
  exact U3_arg4 m c
theorem U4_arg5 : U4 m c (Proc.devRef .tc main_arg5) = X5 m c := by
  show after ops3 (U3 m c) (Proc.devRef .tc main_arg5) = _
  after_results_simp
  exact U3_arg5 m c
theorem U4_arg6 : U4 m c (Proc.devRef .tc main_arg6) = X6 m c := by
  show after ops3 (U3 m c) (Proc.devRef .tc main_arg6) = _
  after_results_simp
  exact U3_arg6 m c
theorem U4_arg7 : U4 m c (Proc.devRef .tc main_arg7) = X7 m c := by
  show after ops3 (U3 m c) (Proc.devRef .tc main_arg7) = _
  after_results_simp
  exact U3_arg7 m c
theorem U4_arg8 : U4 m c (Proc.devRef .tc main_arg8) = X8 m c := by
  show after ops3 (U3 m c) (Proc.devRef .tc main_arg8) = _
  after_results_simp
  exact U3_arg8 m c
theorem U4_arg9 : U4 m c (Proc.devRef .tc main_arg9) = X9 m c := by
  show after ops3 (U3 m c) (Proc.devRef .tc main_arg9) = _
  after_results_simp
  exact U3_arg9 m c
theorem U5_arg0 : U5 m c (Proc.devRef .tc main_arg0) = X0 m c := by
  show after ops4 (U4 m c) (Proc.devRef .tc main_arg0) = _
  after_results_simp
  exact U4_arg0 m c
theorem U5_arg1 : U5 m c (Proc.devRef .tc main_arg1) = X1 m c := by
  show after ops4 (U4 m c) (Proc.devRef .tc main_arg1) = _
  after_results_simp
  exact U4_arg1 m c
theorem U5_arg2 : U5 m c (Proc.devRef .tc main_arg2) = X2 m c := by
  show after ops4 (U4 m c) (Proc.devRef .tc main_arg2) = _
  after_results_simp
  exact U4_arg2 m c
theorem U5_arg3 : U5 m c (Proc.devRef .tc main_arg3) = X3 m c := by
  show after ops4 (U4 m c) (Proc.devRef .tc main_arg3) = _
  after_results_simp
  exact U4_arg3 m c
theorem U5_arg4 : U5 m c (Proc.devRef .tc main_arg4) = X4 m c := by
  show after ops4 (U4 m c) (Proc.devRef .tc main_arg4) = _
  after_results_simp
  exact U4_arg4 m c
theorem U5_arg5 : U5 m c (Proc.devRef .tc main_arg5) = X5 m c := by
  show after ops4 (U4 m c) (Proc.devRef .tc main_arg5) = _
  after_results_simp
  exact U4_arg5 m c
theorem U5_arg6 : U5 m c (Proc.devRef .tc main_arg6) = X6 m c := by
  show after ops4 (U4 m c) (Proc.devRef .tc main_arg6) = _
  after_results_simp
  exact U4_arg6 m c
theorem U5_arg7 : U5 m c (Proc.devRef .tc main_arg7) = X7 m c := by
  show after ops4 (U4 m c) (Proc.devRef .tc main_arg7) = _
  after_results_simp
  exact U4_arg7 m c
theorem U5_arg8 : U5 m c (Proc.devRef .tc main_arg8) = X8 m c := by
  show after ops4 (U4 m c) (Proc.devRef .tc main_arg8) = _
  after_results_simp
  exact U4_arg8 m c
theorem U5_arg9 : U5 m c (Proc.devRef .tc main_arg9) = X9 m c := by
  show after ops4 (U4 m c) (Proc.devRef .tc main_arg9) = _
  after_results_simp
  exact U4_arg9 m c
/-! ## After the input projection -/
set_option maxHeartbeats 4000000 in
theorem U1_v1 : U1 m c (Proc.devRef .tc main_v1) = val_main_v1 (F := F) (X1 m c) := by
  show after ops0 (U0 m c) (Proc.devRef .tc main_v1) = _
  generalize hX : (val_main_v1 (F := F) (X1 m c)) = X
  after_results_simp
  exact hX
set_option maxHeartbeats 4000000 in
theorem U1_v3 : U1 m c (Proc.devRef .tc main_v3) = val_main_v3 (F := F) (X1 m c) := by
  show after ops0 (U0 m c) (Proc.devRef .tc main_v3) = _
  generalize hX : (val_main_v3 (F := F) (X1 m c)) = X
  after_results_simp
  exact hX
set_option maxHeartbeats 4000000 in
theorem U1_v10 : U1 m c (Proc.devRef .tc main_v10) = val_main_v10 (F := F) (X1 m c) := by
  show after ops0 (U0 m c) (Proc.devRef .tc main_v10) = _
  generalize hX : (val_main_v10 (F := F) (X1 m c)) = X
  after_results_simp
  exact hX
set_option maxHeartbeats 4000000 in
theorem U1_v14 : U1 m c (Proc.devRef .tc main_v14) = val_main_v14 (F := F) (X0 m c) (X2 m c) (X3 m c) := by
  show after ops0 (U0 m c) (Proc.devRef .tc main_v14) = _
  generalize hX : (val_main_v14 (F := F) (X0 m c) (X2 m c) (X3 m c)) = X
  after_results_simp
  exact hX
set_option maxHeartbeats 4000000 in
theorem U1_v15 : U1 m c (Proc.devRef .tc main_v15) = val_main_v15 (F := F) (X0 m c) (X2 m c) (X3 m c) := by
  show after ops0 (U0 m c) (Proc.devRef .tc main_v15) = _
  generalize hX : (val_main_v15 (F := F) (X0 m c) (X2 m c) (X3 m c)) = X
  after_results_simp
  exact hX
/-! ## After the first hidden layer -/
set_option maxHeartbeats 4000000 in
theorem U2_v43 : U2 m c (Proc.devRef .tc main_v43) = val_main_v43 (F := F) (X0 m c) (X1 m c) (X2 m c) (X3 m c) (X4 m c) (X5 m c) (X6 m c) := by
  show after ops1 (U1 m c) (Proc.devRef .tc main_v43) = _
  generalize hX : (val_main_v43 (F := F) (X0 m c) (X1 m c) (X2 m c) (X3 m c) (X4 m c) (X5 m c) (X6 m c)) = X
  after_results_simp
  rw [U1_v1 m c, U1_v3 m c, U1_v10 m c, U1_v14 m c, U1_v15 m c, U1_arg4 m c, U1_arg5 m c, U1_arg6 m c]
  exact hX
set_option maxHeartbeats 4000000 in
theorem U2_v1 : U2 m c (Proc.devRef .tc main_v1) = val_main_v1 (F := F) (X1 m c) := by
  show after ops1 (U1 m c) (Proc.devRef .tc main_v1) = _
  after_results_simp
  exact U1_v1 m c
set_option maxHeartbeats 4000000 in
theorem U2_v3 : U2 m c (Proc.devRef .tc main_v3) = val_main_v3 (F := F) (X1 m c) := by
  show after ops1 (U1 m c) (Proc.devRef .tc main_v3) = _
  after_results_simp
  exact U1_v3 m c
set_option maxHeartbeats 4000000 in
theorem U2_v10 : U2 m c (Proc.devRef .tc main_v10) = val_main_v10 (F := F) (X1 m c) := by
  show after ops1 (U1 m c) (Proc.devRef .tc main_v10) = _
  after_results_simp
  exact U1_v10 m c
set_option maxHeartbeats 4000000 in
theorem U2_v14 : U2 m c (Proc.devRef .tc main_v14) = val_main_v14 (F := F) (X0 m c) (X2 m c) (X3 m c) := by
  show after ops1 (U1 m c) (Proc.devRef .tc main_v14) = _
  after_results_simp
  exact U1_v14 m c
/-! ## After the second hidden layer -/
set_option maxHeartbeats 4000000 in
theorem U3_v71 : U3 m c (Proc.devRef .tc main_v71) = val_main_v71 (F := F) (X0 m c) (X1 m c) (X2 m c) (X3 m c) (X4 m c) (X5 m c) (X6 m c) := by
  show after ops2 (U2 m c) (Proc.devRef .tc main_v71) = _
  generalize hX : (val_main_v71 (F := F) (X0 m c) (X1 m c) (X2 m c) (X3 m c) (X4 m c) (X5 m c) (X6 m c)) = X
  after_results_simp
  rw [U2_v1 m c, U2_v3 m c, U2_v10 m c, U2_v14 m c, U2_v43 m c, U2_arg4 m c, U2_arg5 m c, U2_arg6 m c]
  exact hX
set_option maxHeartbeats 4000000 in
theorem U3_v1 : U3 m c (Proc.devRef .tc main_v1) = val_main_v1 (F := F) (X1 m c) := by
  show after ops2 (U2 m c) (Proc.devRef .tc main_v1) = _
  after_results_simp
  exact U2_v1 m c
set_option maxHeartbeats 4000000 in
theorem U3_v3 : U3 m c (Proc.devRef .tc main_v3) = val_main_v3 (F := F) (X1 m c) := by
  show after ops2 (U2 m c) (Proc.devRef .tc main_v3) = _
  after_results_simp
  exact U2_v3 m c
set_option maxHeartbeats 4000000 in
theorem U3_v10 : U3 m c (Proc.devRef .tc main_v10) = val_main_v10 (F := F) (X1 m c) := by
  show after ops2 (U2 m c) (Proc.devRef .tc main_v10) = _
  after_results_simp
  exact U2_v10 m c
set_option maxHeartbeats 4000000 in
theorem U3_v14 : U3 m c (Proc.devRef .tc main_v14) = val_main_v14 (F := F) (X0 m c) (X2 m c) (X3 m c) := by
  show after ops2 (U2 m c) (Proc.devRef .tc main_v14) = _
  after_results_simp
  exact U2_v14 m c
/-! ## After the third hidden layer -/
set_option maxHeartbeats 4000000 in
theorem U4_v99 : U4 m c (Proc.devRef .tc main_v99) = val_main_v99 (F := F) (X0 m c) (X1 m c) (X2 m c) (X3 m c) (X4 m c) (X5 m c) (X6 m c) := by
  show after ops3 (U3 m c) (Proc.devRef .tc main_v99) = _
  generalize hX : (val_main_v99 (F := F) (X0 m c) (X1 m c) (X2 m c) (X3 m c) (X4 m c) (X5 m c) (X6 m c)) = X
  after_results_simp
  rw [U3_v1 m c, U3_v3 m c, U3_v10 m c, U3_v14 m c, U3_v71 m c, U3_arg4 m c, U3_arg5 m c, U3_arg6 m c]
  exact hX
set_option maxHeartbeats 4000000 in
theorem U4_v1 : U4 m c (Proc.devRef .tc main_v1) = val_main_v1 (F := F) (X1 m c) := by
  show after ops3 (U3 m c) (Proc.devRef .tc main_v1) = _
  after_results_simp
  exact U3_v1 m c
set_option maxHeartbeats 4000000 in
theorem U4_v3 : U4 m c (Proc.devRef .tc main_v3) = val_main_v3 (F := F) (X1 m c) := by
  show after ops3 (U3 m c) (Proc.devRef .tc main_v3) = _
  after_results_simp
  exact U3_v3 m c
set_option maxHeartbeats 4000000 in
theorem U4_v10 : U4 m c (Proc.devRef .tc main_v10) = val_main_v10 (F := F) (X1 m c) := by
  show after ops3 (U3 m c) (Proc.devRef .tc main_v10) = _
  after_results_simp
  exact U3_v10 m c

end Cert.ReferenceIdeal.RunVal

end
-- ==== Proof.RefRunOut.lean ====
/-
  The last stretch of the reference — the output layer, then the row-wise log-softmax — and the reference's run.

  The stretch is cut once more, after the scores: the log-softmax reads the scores four times (under the maximum, under
  both subtractions' first operand, and under the sum of exponentials), so it is read from the scores BY NAME.
-/
import proofs.«108666_j83519934038393_2_alg».proof.Proof.RefRunVal

set_option maxRecDepth 16384

noncomputable section

namespace Cert.ReferenceIdeal.RunVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Operations 124–144 of @main: the output layer's scores. -/
abbrev ops4a : List (HloOp τ sig (Elt F)) :=
  [ nullary main_c_13 (constantI S_ 32 0#32),
    unary main_c_13 main_v100 (broadcastInDim S1600000 ![] bcast_S_S1600000 : (⟨S_, .i32⟩ : BufTy).Contents (Elt F) → (⟨S1600000, .i32⟩ : BufTy).Contents (Elt F)),
    binary main_v1 main_v100 main_v101 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v102 (broadcastInDim S1600000 ![] bcast_S_S1600000 : (⟨S_, .i32⟩ : BufTy).Contents (Elt F) → (⟨S1600000, .i32⟩ : BufTy).Contents (Elt F)),
    binary main_v1 main_v102 main_v103 (addi : (⟨S1600000, .i32⟩ : BufTy).Contents (Elt F) → (⟨S1600000, .i32⟩ : BufTy).Contents (Elt F) → (⟨S1600000, .i32⟩ : BufTy).Contents (Elt F)),
    ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v104 main_v105 (broadcastInDim S1600000x1 ![0] bcast_S1600000_S1600000x1_0 : (⟨S1600000, .i32⟩ : BufTy).Contents (Elt F) → (⟨S1600000x1, .i32⟩ : BufTy).Contents (Elt F)),
    binary main_v99 main_v105 main_v106 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_15 (constant S_ .f32 0x00000000#32),
    unary main_cst_15 main_v107 (broadcastInDim S100000x128 ![] bcast_S_S100000x128 : (⟨S_, .f32⟩ : BufTy).Contents (Elt F) → (⟨S100000x128, .f32⟩ : BufTy).Contents (Elt F)),
    unary main_v3 main_v108 (broadcastInDim S1600000x1 ![0] bcast_S1600000_S1600000x1_0 : (⟨S1600000, .i32⟩ : BufTy).Contents (Elt F) → (⟨S1600000x1, .i32⟩ : BufTy).Contents (Elt F)),
    ternary main_v107 main_v108 main_v106 main_v109 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v110 (broadcastInDim S100000x128 ![0, 1] bcast_S100000x1_S100000x128_0_1 : (⟨S100000x1, .f32⟩ : BufTy).Contents (Elt F) → (⟨S100000x128, .f32⟩ : BufTy).Contents (Elt F)),
    binary main_v109 main_v110 main_v111 (Host.divf : (⟨S100000x128, .f32⟩ : BufTy).Contents (Elt F) → (⟨S100000x128, .f32⟩ : BufTy).Contents (Elt F) → (⟨S100000x128, .f32⟩ : BufTy).Contents (Elt F)),
    binary main_v111 main_arg7 main_v112 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    unary main_arg8 main_v113 (broadcastInDim S1x47 ![1] bcast_S47_S1x47_1 : (⟨S47, .f32⟩ : BufTy).Contents (Elt F) → (⟨S1x47, .f32⟩ : BufTy).Contents (Elt F)),
    unary main_v113 main_v114 (broadcastInDim S100000x47 ![0, 1] bcast_S1x47_S100000x47_0_1 : (⟨S1x47, .f32⟩ : BufTy).Contents (Elt F) → (⟨S100000x47, .f32⟩ : BufTy).Contents (Elt F)),
    binary main_v112 main_v114 main_v115 (addf : (⟨S100000x47, .f32⟩ : BufTy).Contents (Elt F) → (⟨S100000x47, .f32⟩ : BufTy).Contents (Elt F) → (⟨S100000x47, .f32⟩ : BufTy).Contents (Elt F)),
    binary main_v99 main_arg9 main_v116 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    binary main_v115 main_v116 main_v117 (addf : (⟨S100000x47, .f32⟩ : BufTy).Contents (Elt F) → (⟨S100000x47, .f32⟩ : BufTy).Contents (Elt F) → (⟨S100000x47, .f32⟩ : BufTy).Contents (Elt F)) ]
/-- Operations 145–149 of @main: the largest score of every row. -/
abbrev ops4b1 : List (HloOp τ sig (Elt F)) :=
  [ TRef.nullary (TRef.of (T := ⟨S_, .f32⟩) main_call4_cst) (constant S_ .f32 0xFF800000#32),
    TRef.binary (TRef.of (T := ⟨S100000x47, .f32⟩) main_v117) (TRef.of (T := ⟨S_, .f32⟩) main_call4_cst) (TRef.of (T := ⟨S100000, .f32⟩) main_call4_v0) (fun x v => Host.reduce FloatOps.maximumf x v reducesTo_S100000x47_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf ]
/-- Operations 150–152 of @main: the scores minus their row's largest. -/
abbrev ops4b2 : List (HloOp τ sig (Elt F)) :=
  [ TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x47, .f32⟩) main_call4_v4) (broadcastInDim S100000x47 ![0, 1] bcast_S100000x1_S100000x47_0_1),
    TRef.binary (TRef.of (T := ⟨S100000x47, .f32⟩) main_v117) (TRef.of (T := ⟨S100000x47, .f32⟩) main_call4_v4) (TRef.of (T := ⟨S100000x47, .f32⟩) main_call4_v5) subf ]
/-- Operations 153–159 of @main: minus the logarithm of the row's sum of exponentials. -/
abbrev ops4b3 : List (HloOp τ sig (Elt F)) :=
  [ TRef.unary (TRef.of (T := ⟨S100000x47, .f32⟩) main_call4_v5) (TRef.of (T := ⟨S100000x47, .f32⟩) main_call4_v6) Host.exp,
    TRef.nullary (TRef.of (T := ⟨S_, .f32⟩) main_call4_cst_1) (constant S_ .f32 0x00000000#32),
    TRef.binary (TRef.of (T := ⟨S100000x47, .f32⟩) main_call4_v6) (TRef.of (T := ⟨S_, .f32⟩) main_call4_cst_1) (TRef.of (T := ⟨S100000, .f32⟩) main_call4_v7) (fun x v => Host.reduceAdd x v reducesTo_S100000x47_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x47, .f32⟩) main_call4_v10) (broadcastInDim S100000x47 ![0, 1] bcast_S100000x1_S100000x47_0_1),
    TRef.binary (TRef.of (T := ⟨S100000x47, .f32⟩) main_call4_v5) (TRef.of (T := ⟨S100000x47, .f32⟩) main_call4_v10) (TRef.of (T := ⟨S100000x47, .f32⟩) main_v118) subf ]
theorem ops4_split : (ops4 : List (HloOp τ sig (Elt F))) = ops4a ++ (ops4b1 ++ (ops4b2 ++ ops4b3)) := rfl

/-- Contents carried to a buffer's own type and back are the contents. -/
theorem ofBuf_toBuf {Val : EltTy → Type} {T : BufTy} (x : TRef sig T) (v : T.Contents Val) : x.ofBuf (x.toBuf v) = v := by
  obtain ⟨r, h, h2, h3⟩ := x
  subst h
  rfl

variable (m : (ℓ : Loc nD τ sig) → Buf (Elt F) ℓ) (c : Dev nD)

/-- The buffers after the scores, after the row maxima, after the shift. -/
def U4a : Valuation τ sig (Elt F) := after ops4a (U4 m c)
def U4b : Valuation τ sig (Elt F) := after ops4b1 (U4a m c)
def U4c : Valuation τ sig (Elt F) := after ops4b2 (U4b m c)

theorem U5_eq : U5 m c = after ops4b3 (U4c m c) := by
  show after ops4 (U4 m c) = _
  rw [ops4_split, after_append, after_append, after_append]
  rfl

/-! ## After the scores -/
set_option maxHeartbeats 4000000 in
theorem U4a_v117 : U4a m c (Proc.devRef .tc main_v117) = val_main_v117 (F := F) (X0 m c) (X1 m c) (X2 m c) (X3 m c) (X4 m c) (X5 m c) (X6 m c) (X7 m c) (X8 m c) (X9 m c) := by
  show after ops4a (U4 m c) (Proc.devRef .tc main_v117) = _
  generalize hX : (val_main_v117 (F := F) (X0 m c) (X1 m c) (X2 m c) (X3 m c) (X4 m c) (X5 m c) (X6 m c) (X7 m c) (X8 m c) (X9 m c)) = X
  after_results_simp
  rw [U4_v1 m c, U4_v3 m c, U4_v10 m c, U4_v99 m c, U4_arg7 m c, U4_arg8 m c, U4_arg9 m c]
  exact hX

/-! ## After the row maxima -/
set_option maxHeartbeats 4000000 in
theorem U4b_v117 : U4b m c (Proc.devRef .tc main_v117) = val_main_v117 (F := F) (X0 m c) (X1 m c) (X2 m c) (X3 m c) (X4 m c) (X5 m c) (X6 m c) (X7 m c) (X8 m c) (X9 m c) := by
  show after ops4b1 (U4a m c) (Proc.devRef .tc main_v117) = _
  after_results_simp
  exact U4a_v117 m c
set_option maxHeartbeats 4000000 in
theorem U4b_rowmax : U4b m c (Proc.devRef .tc main_call4_v2) = val_main_call4_v2 (F := F) (X0 m c) (X1 m c) (X2 m c) (X3 m c) (X4 m c) (X5 m c) (X6 m c) (X7 m c) (X8 m c) (X9 m c) := by
  show after ops4b1 (U4a m c) (Proc.devRef .tc main_call4_v2) = _
  generalize hX : (val_main_call4_v2 (F := F) (X0 m c) (X1 m c) (X2 m c) (X3 m c) (X4 m c) (X5 m c) (X6 m c) (X7 m c) (X8 m c) (X9 m c)) = X
  after_results_simp
  rw [U4a_v117 m c]
  simp only [ofBuf_toBuf]
  exact hX

/-! ## After the shift -/
set_option maxHeartbeats 4000000 in
theorem U4c_shifted : U4c m c (Proc.devRef .tc main_call4_v5) = val_main_call4_v5 (F := F) (X0 m c) (X1 m c) (X2 m c) (X3 m c) (X4 m c) (X5 m c) (X6 m c) (X7 m c) (X8 m c) (X9 m c) := by
  show after ops4b2 (U4b m c) (Proc.devRef .tc main_call4_v5) = _
  generalize hX : (val_main_call4_v5 (F := F) (X0 m c) (X1 m c) (X2 m c) (X3 m c) (X4 m c) (X5 m c) (X6 m c) (X7 m c) (X8 m c) (X9 m c)) = X
  after_results_simp
  rw [U4b_v117 m c, U4b_rowmax m c]
  simp only [ofBuf_toBuf]
  exact hX

/-! ## After the log-softmax -/
set_option maxHeartbeats 4000000 in
theorem U5_v118 : U5 m c (Proc.devRef .tc main_v118) = val_main_v118 (F := F) (X0 m c) (X1 m c) (X2 m c) (X3 m c) (X4 m c) (X5 m c) (X6 m c) (X7 m c) (X8 m c) (X9 m c) := by
  rw [U5_eq]
  generalize hX : (val_main_v118 (F := F) (X0 m c) (X1 m c) (X2 m c) (X3 m c) (X4 m c) (X5 m c) (X6 m c) (X7 m c) (X8 m c) (X9 m c)) = X
  after_results_simp
  rw [U4c_shifted m c]
  simp only [ofBuf_toBuf]
  exact hX

/-! ## The run -/

/-- On every device, from any memory with zero counters: every weakly fair execution of the reference terminates with
    the result buffer at the last stage of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v118) = val_main_v118 (F := F) (X0 m c) (X1 m c) (X2 m c) (X3 m c) (X4 m c) (X5 m c) (X6 m c) (X7 m c) (X8 m c) (X9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v118).trans ((congrFun (after_ops m c) _).trans (U5_v118 m c)),
      (h c main_arg0).trans ((congrFun (after_ops m c) _).trans (U5_arg0 m c)),
      (h c main_arg1).trans ((congrFun (after_ops m c) _).trans (U5_arg1 m c)),
      (h c main_arg2).trans ((congrFun (after_ops m c) _).trans (U5_arg2 m c)),
      (h c main_arg3).trans ((congrFun (after_ops m c) _).trans (U5_arg3 m c)),
      (h c main_arg4).trans ((congrFun (after_ops m c) _).trans (U5_arg4 m c)),
      (h c main_arg5).trans ((congrFun (after_ops m c) _).trans (U5_arg5 m c)),
      (h c main_arg6).trans ((congrFun (after_ops m c) _).trans (U5_arg6 m c)),
      (h c main_arg7).trans ((congrFun (after_ops m c) _).trans (U5_arg7 m c)),
      (h c main_arg8).trans ((congrFun (after_ops m c) _).trans (U5_arg8 m c)),
      (h c main_arg9).trans ((congrFun (after_ops m c) _).trans (U5_arg9 m c))⟩)
    (run_seq scopedRefs_eq scopedSems_eq defs main (fun _ => ops) main_eq (fun _ => ops_sub) m ρ)

end Cert.ReferenceIdeal.RunVal

end
-- ==== Proof.RefLayers.lean ====
/-
  The reference network read layer by layer: each layer's array, as the generated reading of the reference gives it
  one operation at a time, is the corresponding stage function of the previous layer's arrays — an equality of
  whole arrays, entry by entry, at exact (extended real) values.

    the input projection     X·W + b, then the rectifier
    a hidden layer           max((S/d)·Wl + bl + h·Wr, 0) + 0.2·inp, the neighbour sum S kept as a term and divided
                             by the clamped in-degree d of its row before the product
    the output layer         (S/d)·Wl + bl + h·Wr, then the row-wise log-softmax
-/
import proofs.«108666_j83519934038393_2_alg».proof.Proof.RefRead
import proofs.«108666_j83519934038393_2_alg».proof.Proof.LibRowFold
import proofs.«108666_j83519934038393_2_alg».proof.Proof.Stages

noncomputable section

namespace Cert.ReferenceIdeal.Layers

open Idealize.ShloMosaic Idealize.ShloMosaic.ValueIdx

/-- An f32 array of shape `s` at exact values. -/
abbrev Arr (s : Shape) : Type := (⟨s, .f32⟩ : BufTy).Contents (Elt Ideal)
/-- An i32 array of shape `s`. -/
abbrev ArrI (s : Shape) : Type := (⟨s, .i32⟩ : BufTy).Contents (Elt Ideal)

/-! ## The input projection -/

/-- The first layer before its rectifier: the product of the features with the weights plus the bias along rows. -/
theorem v14_eq (x0 : Arr S100000x100) (x2 : Arr S100x128) (x3 : Arr S128) :
    Read.val_main_v14 (F := Ideal) x0 x2 x3 = Stages.inproj (N := 100000) x0 x2 x3 := by
  funext i
  obtain ⟨p, q, rfl⟩ : ∃ p q, i = ix2 p q := ⟨_, _, eq_ix2 i⟩
  have el : ∀ k : Fin 100, Read.lidx_main_v11 (ix2 p q) k = ix2 p k := fun k => by
    funext a; match a with | ⟨0, _⟩ => rfl | ⟨1, _⟩ => rfl
  have er : ∀ k : Fin 100, Read.ridx_main_v11 (ix2 p q) k = ix2 k q := fun k => by
    funext a; match a with | ⟨0, _⟩ => rfl | ⟨1, _⟩ => rfl
  have eb : Read.idx_main_v12 (Read.idx_main_v13 (ix2 p q)) = ix1 q := by
    funext a; match a with | ⟨0, _⟩ => rfl
  rw [Read.val_main_v14_apply, Read.val_main_v11_apply, Read.val_main_v13_apply, Read.val_main_v12_apply,
    Stages.inproj_apply, eb]
  simp only [el, er]
  rfl

/-- The first layer: the rectifier of the input projection. -/
theorem v15_eq (x0 : Arr S100000x100) (x2 : Arr S100x128) (x3 : Arr S128) :
    Read.val_main_v15 (F := Ideal) x0 x2 x3 = Stages.relu (N := 100000) (Read.val_main_v14 (F := Ideal) x0 x2 x3) := by
  funext i
  rw [Read.val_main_v15_apply, Read.val_main_call0_v0_apply, Read.val_main_call0_cst_apply, Stages.relu_apply]
  show max _ (Ideal.ofBits .f32 0x00000000#32) = _
  rw [Ideal.ofBits_zero_f32]

/-! ## The hidden layers -/

/-- The first hidden layer. -/
theorem v43_eq (x0 : Arr S100000x100) (x1 : ArrI S2x1600000) (x2 : Arr S100x128) (x3 : Arr S128)
    (x4 : Arr S3x128x128) (x5 : Arr S3x128) (x6 : Arr S3x128x128) :
    Read.val_main_v43 (F := Ideal) x0 x1 x2 x3 x4 x5 x6
      = Stages.hidR (N := 100000) (Read.val_main_v31 (F := Ideal) x0 x1 x2 x3) (Read.val_main_v9 (F := Ideal) x1)
          (Read.val_main_v15 (F := Ideal) x0 x2 x3) (Read.val_main_v17 (F := Ideal) x4) (Read.val_main_v19 (F := Ideal) x5)
          (Read.val_main_v21 (F := Ideal) x6) (Read.val_main_v14 (F := Ideal) x0 x2 x3) := by
  funext i
  obtain ⟨p, q, rfl⟩ : ∃ p q, i = ix2 p q := ⟨_, _, eq_ix2 i⟩
  have el : ∀ k : Fin 128, Read.lidx_main_v34 (ix2 p q) k = ix2 p k := fun k => by
    funext a; match a with | ⟨0, _⟩ => rfl | ⟨1, _⟩ => rfl
  have er : ∀ k : Fin 128, Read.ridx_main_v34 (ix2 p q) k = ix2 k q := fun k => by
    funext a; match a with | ⟨0, _⟩ => rfl | ⟨1, _⟩ => rfl
  have el' : ∀ k : Fin 128, Read.lidx_main_v38 (ix2 p q) k = ix2 p k := fun k => by
    funext a; match a with | ⟨0, _⟩ => rfl | ⟨1, _⟩ => rfl
  have er' : ∀ k : Fin 128, Read.ridx_main_v38 (ix2 p q) k = ix2 k q := fun k => by
    funext a; match a with | ⟨0, _⟩ => rfl | ⟨1, _⟩ => rfl
  have ed : ∀ k : Fin 128, Read.idx_main_v10 (Read.idx_main_v32 (ix2 p k)) = ix1 p := fun k => by
    funext a; match a with | ⟨0, _⟩ => rfl
  have eb : Read.idx_main_v35 (Read.idx_main_v36 (ix2 p q)) = ix1 q := by
    funext a; match a with | ⟨0, _⟩ => rfl
  have hL : (∑ k : Fin 128, (Read.val_main_v33 (F := Ideal) x0 x1 x2 x3) (Read.lidx_main_v34 (ix2 p q) k)
        * (Read.val_main_v17 (F := Ideal) x4) (Read.ridx_main_v34 (ix2 p q) k))
      = ∑ k : Fin 128, Ideal.div ((Read.val_main_v31 (F := Ideal) x0 x1 x2 x3) (ix2 p k)) ((Read.val_main_v9 (F := Ideal) x1) (ix1 p))
          * (Read.val_main_v17 (F := Ideal) x4) (ix2 k q) :=
    Finset.sum_congr rfl fun k _ => by
      rw [el k, er k, Read.val_main_v33_apply, Read.val_main_v32_apply, Read.val_main_v10_apply, ed k]
      rfl
  have hR : (∑ k : Fin 128, (Read.val_main_v15 (F := Ideal) x0 x2 x3) (Read.lidx_main_v38 (ix2 p q) k)
        * (Read.val_main_v21 (F := Ideal) x6) (Read.ridx_main_v38 (ix2 p q) k))
      = ∑ k : Fin 128, (Read.val_main_v15 (F := Ideal) x0 x2 x3) (ix2 p k) * (Read.val_main_v21 (F := Ideal) x6) (ix2 k q) :=
    Finset.sum_congr rfl fun k _ => by rw [el' k, er' k]
  rw [Read.val_main_v43_apply, Read.val_main_v40_apply, Read.val_main_v39_apply, Read.val_main_v37_apply,
    Read.val_main_v34_apply, Read.val_main_v36_apply, Read.val_main_v35_apply, eb, Read.val_main_v38_apply,
    Read.val_main_call1_v0_apply, Read.val_main_call1_cst_apply, Read.val_main_v42_apply, Read.val_main_v41_apply,
    Read.val_main_cst_4_apply, hL, hR, Stages.hidR_apply]
  show (max (_ : EReal) (Ideal.ofBits .f32 0x00000000#32) + _ : EReal) = _
  rw [Ideal.ofBits_zero_f32]
  rfl

/-- The second hidden layer. -/
theorem v71_eq (x0 : Arr S100000x100) (x1 : ArrI S2x1600000) (x2 : Arr S100x128) (x3 : Arr S128)
    (x4 : Arr S3x128x128) (x5 : Arr S3x128) (x6 : Arr S3x128x128) :
    Read.val_main_v71 (F := Ideal) x0 x1 x2 x3 x4 x5 x6
      = Stages.hidR (N := 100000) (Read.val_main_v59 (F := Ideal) x0 x1 x2 x3 x4 x5 x6) (Read.val_main_v9 (F := Ideal) x1)
          (Read.val_main_v43 (F := Ideal) x0 x1 x2 x3 x4 x5 x6) (Read.val_main_v45 (F := Ideal) x4) (Read.val_main_v47 (F := Ideal) x5)
          (Read.val_main_v49 (F := Ideal) x6) (Read.val_main_v14 (F := Ideal) x0 x2 x3) := by
  funext i
  obtain ⟨p, q, rfl⟩ : ∃ p q, i = ix2 p q := ⟨_, _, eq_ix2 i⟩
  have el : ∀ k : Fin 128, Read.lidx_main_v62 (ix2 p q) k = ix2 p k := fun k => by
    funext a; match a with | ⟨0, _⟩ => rfl | ⟨1, _⟩ => rfl
  have er : ∀ k : Fin 128, Read.ridx_main_v62 (ix2 p q) k = ix2 k q := fun k => by
    funext a; match a with | ⟨0, _⟩ => rfl | ⟨1, _⟩ => rfl
  have el' : ∀ k : Fin 128, Read.lidx_main_v66 (ix2 p q) k = ix2 p k := fun k => by
    funext a; match a with | ⟨0, _⟩ => rfl | ⟨1, _⟩ => rfl
  have er' : ∀ k : Fin 128, Read.ridx_main_v66 (ix2 p q) k = ix2 k q := fun k => by
    funext a; match a with | ⟨0, _⟩ => rfl | ⟨1, _⟩ => rfl
  have ed : ∀ k : Fin 128, Read.idx_main_v10 (Read.idx_main_v60 (ix2 p k)) = ix1 p := fun k => by
    funext a; match a with | ⟨0, _⟩ => rfl
  have eb : Read.idx_main_v63 (Read.idx_main_v64 (ix2 p q)) = ix1 q := by
    funext a; match a with | ⟨0, _⟩ => rfl
  have hL : (∑ k : Fin 128, (Read.val_main_v61 (F := Ideal) x0 x1 x2 x3 x4 x5 x6) (Read.lidx_main_v62 (ix2 p q) k)
        * (Read.val_main_v45 (F := Ideal) x4) (Read.ridx_main_v62 (ix2 p q) k))
      = ∑ k : Fin 128, Ideal.div ((Read.val_main_v59 (F := Ideal) x0 x1 x2 x3 x4 x5 x6) (ix2 p k)) ((Read.val_main_v9 (F := Ideal) x1) (ix1 p))
          * (Read.val_main_v45 (F := Ideal) x4) (ix2 k q) :=
    Finset.sum_congr rfl fun k _ => by
      rw [el k, er k, Read.val_main_v61_apply, Read.val_main_v60_apply, Read.val_main_v10_apply, ed k]
      rfl
  have hR : (∑ k : Fin 128, (Read.val_main_v43 (F := Ideal) x0 x1 x2 x3 x4 x5 x6) (Read.lidx_main_v66 (ix2 p q) k)
        * (Read.val_main_v49 (F := Ideal) x6) (Read.ridx_main_v66 (ix2 p q) k))
      = ∑ k : Fin 128, (Read.val_main_v43 (F := Ideal) x0 x1 x2 x3 x4 x5 x6) (ix2 p k) * (Read.val_main_v49 (F := Ideal) x6) (ix2 k q) :=
    Finset.sum_congr rfl fun k _ => by rw [el' k, er' k]
  rw [Read.val_main_v71_apply, Read.val_main_v68_apply, Read.val_main_v67_apply, Read.val_main_v65_apply,
    Read.val_main_v62_apply, Read.val_main_v64_apply, Read.val_main_v63_apply, eb, Read.val_main_v66_apply,
    Read.val_main_call2_v0_apply, Read.val_main_call2_cst_apply, Read.val_main_v70_apply, Read.val_main_v69_apply,
    Read.val_main_cst_8_apply, hL, hR, Stages.hidR_apply]
  show (max (_ : EReal) (Ideal.ofBits .f32 0x00000000#32) + _ : EReal) = _
  rw [Ideal.ofBits_zero_f32]
  rfl

/-- The third hidden layer. -/
theorem v99_eq (x0 : Arr S100000x100) (x1 : ArrI S2x1600000) (x2 : Arr S100x128) (x3 : Arr S128)
    (x4 : Arr S3x128x128) (x5 : Arr S3x128) (x6 : Arr S3x128x128) :
    Read.val_main_v99 (F := Ideal) x0 x1 x2 x3 x4 x5 x6
      = Stages.hidR (N := 100000) (Read.val_main_v87 (F := Ideal) x0 x1 x2 x3 x4 x5 x6) (Read.val_main_v9 (F := Ideal) x1)
          (Read.val_main_v71 (F := Ideal) x0 x1 x2 x3 x4 x5 x6) (Read.val_main_v73 (F := Ideal) x4) (Read.val_main_v75 (F := Ideal) x5)
          (Read.val_main_v77 (F := Ideal) x6) (Read.val_main_v14 (F := Ideal) x0 x2 x3) := by
  funext i
  obtain ⟨p, q, rfl⟩ : ∃ p q, i = ix2 p q := ⟨_, _, eq_ix2 i⟩
  have el : ∀ k : Fin 128, Read.lidx_main_v90 (ix2 p q) k = ix2 p k := fun k => by
    funext a; match a with | ⟨0, _⟩ => rfl | ⟨1, _⟩ => rfl
  have er : ∀ k : Fin 128, Read.ridx_main_v90 (ix2 p q) k = ix2 k q := fun k => by
    funext a; match a with | ⟨0, _⟩ => rfl | ⟨1, _⟩ => rfl
  have el' : ∀ k : Fin 128, Read.lidx_main_v94 (ix2 p q) k = ix2 p k := fun k => by
    funext a; match a with | ⟨0, _⟩ => rfl | ⟨1, _⟩ => rfl
  have er' : ∀ k : Fin 128, Read.ridx_main_v94 (ix2 p q) k = ix2 k q := fun k => by
    funext a; match a with | ⟨0, _⟩ => rfl | ⟨1, _⟩ => rfl
  have ed : ∀ k : Fin 128, Read.idx_main_v10 (Read.idx_main_v88 (ix2 p k)) = ix1 p := fun k => by
    funext a; match a with | ⟨0, _⟩ => rfl
  have eb : Read.idx_main_v91 (Read.idx_main_v92 (ix2 p q)) = ix1 q := by
    funext a; match a with | ⟨0, _⟩ => rfl
  have hL : (∑ k : Fin 128, (Read.val_main_v89 (F := Ideal) x0 x1 x2 x3 x4 x5 x6) (Read.lidx_main_v90 (ix2 p q) k)
        * (Read.val_main_v73 (F := Ideal) x4) (Read.ridx_main_v90 (ix2 p q) k))
      = ∑ k : Fin 128, Ideal.div ((Read.val_main_v87 (F := Ideal) x0 x1 x2 x3 x4 x5 x6) (ix2 p k)) ((Read.val_main_v9 (F := Ideal) x1) (ix1 p))
          * (Read.val_main_v73 (F := Ideal) x4) (ix2 k q) :=
    Finset.sum_congr rfl fun k _ => by
      rw [el k, er k, Read.val_main_v89_apply, Read.val_main_v88_apply, Read.val_main_v10_apply, ed k]
      rfl
  have hR : (∑ k : Fin 128, (Read.val_main_v71 (F := Ideal) x0 x1 x2 x3 x4 x5 x6) (Read.lidx_main_v94 (ix2 p q) k)
        * (Read.val_main_v77 (F := Ideal) x6) (Read.ridx_main_v94 (ix2 p q) k))
      = ∑ k : Fin 128, (Read.val_main_v71 (F := Ideal) x0 x1 x2 x3 x4 x5 x6) (ix2 p k) * (Read.val_main_v77 (F := Ideal) x6) (ix2 k q) :=
    Finset.sum_congr rfl fun k _ => by rw [el' k, er' k]
  rw [Read.val_main_v99_apply, Read.val_main_v96_apply, Read.val_main_v95_apply, Read.val_main_v93_apply,
    Read.val_main_v90_apply, Read.val_main_v92_apply, Read.val_main_v91_apply, eb, Read.val_main_v94_apply,
    Read.val_main_call3_v0_apply, Read.val_main_call3_cst_apply, Read.val_main_v98_apply, Read.val_main_v97_apply,
    Read.val_main_cst_12_apply, hL, hR, Stages.hidR_apply]
  show (max (_ : EReal) (Ideal.ofBits .f32 0x00000000#32) + _ : EReal) = _
  rw [Ideal.ofBits_zero_f32]
  rfl

/-! ## The output layer -/

/-- The output layer's scores. -/
theorem v117_eq (x0 : Arr S100000x100) (x1 : ArrI S2x1600000) (x2 : Arr S100x128) (x3 : Arr S128)
    (x4 : Arr S3x128x128) (x5 : Arr S3x128) (x6 : Arr S3x128x128) (x7 : Arr S128x47) (x8 : Arr S47) (x9 : Arr S128x47) :
    Read.val_main_v117 (F := Ideal) x0 x1 x2 x3 x4 x5 x6 x7 x8 x9
      = Stages.logitsR (N := 100000) (Read.val_main_v109 (F := Ideal) x0 x1 x2 x3 x4 x5 x6) (Read.val_main_v9 (F := Ideal) x1)
          (Read.val_main_v99 (F := Ideal) x0 x1 x2 x3 x4 x5 x6) x7 x8 x9 := by
  funext i
  obtain ⟨p, q, rfl⟩ : ∃ p q, i = ix2 p q := ⟨_, _, eq_ix2 i⟩
  have el : ∀ k : Fin 128, Read.lidx_main_v112 (ix2 p q) k = ix2 p k := fun k => by
    funext a; match a with | ⟨0, _⟩ => rfl | ⟨1, _⟩ => rfl
  have er : ∀ k : Fin 128, Read.ridx_main_v112 (ix2 p q) k = ix2 k q := fun k => by
    funext a; match a with | ⟨0, _⟩ => rfl | ⟨1, _⟩ => rfl
  have el' : ∀ k : Fin 128, Read.lidx_main_v116 (ix2 p q) k = ix2 p k := fun k => by
    funext a; match a with | ⟨0, _⟩ => rfl | ⟨1, _⟩ => rfl
  have er' : ∀ k : Fin 128, Read.ridx_main_v116 (ix2 p q) k = ix2 k q := fun k => by
    funext a; match a with | ⟨0, _⟩ => rfl | ⟨1, _⟩ => rfl
  have ed : ∀ k : Fin 128, Read.idx_main_v10 (Read.idx_main_v110 (ix2 p k)) = ix1 p := fun k => by
    funext a; match a with | ⟨0, _⟩ => rfl
  have eb : Read.idx_main_v113 (Read.idx_main_v114 (ix2 p q)) = ix1 q := by
    funext a; match a with | ⟨0, _⟩ => rfl
  have hL : (∑ k : Fin 128, (Read.val_main_v111 (F := Ideal) x0 x1 x2 x3 x4 x5 x6) (Read.lidx_main_v112 (ix2 p q) k)
        * x7 (Read.ridx_main_v112 (ix2 p q) k))
      = ∑ k : Fin 128, Ideal.div ((Read.val_main_v109 (F := Ideal) x0 x1 x2 x3 x4 x5 x6) (ix2 p k)) ((Read.val_main_v9 (F := Ideal) x1) (ix1 p))
          * x7 (ix2 k q) :=
    Finset.sum_congr rfl fun k _ => by
      rw [el k, er k, Read.val_main_v111_apply, Read.val_main_v110_apply, Read.val_main_v10_apply, ed k]
      rfl
  have hR : (∑ k : Fin 128, (Read.val_main_v99 (F := Ideal) x0 x1 x2 x3 x4 x5 x6) (Read.lidx_main_v116 (ix2 p q) k)
        * x9 (Read.ridx_main_v116 (ix2 p q) k))
      = ∑ k : Fin 128, (Read.val_main_v99 (F := Ideal) x0 x1 x2 x3 x4 x5 x6) (ix2 p k) * x9 (ix2 k q) :=
    Finset.sum_congr rfl fun k _ => by rw [el' k, er' k]
  rw [Read.val_main_v117_apply, Read.val_main_v115_apply, Read.val_main_v112_apply, Read.val_main_v114_apply,
    Read.val_main_v113_apply, eb, Read.val_main_v116_apply, hL, hR, Stages.logitsR_apply]
  rfl

/-- The f32 word of −∞ is the least extended real. -/
theorem ofBits_negInf : Ideal.ofBits .f32 0xFF800000#32 = (⊥ : EReal) := by simp [Ideal.ofBits, Ideal.ieee]

/-- The row maximum inside the log-softmax: the largest score of row `p`, the fold starting from −∞ (taking the
    maximum with −∞ once more changes nothing). -/
theorem rowMax_eq (x0 : Arr S100000x100) (x1 : ArrI S2x1600000) (x2 : Arr S100x128) (x3 : Arr S128)
    (x4 : Arr S3x128x128) (x5 : Arr S3x128) (x6 : Arr S3x128x128) (x7 : Arr S128x47) (x8 : Arr S47) (x9 : Arr S128x47) (p : Fin 100000) :
    (Read.val_main_call4_v2 (F := Ideal) x0 x1 x2 x3 x4 x5 x6 x7 x8 x9) (ix1 p)
      = Stages.rowMax (N := 100000) (Read.val_main_v117 (F := Ideal) x0 x1 x2 x3 x4 x5 x6 x7 x8 x9) p := by
  have hred : S100000x47.Reduces [1] S100000 := by decide
  have h0 : (Read.val_main_call4_v0 (F := Ideal) x0 x1 x2 x3 x4 x5 x6 x7 x8 x9) (ix1 p)
      = (Finset.univ : Finset (Fin 47)).fold max ((Read.val_main_call4_cst (F := Ideal)) (Shape.Idx.first Gen.h_S_))
          (fun k => (Read.val_main_v117 (F := Ideal) x0 x1 x2 x3 x4 x5 x6 x7 x8 x9) (ix2 p k)) :=
    Cert.Lib.RowFold.hostReduce_maximumf_row (R := 100000) (C := 47) _ _ Gen.reducesTo_S100000x47_S100000_d1 hred
      Gen.h_S_ p
  rw [Read.val_main_call4_v2_apply, Read.val_main_call4_v1_apply, Read.val_main_call4_cst_0_apply, h0,
    Read.val_main_call4_cst_apply]
  show max (Ideal.ofBits .f32 0xFF800000#32) (Finset.fold max (Ideal.ofBits .f32 0xFF800000#32) _ _) = _
  rw [ofBits_negInf, max_eq_right bot_le]
  rfl

/-- The output: the row-wise log-softmax of the scores. -/
theorem v118_eq (x0 : Arr S100000x100) (x1 : ArrI S2x1600000) (x2 : Arr S100x128) (x3 : Arr S128)
    (x4 : Arr S3x128x128) (x5 : Arr S3x128) (x6 : Arr S3x128x128) (x7 : Arr S128x47) (x8 : Arr S47) (x9 : Arr S128x47) :
    Read.val_main_v118 (F := Ideal) x0 x1 x2 x3 x4 x5 x6 x7 x8 x9
      = Stages.lsm (N := 100000) (Read.val_main_v117 (F := Ideal) x0 x1 x2 x3 x4 x5 x6 x7 x8 x9) := by
  funext i
  obtain ⟨p, q, rfl⟩ : ∃ p q, i = ix2 p q := ⟨_, _, eq_ix2 i⟩
  have e4 : ∀ k : Fin 47, Read.idx_main_call4_v3 (Read.idx_main_call4_v4 (ix2 p k)) = ix1 p := fun k => by
    funext a; match a with | ⟨0, _⟩ => rfl
  have e10 : Read.idx_main_call4_v8 (Read.idx_main_call4_v10 (ix2 p q)) = ix1 p := by
    funext a; match a with | ⟨0, _⟩ => rfl
  have e7 : ∀ k : Fin 47, Read.idx_main_call4_v7 (ix1 p) k = ix2 p k := fun k => by
    funext a; match a with | ⟨0, _⟩ => rfl | ⟨1, _⟩ => rfl
  have hS : (∑ k : Fin 47, (Read.val_main_call4_v6 (F := Ideal) x0 x1 x2 x3 x4 x5 x6 x7 x8 x9) (Read.idx_main_call4_v7 (ix1 p) k))
      = ∑ k : Fin 47, Ideal.exp ((Read.val_main_v117 (F := Ideal) x0 x1 x2 x3 x4 x5 x6 x7 x8 x9) (ix2 p k)
          - Stages.rowMax (N := 100000) (Read.val_main_v117 (F := Ideal) x0 x1 x2 x3 x4 x5 x6 x7 x8 x9) p) :=
    Finset.sum_congr rfl fun k _ => by
      rw [e7 k, Read.val_main_call4_v6_apply, Read.val_main_call4_v5_apply, Read.val_main_call4_v4_apply,
        Read.val_main_call4_v3_apply, e4 k, rowMax_eq, Ideal.hostUnary_exp_def, Ideal.subf_def]
  rw [Read.val_main_v118_apply, Read.val_main_call4_v5_apply, Read.val_main_call4_v4_apply,
    Read.val_main_call4_v3_apply, e4 q, rowMax_eq, Read.val_main_call4_v10_apply, Read.val_main_call4_v9_apply,
    Read.val_main_call4_v8_apply, e10, Read.val_main_call4_v7_apply, hS, Read.val_main_call4_cst_1_apply,
    Stages.lsm_apply]
  simp only [Ideal.subf_def, Ideal.hostUnary_log_def, Ideal.addf_def, Ideal.ofBits_def, Ideal.ofBits_zero_f32, zero_add]

end Cert.ReferenceIdeal.Layers

end
-- ==== Proof.BridgeOps.lean ====
/-
  The two programs apply the same host operations to the edge list and around every neighbour sum.

  Both programs slice the edge list into its source and destination rows, wrap a negative source index by N, count the
  in-degrees by a scatter-add of ones and clamp them below by 1, gather the rows of an activation at the sources and
  scatter-add them at the destinations, and slice the stacked weights layer by layer: operation for operation the same
  terms. (The kernel program narrows an activation to half precision around the gather, which at exact values is the
  identity.) So the reference's stages of these kinds ARE the kernel program's named values, by unfolding.
-/
import proofs.«108666_j83519934038393_2_alg».proof.Proof.RefRead
import proofs.«108666_j83519934038393_2_alg».proof.Proof.KVal

set_option maxRecDepth 16384

noncomputable section

namespace Cert.Bridge

open Idealize.ShloMosaic
open Cert.KernelIdeal.KVal

abbrev Arr (s : Shape) : Type := (⟨s, .f32⟩ : BufTy).Contents (Elt Ideal)
abbrev ArrI (s : Shape) : Type := (⟨s, .i32⟩ : BufTy).Contents (Elt Ideal)

variable (x0 : Arr Cert.ReferenceIdeal.S100000x100) (x1 : ArrI Cert.ReferenceIdeal.S2x1600000) (x2 : Arr Cert.ReferenceIdeal.S100x128)
  (x3 : Arr Cert.ReferenceIdeal.S128) (x4 : Arr Cert.ReferenceIdeal.S3x128x128) (x5 : Arr Cert.ReferenceIdeal.S3x128)
  (x6 : Arr Cert.ReferenceIdeal.S3x128x128)

/-- The clamped in-degrees. -/
theorem degc_eq : Cert.ReferenceIdeal.Read.val_main_v9 (F := Ideal) x1 = degc x1 := rfl

/-- Layer by layer, the slices of the stacked weights and biases. -/
theorem wl0_eq : Cert.ReferenceIdeal.Read.val_main_v17 (F := Ideal) x4 = wsl0 x4 := rfl
theorem bl0_eq : Cert.ReferenceIdeal.Read.val_main_v19 (F := Ideal) x5 = bsl0 x5 := rfl
theorem wr0_eq : Cert.ReferenceIdeal.Read.val_main_v21 (F := Ideal) x6 = wsl0 x6 := rfl
theorem wl1_eq : Cert.ReferenceIdeal.Read.val_main_v45 (F := Ideal) x4 = wsl1 x4 := rfl
theorem bl1_eq : Cert.ReferenceIdeal.Read.val_main_v47 (F := Ideal) x5 = bsl1 x5 := rfl
theorem wr1_eq : Cert.ReferenceIdeal.Read.val_main_v49 (F := Ideal) x6 = wsl1 x6 := rfl
theorem wl2_eq : Cert.ReferenceIdeal.Read.val_main_v73 (F := Ideal) x4 = wsl2 x4 := rfl
theorem bl2_eq : Cert.ReferenceIdeal.Read.val_main_v75 (F := Ideal) x5 = bsl2 x5 := rfl
theorem wr2_eq : Cert.ReferenceIdeal.Read.val_main_v77 (F := Ideal) x6 = wsl2 x6 := rfl

/-- The four neighbour sums, each of the reference's previous activation. -/
theorem agg1_eq : Cert.ReferenceIdeal.Read.val_main_v31 (F := Ideal) x0 x1 x2 x3 = aggF x1 (Cert.ReferenceIdeal.Read.val_main_v15 (F := Ideal) x0 x2 x3) := rfl
theorem agg2_eq : Cert.ReferenceIdeal.Read.val_main_v59 (F := Ideal) x0 x1 x2 x3 x4 x5 x6 = aggF x1 (Cert.ReferenceIdeal.Read.val_main_v43 (F := Ideal) x0 x1 x2 x3 x4 x5 x6) := rfl
theorem agg3_eq : Cert.ReferenceIdeal.Read.val_main_v87 (F := Ideal) x0 x1 x2 x3 x4 x5 x6 = aggF x1 (Cert.ReferenceIdeal.Read.val_main_v71 (F := Ideal) x0 x1 x2 x3 x4 x5 x6) := rfl
theorem agg4_eq : Cert.ReferenceIdeal.Read.val_main_v109 (F := Ideal) x0 x1 x2 x3 x4 x5 x6 = aggF x1 (Cert.ReferenceIdeal.Read.val_main_v99 (F := Ideal) x0 x1 x2 x3 x4 x5 x6) := rfl

end Cert.Bridge

end
-- ==== Proof.LibScatterRows2.lean ====
/-
  A scatter-add of whole rows of a matrix along the leading axis, read at an element.

  The operand is an [M, C] array, the updates are T rows [T, C], and the start indices are a column [T, 1] of
  integers: row t of the updates is added into row idx[t, 0] of the operand (update window axis [1], inserted window
  axis [0], the one index component naming operand axis 0, index vector axis 1). The start index is read SIGNED and is
  not clamped: a row whose start index is negative or at least M is dropped. Read at element (m, c) the result is the
  operand's element plus the sum, over the rows t whose start index is m, of the update's element (t, c).
-/
import Idealize.ShloMosaic.PureOps.Ideal
import Idealize.ShloMosaic.Lib.ValueIdx

noncomputable section

namespace Cert.Lib.ScatterRows2

open Idealize.ShloMosaic Idealize.ShloMosaic.ValueIdx

/-- The dimension numbers of a scatter of whole rows `[T, C]` into `[M, C]` along axis 0 at a column `[T, 1]` of
    start indices; their conditions `wf` are decided on a program's literal shapes. -/
abbrev rowsDims (M T C : Nat)
    (wf : ScatterDims.WF ⟨2, ![M, C]⟩ ⟨2, ![T, 1]⟩ ⟨2, ![T, C]⟩ [1] [0] [0] 1) :
    ScatterDims ⟨2, ![M, C]⟩ ⟨2, ![T, 1]⟩ ⟨2, ![T, C]⟩ where
  updateWindowDims := [1]
  insertedWindowDims := [0]
  scatterDimsToOperandDims := [0]
  indexVectorDim := 1
  wf := wf

variable {M T C : Nat} (wf : ScatterDims.WF ⟨2, ![M, C]⟩ ⟨2, ![T, 1]⟩ ⟨2, ![T, C]⟩ [1] [0] [0] 1) {w : Nat}

/-- On the scattered axis the window of update row `t` starts at the start index `idx[t, 0]`, read signed. -/
theorem start_zero (t : Fin T) (c : Fin C) (idx : IVec ⟨2, ![T, 1]⟩ w) :
    (rowsDims M T C wf).start (ix2 t c) idx 0 = (idx (ix2 t 0)).toInt := by
  unfold ScatterDims.start
  rw [dif_pos (show (0 : Fin 2) ∈ (rowsDims M T C wf).scatterDimsToOperandDims from List.mem_singleton.mpr rfl)]
  have hsi : (rowsDims M T C wf).siIdx (ix2 t c) ⟨List.idxOf (0 : Fin 2) (rowsDims M T C wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- On the window axis the window starts at `0`. -/
theorem start_one (t : Fin T) (c : Fin C) (idx : IVec ⟨2, ![T, 1]⟩ w) :
    (rowsDims M T C wf).start (ix2 t c) idx 1 = 0 := by
  unfold ScatterDims.start
  rw [dif_neg (show ¬ (1 : Fin 2) ∈ ([0] : List (Fin 2)) from by decide)]

/-- The scattered axis is an inserted one: the window coordinate there is `0`. -/
theorem window_zero (t : Fin T) (c : Fin C) :
    (rowsDims M T C wf).window (ix2 t c) 0 = 0 := by
  unfold ScatterDims.window
  have h : ¬ (0 : Fin 2) ∈ (rowsDims M T C wf).sKept := (show ¬ (0 : Fin 2) ∈ ([1] : List (Fin 2)) from by decide)
  rw [dif_neg h]

/-- The window coordinate on operand axis 1 is the update's coordinate on its axis 1. -/
theorem window_one (t : Fin T) (c : Fin C) :
    (rowsDims M T C wf).window (ix2 t c) 1 = c.val := by
  unfold ScatterDims.window
  have h : (1 : Fin 2) ∈ (rowsDims M T C wf).sKept := (show (1 : Fin 2) ∈ ([1] : List (Fin 2)) from by decide)
  rw [dif_pos h]
  rfl

/-- Where an update row lands: update element `(t, c')` lands on operand element `(m, c)` exactly when the
    start index of row `t`, read signed, is `m`, and the window coordinates agree. -/
theorem resultIdx?_eq_some_iff (t : Fin T) (c' c : Fin C) (m : Fin M) (idx : IVec ⟨2, ![T, 1]⟩ w) :
    (rowsDims M T C wf).resultIdx? (ix2 t c') idx = some (ix2 m c) ↔
      (idx (ix2 t 0)).toInt = (m.val : Int) ∧ c' = c := by
  unfold ScatterDims.resultIdx?
  constructor
  · intro h
    split at h
    · rename_i hh
      have e := Option.some.inj h
      have e0 : ((rowsDims M T C wf).start (ix2 t c') idx 0 + (rowsDims M T C wf).window (ix2 t c') 0).toNat = m.val :=
        congrArg (fun i : (⟨2, ![M, C]⟩ : Shape).Idx => (i 0).val) e
      have e1 : ((rowsDims M T C wf).start (ix2 t c') idx 1 + (rowsDims M T C wf).window (ix2 t c') 1).toNat = c.val :=
        congrArg (fun i : (⟨2, ![M, C]⟩ : Shape).Idx => (i 1).val) e
      have h0 := (hh 0).1
      rw [start_zero, window_zero] at e0 h0
      rw [start_one, window_one] at e1
      refine ⟨?_, Fin.ext ?_⟩
      · omega
      · omega
    · cases h
  · rintro ⟨h0, rfl⟩
    have hh : ∀ a, 0 ≤ (rowsDims M T C wf).start (ix2 t c') idx a + (rowsDims M T C wf).window (ix2 t c') a ∧
        (rowsDims M T C wf).start (ix2 t c') idx a + (rowsDims M T C wf).window (ix2 t c') a <
          ((⟨2, ![M, C]⟩ : Shape).size a : Int) := by
      intro a
      match a with
      | ⟨0, _⟩ =>
        have := m.isLt
        show 0 ≤ (rowsDims M T C wf).start (ix2 t c') idx 0 + (rowsDims M T C wf).window (ix2 t c') 0 ∧
          (rowsDims M T C wf).start (ix2 t c') idx 0 + (rowsDims M T C wf).window (ix2 t c') 0 < (M : Int)
        rw [start_zero, window_zero, h0]; omega
      | ⟨1, _⟩ =>
        have := c'.isLt
        show 0 ≤ (rowsDims M T C wf).start (ix2 t c') idx 1 + (rowsDims M T C wf).window (ix2 t c') 1 ∧
          (rowsDims M T C wf).start (ix2 t c') idx 1 + (rowsDims M T C wf).window (ix2 t c') 1 < (C : Int)
        rw [start_one, window_one]; omega
    rw [dif_pos hh]
    refine congrArg some (funext fun a => Fin.ext ?_)
    match a with
    | ⟨0, _⟩ =>
      show ((rowsDims M T C wf).start (ix2 t c') idx 0 + (rowsDims M T C wf).window (ix2 t c') 0).toNat = m.val
      rw [start_zero, window_zero, h0]; omega
    | ⟨1, _⟩ =>
      show ((rowsDims M T C wf).start (ix2 t c') idx 1 + (rowsDims M T C wf).window (ix2 t c') 1).toNat = c'.val
      rw [start_one, window_one]; omega

/-- A scatter-add of whole rows read at an element: the operand's element plus the sum, over the rows whose start index
    (read signed) is `m`, of the row's element in the same column. -/
theorem scatterAdd_rows_apply {φ : FTy} (x : FVec Ideal ⟨2, ![M, C]⟩ φ) (idx : IVec ⟨2, ![T, 1]⟩ w)
    (upd : FVec Ideal ⟨2, ![T, C]⟩ φ) (m : Fin M) (c : Fin C) :
    Host.scatterAdd (F := Ideal) (rowsDims M T C wf) x idx upd (ix2 m c) =
      x (ix2 m c) + ∑ t : Fin T, if (idx (ix2 t 0)).toInt = (m.val : Int) then upd (ix2 t c) else 0 := by
  show Ideal.hostScatterAdd (rowsDims M T C wf) x idx upd (ix2 m c) = _
  unfold Ideal.hostScatterAdd
  refine congrArg (x (ix2 m c) + ·) ?_
  rw [← Finset.sum_filter]
  have key : ∀ j : (⟨2, ![T, C]⟩ : Shape).Idx,
      (rowsDims M T C wf).resultIdx? j idx = some (ix2 m c) ↔
        (idx (ix2 (j 0) 0)).toInt = (m.val : Int) ∧ j 1 = c := by
    intro j
    have e : (rowsDims M T C wf).resultIdx? j idx = (rowsDims M T C wf).resultIdx? (ix2 (j 0) (j 1)) idx :=
      congrArg (fun q => (rowsDims M T C wf).resultIdx? q idx) (eq_ix2 j)
    rw [e]
    exact resultIdx?_eq_some_iff wf (j 0) (j 1) c m idx
  refine Finset.sum_bij' (fun j _ => j 0) (fun t _ => ix2 t c) ?_ ?_ ?_ ?_ ?_
  · intro j hj
    rw [Finset.mem_filter] at hj
    exact Finset.mem_filter.2 ⟨Finset.mem_univ _, ((key j).1 hj.2).1⟩
  · intro t ht
    rw [Finset.mem_filter] at ht
    exact Finset.mem_filter.2 ⟨Finset.mem_univ _, (key (ix2 t c)).2 ⟨ht.2, rfl⟩⟩
  · intro j hj
    rw [Finset.mem_filter] at hj
    obtain ⟨-, hc⟩ := (key j).1 hj.2
    show ix2 (j 0) c = j
    rw [← hc]
    exact (eq_ix2 j).symm
  · intro t _
    rfl
  · intro j hj
    rw [Finset.mem_filter] at hj
    obtain ⟨-, hc⟩ := (key j).1 hj.2
    show upd j = upd (ix2 (j 0) c)
    rw [← hc]
    exact congrArg upd (eq_ix2 j)

end Cert.Lib.ScatterRows2

end
-- ==== Proof.LibScatterVec.lean ====
/-
  A scatter-add of single elements into a vector, read at an element.

  The operand is a vector [M], the updates are a vector [T], and the start indices are a column [T, 1] of integers:
  element t of the updates is added into element idx[t, 0] of the operand (no update window axis, inserted window
  axis [0], the one index component naming operand axis 0, index vector axis 1). The start index is read SIGNED and is
  not clamped: an update whose start index is negative or at least M is dropped. Read at element m the result is the
  operand's element plus the sum, over the positions t whose start index is m, of the update's element t. The sum is
  the exact one of the extended reals, an additive commutative monoid: nothing is asked of finiteness or cancellation.
-/
import Idealize.ShloMosaic.PureOps.Ideal
import Idealize.ShloMosaic.Lib.ValueIdx

noncomputable section

namespace Cert.Lib.ScatterVec

open Idealize.ShloMosaic Idealize.ShloMosaic.ValueIdx

/-- The dimension numbers of a scatter of single elements `[T]` into a vector `[M]` at a column `[T, 1]` of
    start indices; their conditions `wf` are decided on a program's literal shapes. -/
abbrev vecDims (M T : Nat)
    (wf : ScatterDims.WF ⟨1, ![M]⟩ ⟨2, ![T, 1]⟩ ⟨1, ![T]⟩ [] [0] [0] 1) :
    ScatterDims ⟨1, ![M]⟩ ⟨2, ![T, 1]⟩ ⟨1, ![T]⟩ where
  updateWindowDims := []
  insertedWindowDims := [0]
  scatterDimsToOperandDims := [0]
  indexVectorDim := 1
  wf := wf

variable {M T : Nat} (wf : ScatterDims.WF ⟨1, ![M]⟩ ⟨2, ![T, 1]⟩ ⟨1, ![T]⟩ [] [0] [0] 1) {w : Nat}

/-- On the operand's one axis the window of update element `t` starts at the start index `idx[t, 0]`, read signed. -/
theorem start_zero (t : Fin T) (idx : IVec ⟨2, ![T, 1]⟩ w) :
    (vecDims M T wf).start (ix1 t) idx 0 = (idx (ix2 t 0)).toInt := by
  unfold ScatterDims.start
  rw [dif_pos (show (0 : Fin 1) ∈ (vecDims M T wf).scatterDimsToOperandDims from List.mem_singleton.mpr rfl)]
  have hsi : (vecDims M T wf).siIdx (ix1 t) ⟨List.idxOf (0 : Fin 1) (vecDims M T wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- The operand's one axis is an inserted one: the window coordinate there is `0`. -/
theorem window_zero (t : Fin T) :
    (vecDims M T wf).window (ix1 t) 0 = 0 := by
  unfold ScatterDims.window
  have h : ¬ (0 : Fin 1) ∈ (vecDims M T wf).sKept := (show ¬ (0 : Fin 1) ∈ ([] : List (Fin 1)) from by decide)
  rw [dif_neg h]

/-- Where an update element lands: update element `t` lands on operand element `m` exactly when the start index
    of `t`, read signed, is `m`. -/
theorem resultIdx?_eq_some_iff (t : Fin T) (m : Fin M) (idx : IVec ⟨2, ![T, 1]⟩ w) :
    (vecDims M T wf).resultIdx? (ix1 t) idx = some (ix1 m) ↔ (idx (ix2 t 0)).toInt = (m.val : Int) := by
  unfold ScatterDims.resultIdx?
  constructor
  · intro h
    split at h
    · rename_i hh
      have e := Option.some.inj h
      have e0 : ((vecDims M T wf).start (ix1 t) idx 0 + (vecDims M T wf).window (ix1 t) 0).toNat = m.val :=
        congrArg (fun i : (⟨1, ![M]⟩ : Shape).Idx => (i 0).val) e
      have h0 := (hh 0).1
      rw [start_zero, window_zero] at e0 h0
      omega
    · cases h
  · intro h0
    have hh : ∀ a, 0 ≤ (vecDims M T wf).start (ix1 t) idx a + (vecDims M T wf).window (ix1 t) a ∧
        (vecDims M T wf).start (ix1 t) idx a + (vecDims M T wf).window (ix1 t) a <
          ((⟨1, ![M]⟩ : Shape).size a : Int) := by
      intro a
      match a with
      | ⟨0, _⟩ =>
        have := m.isLt
        show 0 ≤ (vecDims M T wf).start (ix1 t) idx 0 + (vecDims M T wf).window (ix1 t) 0 ∧
          (vecDims M T wf).start (ix1 t) idx 0 + (vecDims M T wf).window (ix1 t) 0 < (M : Int)
        rw [start_zero, window_zero, h0]; omega
    rw [dif_pos hh]
    refine congrArg some (funext fun a => Fin.ext ?_)
    match a with
    | ⟨0, _⟩ =>
      show ((vecDims M T wf).start (ix1 t) idx 0 + (vecDims M T wf).window (ix1 t) 0).toNat = m.val
      rw [start_zero, window_zero, h0]; omega

/-- A scatter-add of single elements into a vector read at an element: the operand's element plus the sum, over the
    update positions whose start index (read signed) is `m`, of the update's element. -/
theorem scatterAdd_vec_apply {φ : FTy} (x : FVec Ideal ⟨1, ![M]⟩ φ) (idx : IVec ⟨2, ![T, 1]⟩ w)
    (upd : FVec Ideal ⟨1, ![T]⟩ φ) (m : Fin M) :
    Host.scatterAdd (F := Ideal) (vecDims M T wf) x idx upd (ix1 m) =
      x (ix1 m) + ∑ t : Fin T, if (idx (ix2 t 0)).toInt = (m.val : Int) then upd (ix1 t) else 0 := by
  show Ideal.hostScatterAdd (vecDims M T wf) x idx upd (ix1 m) = _
  unfold Ideal.hostScatterAdd
  refine congrArg (x (ix1 m) + ·) ?_
  rw [← Finset.sum_filter]
  have key : ∀ j : (⟨1, ![T]⟩ : Shape).Idx,
      (vecDims M T wf).resultIdx? j idx = some (ix1 m) ↔ (idx (ix2 (j 0) 0)).toInt = (m.val : Int) := by
    intro j
    have e : (vecDims M T wf).resultIdx? j idx = (vecDims M T wf).resultIdx? (ix1 (j 0)) idx :=
      congrArg (fun q => (vecDims M T wf).resultIdx? q idx) (eq_ix1 j)
    rw [e]
    exact resultIdx?_eq_some_iff wf (j 0) m idx
  refine Finset.sum_bij' (fun j _ => j 0) (fun t _ => ix1 t) ?_ ?_ ?_ ?_ ?_
  · intro j hj
    rw [Finset.mem_filter] at hj
    exact Finset.mem_filter.2 ⟨Finset.mem_univ _, (key j).1 hj.2⟩
  · intro t ht
    rw [Finset.mem_filter] at ht
    exact Finset.mem_filter.2 ⟨Finset.mem_univ _, (key (ix1 t)).2 ht.2⟩
  · intro j _
    exact (eq_ix1 j).symm
  · intro t _
    rfl
  · intro j _
    exact congrArg upd (eq_ix1 j)

end Cert.Lib.ScatterVec

end
-- ==== Proof.LibGatherRows.lean ====
/-
  A gather of whole rows, and of single entries, at a column of start indices.

  Indexing a table x of N rows and C columns at an integer vector idx of length P (x[idx]) lowers to a gather whose
  start indices form a P-by-1 column: result entry (p, c) is x at (r, c), where the row r is the start index idx[p, 0]
  read as a signed integer and clamped into [0, N - 1]. Indexing a vector v of length N the same way gives, at p, the
  entry v[r] at the same clamped row r. Both reads are stated through one name for the clamped row, so that two
  gathers at one index column are seen to read the same row.
-/
import Idealize.ShloMosaic.Lib.ValueIdx

namespace Cert.LibGatherRows

open Idealize.ShloMosaic Idealize.ShloMosaic.ValueIdx

variable {α : Type}

/-- The row a start index names: the integer idx[p, 0] read signed and clamped into [0, N - 1]. -/
def clampRow {N P w : Nat} (hN : 0 < N) (idx : IVec ⟨2, ![P, 1]⟩ w) (p : Fin P) : Fin N :=
  ⟨min (idx (ix2 p (0 : Fin 1))).toInt.toNat (N - 1), by omega⟩

/-- The dimension numbers of x[idx] for a table x : [N, C] and a column of start indices [P, 1]: the row axis is
    collapsed and indexed, the column axis is carried whole. -/
abbrev rowsDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The dimension numbers of v[idx] for a vector v : [N] and a column of start indices [P, 1]. -/
abbrev entriesDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The gather of rows read at (p, c): the table at (the clamped row of idx[p, 0], c). -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (c : Fin C) :
    Host.gather (rowsDims N C P wf) x idx (ix2 p c) = x (ix2 (clampRow hN idx p) c) := by
  unfold Host.gather
  congr 1
  funext a
  refine Fin.ext ?_
  match a with
  | ⟨0, _⟩ =>
    show (rowsDims N C P wf).start (ix2 p c) idx 0 + (rowsDims N C P wf).batchCoord (ix2 p c) 0
      + (rowsDims N C P wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C P wf).startIndexMap from List.mem_singleton.mpr rfl)]
    have hsi : (rowsDims N C P wf).siIdx (ix2 p c) ⟨List.idxOf (0 : Fin 2) (rowsDims N C P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N C P wf).start (ix2 p c) idx 1 + (rowsDims N C P wf).batchCoord (ix2 p c) 1
      + (rowsDims N C P wf).offCoord (ix2 p c) 1 = c.val
    rw [GatherDims.batchCoord_eq_zero _ _ _ List.not_mem_nil]
    have hs : (rowsDims N C P wf).start (ix2 p c) idx 1 = 0 := by
      unfold GatherDims.start
      rw [dif_neg (show (1 : Fin 2) ∉ ([0] : List (Fin 2)) by decide)]
    rw [hs]
    have hk : (1 : Fin 2) ∈ (rowsDims N C P wf).sKept :=
      (GatherDims.mem_sKept _ _).mpr ⟨(show (1 : Fin 2) ∉ ([0] : List (Fin 2)) by decide), List.not_mem_nil⟩
    unfold GatherDims.offCoord
    rw [dif_pos hk, Nat.zero_add]
    have hz : ∀ z : Fin (⟨2, ![P, C]⟩ : Shape).rank, z = 1 → (ix2 p c z).val = c.val := by
      intro z hz; subst hz; rfl
    exact hz _ (List.mem_singleton.mp (List.getElem_mem _))

/-- The gather of entries read at p: the vector at the clamped row of idx[p, 0]. -/
theorem gather_entries_apply {N P w : Nat} (hN : 0 < N)
    (wf : GatherDims.WF ⟨1, ![N]⟩ ⟨2, ![P, 1]⟩ ⟨1, ![P]⟩ [] [0] [] [0] [] 1 ![1])
    (v : (⟨1, ![N]⟩ : Shape).Idx → α) (idx : IVec ⟨2, ![P, 1]⟩ w) (p : Fin P) :
    Host.gather (entriesDims N P wf) v idx (ix1 p) = v (ix1 (clampRow hN idx p)) := by
  unfold Host.gather
  congr 1
  funext a
  obtain rfl : a = 0 := Subsingleton.elim _ _
  refine Fin.ext ?_
  show (entriesDims N P wf).start (ix1 p) idx 0 + (entriesDims N P wf).batchCoord (ix1 p) 0
    + (entriesDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N P wf).startIndexMap from List.mem_singleton.mpr rfl)]
  have hsi : (entriesDims N P wf).siIdx (ix1 p) ⟨List.idxOf (0 : Fin 1) (entriesDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.LibGatherRows
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibSoftmaxUnit.lean ====
/-
  Extended-real arithmetic for a row softmax that is averaged over the very axis it normalizes.

  At the exact extended reals a softmax row `e_k / Σ_j e_j` sums to one as soon as every `e_k` is a positive
  real, whatever the scores were; its mean over `n` entries is then `1/n`, a constant row; and the softmax of a
  constant row of `n` entries is `1/n` again. The lemmas below are the pieces of that argument, stated for the
  operations as they read at the exact instance: `Ideal.div`, `Ideal.exp`, `Ideal.sqrt`, `max`, finite sums with an
  initial value, and a maximum folded from `⊥`.
-/
import Idealize.ShloMosaic.PureOps.Ideal
import Idealize.ShloMosaic.PureOps.Ideal.Laws

noncomputable section

namespace Idealize.ShloMosaic.SoftmaxUnit

open Idealize.ShloMosaic

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsReal.coe (r : ℝ) : IsReal (r : EReal) := ⟨r, rfl⟩

theorem IsPos.isReal {x : EReal} (h : IsPos x) : IsReal x := by
  obtain ⟨r, -, rfl⟩ := h; exact ⟨r, rfl⟩

theorem IsReal.zero : IsReal 0 := ⟨0, by norm_cast⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type*} (s : Finset ι) (g : ι → EReal) (h : ∀ k, IsReal (g k)) : IsReal (∑ k ∈ s, g k) := by
  choose f hf using h
  exact ⟨∑ k ∈ s, f k, by rw [← coe_sum]; exact Finset.sum_congr rfl fun k _ => hf k⟩

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem IsReal.div_pos {x y : EReal} (hx : IsReal x) (hy : IsPos y) : IsReal (Ideal.div x y) := by
  obtain ⟨a, rfl⟩ := hx; obtain ⟨b, hb, rfl⟩ := hy
  exact ⟨a / b, div_coe_coe a b hb.ne'⟩

/-- A Euclidean norm floored at a positive real: `max (√s) e` is a positive real for every real `s` — below zero the
    root is the junk `⊥` and the floor is the value. -/
theorem IsPos.max_sqrt {s e : EReal} (hs : IsReal s) (he : IsPos e) : IsPos (max (Ideal.sqrt s) e) := by
  obtain ⟨r, rfl⟩ := hs; obtain ⟨q, hq, rfl⟩ := he
  rw [Ideal.sqrt_coe]
  split_ifs with h
  · exact ⟨q, hq, max_eq_right bot_le⟩
  · exact ⟨max (Real.sqrt r) q, lt_max_of_lt_right hq, EReal.coe_strictMono.monotone.map_max.symm⟩

/-- The exponential of a real number is a positive real. -/
theorem IsPos.exp {x : EReal} (hx : IsReal x) : IsPos (Ideal.exp x) := by
  obtain ⟨r, rfl⟩ := hx; exact ⟨Real.exp r, Real.exp_pos r, Ideal.exp_coe r⟩

/-- A maximum folded from `⊥` is the supremum. -/
theorem fold_max_bot {ι : Type*} (s : Finset ι) (g : ι → EReal) : s.fold max ⊥ g = s.sup g := rfl

/-- The maximum, folded from `⊥`, of a nonempty family of reals is a real. -/
theorem IsReal.fold_max {ι : Type*} (s : Finset ι) (hs : s.Nonempty) (g : ι → EReal) (h : ∀ k, IsReal (g k)) :
    IsReal (s.fold max ⊥ g) := by
  rw [fold_max_bot]
  obtain ⟨i, -, e⟩ := Finset.exists_mem_eq_sup s hs g
  rw [e]; exact h i

/-- The maximum, folded from `⊥`, of a nonempty constant family is the constant. -/
theorem fold_max_const {ι : Type*} (s : Finset ι) (hs : s.Nonempty) (c : EReal) : s.fold max ⊥ (fun _ => c) = c := by
  rw [fold_max_bot]; exact Finset.sup_const hs c

/-- A ROW OF A SOFTMAX SUMS TO ONE: positive reals `p k`, each divided by their sum, add up to `1` (both sums taken from
    the initial value `0`, as a host reduction states them). -/
theorem sum_div_total {ι : Type*} [Fintype ι] [Nonempty ι] (p : ι → EReal) (hp : ∀ k, IsPos (p k)) :
    (0 : EReal) + ∑ k, Ideal.div (p k) ((0 : EReal) + ∑ j, p j) = 1 := by
  choose f hf0 hf using hp
  have hS : 0 < ∑ j, f j := Finset.sum_pos (fun j _ => hf0 j) Finset.univ_nonempty
  have e1 : (0 : EReal) + ∑ j, p j = ((∑ j, f j : ℝ) : EReal) := by
    rw [zero_add, ← coe_sum]; exact Finset.sum_congr rfl fun k _ => hf k
  rw [e1, zero_add]
  have e2 : ∀ k, Ideal.div (p k) ((∑ j, f j : ℝ) : EReal) = ((f k / ∑ j, f j : ℝ) : EReal) := fun k => by
    rw [hf k]; exact div_coe_coe _ _ hS.ne'
  rw [Finset.sum_congr rfl fun k _ => e2 k, coe_sum, ← Finset.sum_div, div_self hS.ne']
  norm_cast

/-- THE SOFTMAX OF A CONSTANT ROW is uniform: with every score the real `c` and the row's maximum `c` too, each entry
    `exp (c - c)` divided by the sum of the `n` of them is `1/n`. -/
theorem softmax_const (n : ℕ) (hn : 0 < n) (c : ℝ) :
    Ideal.div (Ideal.exp ((c : EReal) - (c : EReal))) ((0 : EReal) + ∑ _k : Fin n, Ideal.exp ((c : EReal) - (c : EReal)))
      = ((1 / (n : ℝ) : ℝ) : EReal) := by
  have e : Ideal.exp ((c : EReal) - (c : EReal)) = ((1 : ℝ) : EReal) := by
    rw [← EReal.coe_sub, sub_self, Ideal.exp_coe, Real.exp_zero]
  rw [e, zero_add, coe_sum, Finset.sum_const, Finset.card_univ, Fintype.card_fin, nsmul_eq_mul, mul_one]
  exact div_coe_coe 1 (n : ℝ) (by positivity)

end Idealize.ShloMosaic.SoftmaxUnit

end
-- ==== Proof.AggIdx.lean ====
/-
  The neighbour sums and the in-degrees of the kernel program, read at one entry.

    aggF ei h (p, k)   = 0 + Σ_e [dst(e) = p] · h[row(src(e)), k]      the rows of h gathered at the sources (a source
                         index read signed and clamped into the table) and added at the destinations (a destination
                         read signed; an edge whose destination is outside the table is dropped)
    deg ei p           = 0 + Σ_e [dst(e) = p] · 1
    degc ei p          = max(deg ei p, 1), a positive real
    invd ei (p, 0)     = 1 / degc ei p
-/
import proofs.«108666_j83519934038393_2_alg».proof.Proof.KVal
import proofs.«108666_j83519934038393_2_alg».proof.Proof.LibScatterRows2
import proofs.«108666_j83519934038393_2_alg».proof.Proof.LibScatterVec
import proofs.«108666_j83519934038393_2_alg».proof.Proof.LibGatherRows
import proofs.«108666_j83519934038393_2_alg».proof.Proof.LibColumn
import proofs.«108666_j83519934038393_2_alg».proof.Proof.LibKeepdims
import proofs.«108666_j83519934038393_2_alg».proof.Proof.LibSoftmaxUnit
import Idealize.ShloMosaic.Lib.IdealHost

noncomputable section

namespace Cert.KernelIdeal.AggIdx

open Idealize.ShloMosaic Idealize.ShloMosaic.ValueIdx Idealize.ShloMosaic.SoftmaxUnit
open Cert.KernelIdeal Cert.KernelIdeal.Gen Cert.KernelIdeal.KVal

/-- The scalar zero broadcast over any array reads 0 everywhere. -/
theorem zeros_apply {T : Shape} (hb : (⟨0, ![]⟩ : Shape).BroadcastsInDim T ![]) (j : T.Idx) :
    broadcastInDim T ![] hb (constant (F := Ideal) (⟨0, ![]⟩ : Shape) .f32 0x00000000#32) j = 0 :=
  (broadcastInDim_scalar_apply hb _ j).trans Ideal.ofBits_zero_f32

/-- The scalar one broadcast over any array reads 1 everywhere. -/
theorem ones_apply {T : Shape} (hb : (⟨0, ![]⟩ : Shape).BroadcastsInDim T ![]) (j : T.Idx) :
    broadcastInDim T ![] hb (constant (F := Ideal) (⟨0, ![]⟩ : Shape) .f32 0x3F800000#32) j = 1 :=
  (broadcastInDim_scalar_apply hb _ j).trans Ideal.ofBits_one_f32

/-- The printed dimension numbers of the two row scatters, the element scatter and the two row gathers are the
    general ones of whole-row scatters and gathers at a column of start indices. -/
theorem scatter128_eq : scatter_S100000x128_S1600000x1_S1600000x128_1_0_0_1
    = Cert.Lib.ScatterRows2.rowsDims 100000 1600000 128 scatter_S100000x128_S1600000x1_S1600000x128_1_0_0_1_wf := rfl
theorem scatter47_eq : scatter_S100000x47_S1600000x1_S1600000x47_1_0_0_1
    = Cert.Lib.ScatterRows2.rowsDims 100000 1600000 47 scatter_S100000x47_S1600000x1_S1600000x47_1_0_0_1_wf := rfl
theorem scatterVec_eq : scatter_S100000_S1600000x1_S1600000_n_0_0_1
    = Cert.Lib.ScatterVec.vecDims 100000 1600000 scatter_S100000_S1600000x1_S1600000_n_0_0_1_wf := rfl
theorem gather128_eq : gather_S100000x128_S1600000x1_S1600000x128_1_0_n_n_0_1_1128
    = Cert.LibGatherRows.rowsDims 100000 128 1600000 gather_S100000x128_S1600000x1_S1600000x128_1_0_n_n_0_1_1128_wf := rfl
theorem gather47_eq : gather_S100000x47_S1600000x1_S1600000x47_1_0_n_n_0_1_147
    = Cert.LibGatherRows.rowsDims 100000 47 1600000 gather_S100000x47_S1600000x1_S1600000x47_1_0_n_n_0_1_147_wf := rfl

/-- The neighbour sum of a 128-wide array at (p, k). -/
theorem aggF_apply (ei : EdgeList) (h : (⟨S100000x128, .bf16⟩ : BufTy).Contents (Elt Ideal)) (p : Fin 100000)
    (k : Fin 128) :
    aggF ei h (ix2 p k) = 0 + ∑ e : Fin 1600000, if (dstI ei (ix2 e 0)).toInt = (p.val : Int)
      then h (ix2 (Cert.LibGatherRows.clampRow (N := 100000) (by decide) (srcI ei) e) k) else 0 := by
  unfold aggF
  rw [scatter128_eq, Cert.Lib.ScatterRows2.scatterAdd_rows_apply, zeros_apply]
  refine congrArg (0 + ·) (Finset.sum_congr rfl fun e _ => ?_)
  rw [extf_apply, gather128_eq, Cert.LibGatherRows.gather_rows_apply (N := 100000) (by decide)]

/-- The same sum as the regions read it (the narrowing changes nothing at exact values). -/
theorem agg_apply (ei : EdgeList) (h : (⟨S100000x128, .bf16⟩ : BufTy).Contents (Elt Ideal)) (p : Fin 100000)
    (k : Fin 128) :
    agg ei h (ix2 p k) = 0 + ∑ e : Fin 1600000, if (dstI ei (ix2 e 0)).toInt = (p.val : Int)
      then h (ix2 (Cert.LibGatherRows.clampRow (N := 100000) (by decide) (srcI ei) e) k) else 0 := by
  unfold agg
  rw [truncf_apply, aggF_apply]

/-- The neighbour sum of a 47-wide array at (p, k). -/
theorem agg47_apply (ei : EdgeList) (z : (⟨S100000x47, .bf16⟩ : BufTy).Contents (Elt Ideal)) (p : Fin 100000)
    (k : Fin 47) :
    agg47 ei z (ix2 p k) = 0 + ∑ e : Fin 1600000, if (dstI ei (ix2 e 0)).toInt = (p.val : Int)
      then z (ix2 (Cert.LibGatherRows.clampRow (N := 100000) (by decide) (srcI ei) e) k) else 0 := by
  unfold agg47
  rw [scatter47_eq, Cert.Lib.ScatterRows2.scatterAdd_rows_apply, zeros_apply]
  refine congrArg (0 + ·) (Finset.sum_congr rfl fun e _ => ?_)
  rw [extf_apply, gather47_eq, Cert.LibGatherRows.gather_rows_apply (N := 100000) (by decide)]

/-- The in-degree of node p: the number of edges whose destination is p. -/
theorem deg_apply (ei : EdgeList) (p : Fin 100000) :
    deg ei (ix1 p) = 0 + ∑ e : Fin 1600000, if (dstI ei (ix2 e 0)).toInt = (p.val : Int) then 1 else 0 := by
  unfold deg
  rw [scatterVec_eq, Cert.Lib.ScatterVec.scatterAdd_vec_apply, zeros_apply]
  refine congrArg (0 + ·) (Finset.sum_congr rfl fun e _ => ?_)
  rw [ones_apply]

/-- The clamped in-degree read at p. -/
theorem degc_apply (ei : EdgeList) (p : Fin 100000) : degc ei (ix1 p) = max (deg ei (ix1 p)) 1 := by
  unfold degc
  rw [maximumf_apply, ones_apply]

/-- The clamped in-degree is a positive real. -/
theorem degc_pos (ei : EdgeList) (p : Fin 100000) : ∃ r : ℝ, 0 < r ∧ degc ei (ix1 p) = (r : EReal) := by
  have hs : deg ei (ix1 p)
      = ((∑ e : Fin 1600000, (if (dstI ei (ix2 e 0)).toInt = (p.val : Int) then (1 : ℝ) else 0) : ℝ) : EReal) := by
    rw [deg_apply, zero_add, ← coe_sum]
    refine Finset.sum_congr rfl fun e _ => ?_
    split_ifs
    · exact EReal.coe_one.symm
    · exact EReal.coe_zero.symm
  refine ⟨max (∑ e : Fin 1600000, (if (dstI ei (ix2 e 0)).toInt = (p.val : Int) then (1 : ℝ) else 0)) 1,
    lt_max_of_lt_right one_pos, ?_⟩
  rw [degc_apply, hs, ← EReal.coe_one]
  exact (EReal.coe_strictMono.monotone.map_max).symm

/-- The reciprocal clamped in-degree, as the column the regions read. -/
theorem invd_apply (ei : EdgeList) (p : Fin 100000) :
    invd ei (ix2 p (0 : Fin 1)) = Ideal.div 1 (degc ei (ix1 p)) := by
  unfold invd
  rw [Cert.LibColumn.shapeCast_a_a1_apply, hostDivf_apply, ones_apply]

end Cert.KernelIdeal.AggIdx

end
-- ==== Proof.RealProp.lean ====
/-
  Real inputs give real activations: if every entry of the features, the weights and the biases is a real number
  (neither infinity), so is every entry of the input projection and of each hidden layer of the kernel program.
  Real numbers are closed under sums, products, finite sums and the maximum with 0; the skip factor 0.2 is a real;
  a neighbour sum is 0 plus a finite sum of entries and zeros; the reciprocal clamped in-degree is one over a positive
  real; an entry of a slice of the stacked weights is an entry of the stack.
-/
import proofs.«108666_j83519934038393_2_alg».proof.Proof.KNames
import proofs.«108666_j83519934038393_2_alg».proof.Proof.AggIdx
import proofs.«108666_j83519934038393_2_alg».proof.Proof.LibSoftmaxUnit

noncomputable section

namespace Cert.KernelIdeal.RealProp

open Idealize.ShloMosaic Idealize.ShloMosaic.ValueIdx Idealize.ShloMosaic.SoftmaxUnit
open Cert.KernelIdeal Cert.KernelIdeal.KVal Cert.KernelIdeal.AggIdx
open Cert.Dense (Mat Row rowOf colOf mm)

/-- The maximum of a real number with 0 is a real number. -/
theorem isReal_max_zero {x : EReal} (hx : IsReal x) : IsReal (max x 0) := by
  obtain ⟨a, rfl⟩ := hx
  exact ⟨max a 0, by rw [← EReal.coe_zero]; exact (EReal.coe_strictMono.monotone.map_max).symm⟩

/-- The skip factor, the f32 word of 0.2, is a real number. -/
theorem c02_real : IsReal Cert.Stages.c02 := by
  unfold Cert.Stages.c02
  show IsReal (Ideal.ieee 8 23 (0x3E4CCCCD#32 : BitVec 32))
  unfold Ideal.ieee
  dsimp only
  rw [if_neg (by decide), if_neg (by decide)]
  exact ⟨_, rfl⟩

variable {N : Nat}

/-- A matrix product of real matrices has real entries. -/
theorem mm_real {K C : Nat} (X : Mat N K) (W : Mat K C) (hX : ∀ i, IsReal (X i)) (hW : ∀ i, IsReal (W i)) :
    ∀ i, IsReal (mm X W i) := fun i =>
  IsReal.sum _ _ fun k => (hX _).mul (hW _)

/-- The input projection of real arrays has real entries. -/
theorem inproj_real (X : Mat N 100) (W : Mat 100 128) (b : Row 128) (hX : ∀ i, IsReal (X i))
    (hW : ∀ i, IsReal (W i)) (hb : ∀ i, IsReal (b i)) : ∀ i, IsReal (Cert.Stages.inproj X W b i) := fun i =>
  (mm_real X W hX hW i).add (hb _)

/-- The rectifier of a real array has real entries. -/
theorem relu_real {C : Nat} (A : Mat N C) (hA : ∀ i, IsReal (A i)) : ∀ i, IsReal (Cert.Stages.relu A i) := fun i =>
  isReal_max_zero (hA i)

/-- A hidden layer of real arrays has real entries. -/
theorem hidK_real (S : Mat N 128) (c : Mat N 1) (h : Mat N 128) (wl : Mat 128 128) (bl : Row 128) (wr : Mat 128 128)
    (inp : Mat N 128) (hS : ∀ i, IsReal (S i)) (hc : ∀ i, IsReal (c i)) (hh : ∀ i, IsReal (h i))
    (hwl : ∀ i, IsReal (wl i)) (hbl : ∀ i, IsReal (bl i)) (hwr : ∀ i, IsReal (wr i))
    (hinp : ∀ i, IsReal (inp i)) : ∀ i, IsReal (Cert.Stages.hidK S c h wl bl wr inp i) := fun i =>
  (isReal_max_zero ((((mm_real S wl hS hwl i).mul (hc _)).add (hbl _)).add (mm_real h wr hh hwr i))).add
    (c02_real.mul (hinp i))

/-- The neighbour sum of a real array has real entries. -/
theorem agg_real (ei : EdgeList) (h : (⟨S100000x128, .bf16⟩ : BufTy).Contents (Elt Ideal))
    (hh : ∀ i, IsReal (h i)) : ∀ i, IsReal (agg ei h i) := by
  intro i
  obtain ⟨p, k, rfl⟩ : ∃ p k, i = ix2 p k := ⟨_, _, eq_ix2 i⟩
  rw [agg_apply]
  refine IsReal.zero.add (IsReal.sum _ _ fun e => ?_)
  split_ifs
  · exact hh _
  · exact IsReal.zero

/-- The reciprocal clamped in-degrees are real numbers. -/
theorem invd_real (ei : EdgeList) : ∀ i, IsReal (invd ei i) := by
  intro i
  obtain ⟨p, u, rfl⟩ : ∃ p u, i = ix2 p u := ⟨_, _, eq_ix2 i⟩
  obtain rfl : u = 0 := Subsingleton.elim _ _
  obtain ⟨r, hr, e⟩ := degc_pos ei p
  rw [invd_apply, e, ← EReal.coe_one]
  exact ⟨1 / r, div_coe_coe 1 r hr.ne'⟩

/-- Every entry of a slice of the stacked weights or biases is an entry of the stack. -/
theorem wsl0_real (w : W3) (hw : ∀ j, IsReal (w j)) : ∀ i, IsReal (wsl0 w i) := fun _ => hw _
theorem wsl1_real (w : W3) (hw : ∀ j, IsReal (w j)) : ∀ i, IsReal (wsl1 w i) := fun _ => hw _
theorem wsl2_real (w : W3) (hw : ∀ j, IsReal (w j)) : ∀ i, IsReal (wsl2 w i) := fun _ => hw _
theorem bsl0_real (b : B3) (hb : ∀ j, IsReal (b j)) : ∀ i, IsReal (bsl0 b i) := fun _ => hb _
theorem bsl1_real (b : B3) (hb : ∀ j, IsReal (b j)) : ∀ i, IsReal (bsl1 b i) := fun _ => hb _
theorem bsl2_real (b : B3) (hb : ∀ j, IsReal (b j)) : ∀ i, IsReal (bsl2 b i) := fun _ => hb _

section layers

variable (x : Mat 100000 100) (ei : EdgeList) (w0 : Mat 100 128) (b0 : Row 128) (wl : W3) (bl : B3) (wr : W3)
  (hx : ∀ i, IsReal (x i)) (hw0 : ∀ i, IsReal (w0 i)) (hb0 : ∀ i, IsReal (b0 i)) (hwl : ∀ i, IsReal (wl i))
  (hbl : ∀ i, IsReal (bl i)) (hwr : ∀ i, IsReal (wr i))

include hx hw0 hb0 in
theorem inp_real : ∀ i, IsReal (KNames.inp x w0 b0 i) := by
  unfold KNames.inp
  exact inproj_real x w0 b0 hx hw0 hb0

include hx hw0 hb0 in
theorem h0_real : ∀ i, IsReal (KNames.h0 x w0 b0 i) := by
  unfold KNames.h0
  exact relu_real _ (inp_real x w0 b0 hx hw0 hb0)

include hx hw0 hb0 hwl hbl hwr in
theorem h1_real : ∀ i, IsReal (KNames.h1 x ei w0 b0 wl bl wr i) := by
  unfold KNames.h1
  exact hidK_real _ _ _ _ _ _ _ (agg_real ei _ (h0_real x w0 b0 hx hw0 hb0)) (invd_real ei)
    (h0_real x w0 b0 hx hw0 hb0) (wsl0_real wl hwl) (bsl0_real bl hbl) (wsl0_real wr hwr)
    (inp_real x w0 b0 hx hw0 hb0)

include hx hw0 hb0 hwl hbl hwr in
theorem h2_real : ∀ i, IsReal (KNames.h2 x ei w0 b0 wl bl wr i) := by
  unfold KNames.h2
  exact hidK_real _ _ _ _ _ _ _ (agg_real ei _ (h1_real x ei w0 b0 wl bl wr hx hw0 hb0 hwl hbl hwr)) (invd_real ei)
    (h1_real x ei w0 b0 wl bl wr hx hw0 hb0 hwl hbl hwr) (wsl1_real wl hwl) (bsl1_real bl hbl) (wsl1_real wr hwr)
    (inp_real x w0 b0 hx hw0 hb0)

include hx hw0 hb0 hwl hbl hwr in
theorem h3_real : ∀ i, IsReal (KNames.h3 x ei w0 b0 wl bl wr i) := by
  unfold KNames.h3
  exact hidK_real _ _ _ _ _ _ _ (agg_real ei _ (h2_real x ei w0 b0 wl bl wr hx hw0 hb0 hwl hbl hwr)) (invd_real ei)
    (h2_real x ei w0 b0 wl bl wr hx hw0 hb0 hwl hbl hwr) (wsl2_real wl hwl) (bsl2_real bl hbl) (wsl2_real wr hwr)
    (inp_real x w0 b0 hx hw0 hb0)

end layers

end Cert.KernelIdeal.RealProp

end
-- ==== Proof.Algebra.lean ====
/-
  Two laws of sums on the extended reals that join the two arrangements of a neighbourhood-averaging layer.

  A layer averages the rows of its neighbours and multiplies by a weight matrix. The average divides the neighbour sum
  by the (positive, finite) in-degree d. Dividing before the product or multiplying by 1/d after it is the same for EVERY
  extended-real neighbour sum, because a product with a nonnegative real distributes over a sum of extended reals
  (`scale_after_eq_divide_before`). Summing over the neighbours before the product with the weights or after it is the
  same when the summed rows and the weights are real numbers: a product with a real of either sign distributes over
  a sum of reals, but not over a sum that holds both infinities (`sum_proj_comm`).
-/
import Mathlib.Data.EReal.Operations
import Mathlib.Algebra.BigOperators.Fin
import Mathlib.Tactic.Ring
import Mathlib.Tactic.Choose
import Idealize.ShloMosaic.PureOps.Ideal
import proofs.«108666_j83519934038393_2_alg».proof.Proof.LibSoftmaxUnit

noncomputable section

namespace Cert.Algebra

open Idealize.ShloMosaic Idealize.ShloMosaic.SoftmaxUnit

/-- A product with a nonnegative real on the right distributes over a finite sum of extended reals. -/
theorem sum_mul_coe_nonneg {ι : Type*} (s : Finset ι) (a : ι → EReal) (r : ℝ) (hr : 0 ≤ r) :
    ∑ k ∈ s, a k * (r : EReal) = (∑ k ∈ s, a k) * (r : EReal) := by
  classical
  induction s using Finset.induction_on with
  | empty => simp
  | insert i s hi ih =>
    rw [Finset.sum_insert hi, Finset.sum_insert hi, ih,
      EReal.right_distrib_of_nonneg_of_ne_top (EReal.coe_nonneg.mpr hr) (EReal.coe_ne_top r)]

/-- Dividing every term by a positive real d before the product, or scaling the whole sum by 1/d after it. -/
theorem scale_after_eq_divide_before {K : Type*} [Fintype K] (S w : K → EReal) (d c : EReal) (r : ℝ) (hr : 0 < r)
    (hd : d = (r : EReal)) (hc : c = Ideal.div 1 d) :
    ∑ k, Ideal.div (S k) d * w k = (∑ k, S k * w k) * c := by
  subst hd
  rw [hc, Ideal.div_coe hr.ne', one_mul]
  simp only [Ideal.div_coe hr.ne']
  rw [← sum_mul_coe_nonneg _ _ _ (by positivity)]
  exact Finset.sum_congr rfl fun k _ => mul_right_comm _ _ _

/-- 1/d for a positive real d is a real. -/
theorem div_one_pos (d : EReal) (r : ℝ) (hr : 0 < r) (hd : d = (r : EReal)) : Ideal.div 1 d = ((1 / r : ℝ) : EReal) := by
  subst hd; rw [Ideal.div_coe hr.ne', one_mul]

/-- Summing real rows over a set of neighbours and then contracting with real weights, or contracting every row
    first and summing the results. -/
theorem sum_proj_comm {E K : Type*} [Fintype E] [Fintype K] (P : E → Prop) [DecidablePred P] (x : E → K → EReal)
    (w : K → EReal) (hx : ∀ e k, IsReal (x e k)) (hw : ∀ k, IsReal (w k)) :
    ∑ k, ((0 : EReal) + ∑ e, if P e then x e k else 0) * w k
      = (0 : EReal) + ∑ e, if P e then ∑ k, x e k * w k else 0 := by
  choose xr hxr using hx
  choose wr hwr using hw
  simp only [hxr, hwr, zero_add]
  have e1 : ∀ k, (∑ e, if P e then ((xr e k : ℝ) : EReal) else 0) = ((∑ e, if P e then xr e k else 0 : ℝ) : EReal) := by
    intro k
    rw [← coe_sum]
    refine Finset.sum_congr rfl fun e _ => ?_
    split <;> simp
  have e2 : ∀ e, (∑ k, ((xr e k : ℝ) : EReal) * ((wr k : ℝ) : EReal)) = ((∑ k, xr e k * wr k : ℝ) : EReal) := by
    intro e
    rw [← coe_sum]
    exact Finset.sum_congr rfl fun k _ => (EReal.coe_mul _ _).symm
  simp only [e1, e2]
  have e3 : (∑ k, ((∑ e, if P e then xr e k else 0 : ℝ) : EReal) * ((wr k : ℝ) : EReal))
      = ((∑ k, (∑ e, if P e then xr e k else 0) * wr k : ℝ) : EReal) := by
    rw [← coe_sum]
    exact Finset.sum_congr rfl fun k _ => (EReal.coe_mul _ _).symm
  have e4 : (∑ e, if P e then ((∑ k, xr e k * wr k : ℝ) : EReal) else 0)
      = ((∑ e, if P e then ∑ k, xr e k * wr k else 0 : ℝ) : EReal) := by
    rw [← coe_sum]
    refine Finset.sum_congr rfl fun e _ => ?_
    split <;> simp
  rw [e3, e4]
  congr 1
  simp only [Finset.sum_mul]
  rw [Finset.sum_comm]
  refine Finset.sum_congr rfl fun e _ => ?_
  by_cases h : P e <;> simp [h]

end Cert.Algebra

end
-- ==== Proof.LayerLaws.lean ====
/-
  The two arrangements of a layer are one function.

  A hidden layer divides the neighbour sum by the clamped in-degree before multiplying by the left weights (the
  reference) or multiplies first and scales the product by the reciprocal afterwards (the kernel): equal for every
  extended-real neighbour sum, the in-degree being a positive real. The last layer, in the kernel, projects the rows to the
  47 output columns BEFORE the neighbour sum: equal to summing first when the summed rows and the weights are real,
  which is asked here as the hypothesis that the two neighbour sums agree after the projection.
-/
import proofs.«108666_j83519934038393_2_alg».proof.Proof.Stages
import proofs.«108666_j83519934038393_2_alg».proof.Proof.Algebra

noncomputable section

namespace Cert.LayerLaws

open Idealize.ShloMosaic Idealize.ShloMosaic.ValueIdx
open Cert.Dense (Mat Row)
open Cert.Stages

variable {N : Nat}

/-- A hidden layer: dividing by d before the product is scaling by c = 1/d after it. -/
theorem hidR_eq_hidK (S : Mat N 128) (d : Row N) (c : Mat N 1) (h : Mat N 128) (wl : Mat 128 128) (bl : Row 128)
    (wr : Mat 128 128) (inp : Mat N 128)
    (hd : ∀ p : Fin N, ∃ r : ℝ, 0 < r ∧ d (ix1 p) = (r : EReal))
    (hc : ∀ p : Fin N, c (ix2 p (0 : Fin 1)) = Ideal.div 1 (d (ix1 p))) :
    hidR S d h wl bl wr inp = hidK S c h wl bl wr inp := by
  funext i
  obtain ⟨p, q, rfl⟩ : ∃ (p : Fin N) (q : Fin 128), i = ix2 p q := ⟨i 0, i 1, eq_ix2 i⟩
  obtain ⟨r, hr, hdr⟩ := hd p
  rw [hidR_apply, hidK_apply,
    Cert.Algebra.scale_after_eq_divide_before (fun k : Fin 128 => S (ix2 p k)) (fun k : Fin 128 => wl (ix2 k q))
      (d (ix1 p)) (c (ix2 p (0 : Fin 1))) r hr hdr (hc p)]

/-- The last layer: the scores from the divided neighbour sum S, projected, are the scores from the neighbour sum Z
    of the projected rows, scaled — when Z is S projected. -/
theorem logitsR_eq_logitsK (S : Mat N 128) (Z : Mat N 47) (d : Row N) (c : Mat N 1) (h : Mat N 128) (wl : Mat 128 47)
    (bl : Row 47) (wr : Mat 128 47)
    (hd : ∀ p : Fin N, ∃ r : ℝ, 0 < r ∧ d (ix1 p) = (r : EReal))
    (hc : ∀ p : Fin N, c (ix2 p (0 : Fin 1)) = Ideal.div 1 (d (ix1 p)))
    (hSZ : ∀ (p : Fin N) (q : Fin 47), ∑ k : Fin 128, S (ix2 p k) * wl (ix2 k q) = Z (ix2 p q)) :
    logitsR S d h wl bl wr = logitsK Z c h wr bl := by
  funext i
  obtain ⟨p, q, rfl⟩ : ∃ (p : Fin N) (q : Fin 47), i = ix2 p q := ⟨i 0, i 1, eq_ix2 i⟩
  obtain ⟨r, hr, hdr⟩ := hd p
  rw [logitsR_apply, logitsK_apply,
    Cert.Algebra.scale_after_eq_divide_before (fun k : Fin 128 => S (ix2 p k)) (fun k : Fin 128 => wl (ix2 k q))
      (d (ix1 p)) (c (ix2 p (0 : Fin 1))) r hr hdr (hc p), hSZ p q]

end Cert.LayerLaws

end
-- ==== Proof.Bridge.lean ====
/-
  The reference's result is the kernel program's.

  Layer by layer the reference's stages are the kernel program's named activations. The input projection and its
  rectification are the same sums. A hidden layer of the reference divides the neighbour sum by the clamped in-degree
  and then multiplies by the left weights; the kernel multiplies and then scales by the reciprocal: one function, the
  in-degree being a positive real. In the last layer the kernel projects the rows to the 47 output columns before the
  neighbour sum; the activations being real numbers (the inputs are finite, and every stage keeps real entries real),
  the sum over the neighbours and the sum over the 128 features may be exchanged. The row-wise log-softmax is then
  applied to equal scores.
-/
import proofs.«108666_j83519934038393_2_alg».proof.Proof.RefLayers
import proofs.«108666_j83519934038393_2_alg».proof.Proof.BridgeOps
import proofs.«108666_j83519934038393_2_alg».proof.Proof.KNames
import proofs.«108666_j83519934038393_2_alg».proof.Proof.AggIdx
import proofs.«108666_j83519934038393_2_alg».proof.Proof.RealProp
import proofs.«108666_j83519934038393_2_alg».proof.Proof.LayerLaws

set_option maxRecDepth 16384

noncomputable section

namespace Cert.Bridge

open Idealize.ShloMosaic Idealize.ShloMosaic.ValueIdx Idealize.ShloMosaic.SoftmaxUnit
open Cert.KernelIdeal.KVal
open Cert.Dense (Mat Row)

/-- Narrowing the neighbour sum to half precision changes nothing at exact values. -/
theorem agg_eq_aggF (ei : EdgeList) (h : Mat 100000 128) : agg ei h = aggF ei h := by
  funext i
  obtain ⟨p, k, rfl⟩ : ∃ (p : Fin 100000) (k : Fin 128), i = ix2 p k := ⟨i 0, i 1, eq_ix2 i⟩
  rw [Cert.KernelIdeal.AggIdx.agg_apply, Cert.KernelIdeal.AggIdx.aggF_apply]

/-- A hidden layer in the two arrangements, over one neighbour sum. -/
theorem hid_bridge (ei : EdgeList) (h inp : Mat 100000 128) (wl : Mat 128 128) (bl : Row 128) (wr : Mat 128 128) :
    Cert.Stages.hidR (N := 100000) (aggF ei h) (degc ei) h wl bl wr inp
      = Cert.Stages.hidK (N := 100000) (aggF ei h) (invd ei) h wl bl wr inp :=
  Cert.LayerLaws.hidR_eq_hidK (N := 100000) (aggF ei h) (degc ei) (invd ei) h wl bl wr inp
    (Cert.KernelIdeal.AggIdx.degc_pos ei) (Cert.KernelIdeal.AggIdx.invd_apply ei)

/-- The last layer in the two arrangements: the neighbour sum of real rows commutes with their projection. -/
theorem out_bridge (ei : EdgeList) (h : Mat 100000 128) (wlo : Mat 128 47) (blo : Row 47) (wro : Mat 128 47)
    (hh : ∀ i, IsReal (h i)) (hw : ∀ i, IsReal (wlo i)) :
    Cert.Stages.logitsR (N := 100000) (aggF ei h) (degc ei) h wlo blo wro
      = Cert.Stages.logitsK (N := 100000) (agg47 ei (Cert.Stages.proj (N := 100000) h wlo)) (invd ei) h wro blo :=
  Cert.LayerLaws.logitsR_eq_logitsK (N := 100000) (aggF ei h) (agg47 ei (Cert.Stages.proj (N := 100000) h wlo)) (degc ei) (invd ei) h wlo blo wro
    (Cert.KernelIdeal.AggIdx.degc_pos ei) (Cert.KernelIdeal.AggIdx.invd_apply ei) (fun p q => by
      rw [Cert.KernelIdeal.AggIdx.agg47_apply]
      simp only [Cert.KernelIdeal.AggIdx.aggF_apply, Cert.Stages.proj_apply]
      exact Cert.Algebra.sum_proj_comm (fun e : Fin 1600000 => (dstI ei (ix2 e 0)).toInt = (p.val : Int))
        (fun e k => h (ix2 (Cert.LibGatherRows.clampRow (N := 100000) (by decide) (srcI ei) e) k)) (fun k => wlo (ix2 k q))
        (fun e k => hh _) (fun k => hw _))

variable (x0 : Arr Cert.ReferenceIdeal.S100000x100) (x1 : ArrI Cert.ReferenceIdeal.S2x1600000) (x2 : Arr Cert.ReferenceIdeal.S100x128)
  (x3 : Arr Cert.ReferenceIdeal.S128) (x4 : Arr Cert.ReferenceIdeal.S3x128x128) (x5 : Arr Cert.ReferenceIdeal.S3x128)
  (x6 : Arr Cert.ReferenceIdeal.S3x128x128) (x7 : Arr Cert.ReferenceIdeal.S128x47) (x8 : Arr Cert.ReferenceIdeal.S47)
  (x9 : Arr Cert.ReferenceIdeal.S128x47)

theorem inp_eq : Cert.ReferenceIdeal.Read.val_main_v14 (F := Ideal) x0 x2 x3 = Cert.KernelIdeal.KNames.inp x0 x2 x3 := Cert.ReferenceIdeal.Layers.v14_eq x0 x2 x3

theorem h0_eq : Cert.ReferenceIdeal.Read.val_main_v15 (F := Ideal) x0 x2 x3 = Cert.KernelIdeal.KNames.h0 x0 x2 x3 := by
  rw [Cert.ReferenceIdeal.Layers.v15_eq, inp_eq]; rfl

theorem h1_eq : Cert.ReferenceIdeal.Read.val_main_v43 (F := Ideal) x0 x1 x2 x3 x4 x5 x6 = Cert.KernelIdeal.KNames.h1 x0 x1 x2 x3 x4 x5 x6 := by
  rw [Cert.ReferenceIdeal.Layers.v43_eq, agg1_eq, degc_eq, wl0_eq, bl0_eq, wr0_eq, h0_eq, inp_eq, hid_bridge, ← agg_eq_aggF]; rfl

theorem h2_eq : Cert.ReferenceIdeal.Read.val_main_v71 (F := Ideal) x0 x1 x2 x3 x4 x5 x6 = Cert.KernelIdeal.KNames.h2 x0 x1 x2 x3 x4 x5 x6 := by
  rw [Cert.ReferenceIdeal.Layers.v71_eq, agg2_eq, degc_eq, wl1_eq, bl1_eq, wr1_eq, h1_eq, inp_eq, hid_bridge, ← agg_eq_aggF]; rfl

theorem h3_eq : Cert.ReferenceIdeal.Read.val_main_v99 (F := Ideal) x0 x1 x2 x3 x4 x5 x6 = Cert.KernelIdeal.KNames.h3 x0 x1 x2 x3 x4 x5 x6 := by
  rw [Cert.ReferenceIdeal.Layers.v99_eq, agg3_eq, degc_eq, wl2_eq, bl2_eq, wr2_eq, h2_eq, inp_eq, hid_bridge, ← agg_eq_aggF]; rfl

/-- The reference's result is the kernel program's, for finite inputs. -/
theorem out_eq (hx0 : ∀ i, IsReal (x0 i)) (hx2 : ∀ i, IsReal (x2 i)) (hx3 : ∀ i, IsReal (x3 i)) (hx4 : ∀ i, IsReal (x4 i))
    (hx5 : ∀ i, IsReal (x5 i)) (hx6 : ∀ i, IsReal (x6 i)) (hx7 : ∀ i, IsReal (x7 i)) :
    Cert.ReferenceIdeal.Read.val_main_v118 (F := Ideal) x0 x1 x2 x3 x4 x5 x6 x7 x8 x9 = Cert.KernelIdeal.KNames.out x0 x1 x2 x3 x4 x5 x6 x7 x8 x9 := by
  rw [Cert.ReferenceIdeal.Layers.v118_eq, Cert.ReferenceIdeal.Layers.v117_eq, agg4_eq, degc_eq, h3_eq,
    out_bridge x1 (Cert.KernelIdeal.KNames.h3 x0 x1 x2 x3 x4 x5 x6) x7 x8 x9
      (Cert.KernelIdeal.RealProp.h3_real x0 x1 x2 x3 x4 x5 x6 hx0 hx2 hx3 hx4 hx5 hx6) hx7]
  rfl

end Cert.Bridge

end
-- ==== Proof.Finite.lean ====
/-
  Finite inputs are real: the precondition compares the absolute value of every entry of every float argument with +∞
  and takes the conjunction of all the comparisons; when it holds, every entry of each of the nine float arguments is
  a real number (neither infinity).  An extended real x with max(x, −x) < ⊤ is neither ⊥ (whose negation is ⊤) nor ⊤.
-/
import proofs.«108666_j83519934038393_2_alg».proof.Pre_finite_inputs
import proofs.«108666_j83519934038393_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws
import proofs.«108666_j83519934038393_2_alg».proof.Proof.LibSoftmaxUnit

noncomputable section

namespace Cert.Finite

open Idealize.ShloMosaic Idealize.ShloMosaic.ValueIdx Idealize.ShloMosaic.SoftmaxUnit
open Cert.Pre_finite_inputs

/-- The scalar shape has one index. -/
instance : Subsingleton (⟨0, ![]⟩ : Shape).Idx := ⟨fun a b => funext fun d => d.elim0⟩

/-- The f32 word of +∞ is the greatest extended real. -/
theorem ofBits_posInf : Ideal.ofBits .f32 0x7F800000#32 = (⊤ : EReal) := by simp [Ideal.ofBits, Ideal.ieee]

/-- An extended real whose absolute value max(x, −x) is below ⊤ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- One entry of the comparison |a| < +∞ (the +∞ a scalar constant broadcast over the array) being true says that
    entry of `a` is a real number. -/
theorem isReal_of_cmp {s : Shape} (a : FVec Ideal s .f32)
    (hb : (⟨0, ![]⟩ : Shape).BroadcastsInDim s (![] : Fin 0 → Fin s.rank)) (i : s.Idx)
    (h : cmpf .olt (Host.absf a)
        (broadcastInDim s ![] hb (constant (F := Ideal) (⟨0, ![]⟩ : Shape) .f32 0x7F800000#32)) i = 1#1) :
    IsReal (a i) := by
  have e : broadcastInDim s ![] hb (constant (F := Ideal) (⟨0, ![]⟩ : Shape) .f32 0x7F800000#32) i
      = Ideal.ofBits .f32 0x7F800000#32 :=
    broadcastInDim_apply _ hb _ i ix0 (fun d => d.elim0)
  have h' : Ideal.cmp .olt (max (a i) (-(a i)))
      (broadcastInDim s ![] hb (constant (F := Ideal) (⟨0, ![]⟩ : Shape) .f32 0x7F800000#32) i) = 1#1 := h
  rw [e, ofBits_posInf] at h'
  refine isReal_of_abs_lt_top (a i) ?_
  by_contra hn
  have h0 : Ideal.cmp .olt (max (a i) (-(a i))) ⊤ = 0#1 := by simp [Ideal.cmp, hn]
  rw [h0] at h'
  exact absurd h' (by decide)

/-- The conjunction of all the comparisons of one array, being true, says every entry of the array is real. -/
theorem allReal_of_reduce {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi (cmpf .olt (Host.absf a)
        (broadcastInDim s ![] hb (constant (F := Ideal) (⟨0, ![]⟩ : Shape) .f32 0x7F800000#32)))
        (constantI (⟨0, ![]⟩ : Shape) 1 1#1) hr hu ix0 = 1#1) :
    ∀ i, IsReal (a i) :=
  fun i => isReal_of_cmp a hb i (Host.reduce_andi_all _ _ hr hu ix0 h i)

/-- When the precondition holds at exact values, every entry of each of the nine float arguments is a real number. -/
theorem all_real (a0 : FVec Ideal S100000x100 .f32) (a1 : IVec S2x1600000 32) (a2 : FVec Ideal S100x128 .f32)
    (a3 : FVec Ideal S128 .f32) (a4 : FVec Ideal S3x128x128 .f32) (a5 : FVec Ideal S3x128 .f32)
    (a6 : FVec Ideal S3x128x128 .f32) (a7 : FVec Ideal S128x47 .f32) (a8 : FVec Ideal S47 .f32)
    (a9 : FVec Ideal S128x47 .f32)
    (h : Cert.Pre_finite_inputs.fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 := congrFun h ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨h0, h2⟩, h3⟩, h4⟩, h5⟩, h6⟩, h7⟩, h8⟩, h9⟩ := h0
  exact ⟨allReal_of_reduce a0 _ _ _ h0, allReal_of_reduce a2 _ _ _ h2, allReal_of_reduce a3 _ _ _ h3,
    allReal_of_reduce a4 _ _ _ h4, allReal_of_reduce a5 _ _ _ h5, allReal_of_reduce a6 _ _ _ h6,
    allReal_of_reduce a7 _ _ _ h7, allReal_of_reduce a8 _ _ _ h8, allReal_of_reduce a9 _ _ _ h9⟩

end Cert.Finite

end
-- ==== Proof.lean ====
/-
  The certificate of a four-layer neighbourhood-averaging graph network: the tiled kernel program against its
  whole-array reference, at exact (extended real) values, for finite inputs.

  N = 100000 nodes, E = 1600000 edges. Both programs project the node features (X·W + b), rectify, apply three hidden
  layers  h ↦ max(mean_nbr(h)·Wl + bl + h·Wr, 0) + 0.2·(X·W + b)  and an output layer  mean_nbr(h)·Wl + bl + h·Wr  followed by a
  row-wise log-softmax, where mean_nbr(h)[n] is the sum of h[src e] over the edges e with dst e = n divided by the
  in-degree of n clamped below by 1.

  The kernel program computes the dense part of every layer in blocks of 4000 rows (each block a function of its own rows
  only, the blocks tiling the arrays: Region0 … Region5), the neighbour sums by the same gather and scatter-add as the
  reference (BridgeOps), and differs from the reference in two arrangements:
   · it multiplies the neighbour sum by Wl first and scales by 1/deg afterwards — equal for every extended-real sum,
     a product with a nonnegative real distributing over sums (Algebra.scale_after_eq_divide_before);
   · in the output layer it multiplies h by Wl BEFORE the neighbour sum — equal because h and Wl are real-valued for
     finite inputs (Finite, RealProp), so that the sum over neighbours and the sum over features commute
     (Algebra.sum_proj_comm).
  The three frames are the programs' runs with the results dropped; the idealization rewrote nothing.
-/
import proofs.«108666_j83519934038393_2_alg».proof.Defs
import proofs.«108666_j83519934038393_2_alg».proof.Proof.Gen.Kernel
import proofs.«108666_j83519934038393_2_alg».proof.Proof.Gen.Kernel.Skeleton
import proofs.«108666_j83519934038393_2_alg».proof.Proof.Gen.Kernel.Launch
import proofs.«108666_j83519934038393_2_alg».proof.Proof.Gen.Kernel.Points
import proofs.«108666_j83519934038393_2_alg».proof.Proof.Gen.Kernel.Frame
import proofs.«108666_j83519934038393_2_alg».proof.Proof.Gen.KernelIdeal
import proofs.«108666_j83519934038393_2_alg».proof.Proof.Gen.KernelIdeal.Skeleton
import proofs.«108666_j83519934038393_2_alg».proof.Proof.Gen.KernelIdeal.Launch
import proofs.«108666_j83519934038393_2_alg».proof.Proof.Gen.KernelIdeal.Points
import proofs.«108666_j83519934038393_2_alg».proof.Proof.Gen.KernelIdeal.Frame
import proofs.«108666_j83519934038393_2_alg».proof.Proof.Gen.ReferenceIdeal
import proofs.«108666_j83519934038393_2_alg».proof.Proof.Gen.Pre_finite_inputs
import proofs.«108666_j83519934038393_2_alg».proof.Proof.KRun
import proofs.«108666_j83519934038393_2_alg».proof.Proof.KBound
import proofs.«108666_j83519934038393_2_alg».proof.Proof.RefRunOut
import proofs.«108666_j83519934038393_2_alg».proof.Proof.Bridge
import proofs.«108666_j83519934038393_2_alg».proof.Proof.Finite
import Idealize.ShloMosaic.Adequacy
import Idealize.ShloMosaic.Init

set_option maxRecDepth 16384

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunVal.run (F := Ideal) m ρ)

/-- The idealization rewrote no operation. -/
theorem preserves : Cert.preserves_Kernel_KernelIdeal := trivial

/-- Both programs end with the result at `out` of the arguments: the kernel program by its walk through the regions,
    the reference by its layers, the two being one function for finite inputs. -/
theorem algebraic : Cert.algebraic_KernelIdeal_ReferenceIdeal := by
  intro m ρ m' ρ' hpre hagree
  refine ⟨fun c => Cert.KernelIdeal.KBound.out m c, ?_, ?_⟩
  · exact (θ_run Cert.KernelIdeal.defs _ _).mono
      (fun r h c => ⟨(h c).1.trans (Cert.KernelIdeal.KBound.W11_v83 m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RunVal.run (F := Ideal) m' ρ')
    obtain ⟨e0, e1, e2, e3, e4, e5, e6, e7, e8, e9⟩ := hagree c
    obtain ⟨r0, r2, r3, r4, r5, r6, r7, r8, r9⟩ := Cert.Finite.all_real _ _ _ _ _ _ _ _ _ _ (hpre c)
    dsimp only [Cert.ReferenceIdeal.RunVal.X0, Cert.ReferenceIdeal.RunVal.X1, Cert.ReferenceIdeal.RunVal.X2, Cert.ReferenceIdeal.RunVal.X3,
      Cert.ReferenceIdeal.RunVal.X4, Cert.ReferenceIdeal.RunVal.X5, Cert.ReferenceIdeal.RunVal.X6, Cert.ReferenceIdeal.RunVal.X7,
      Cert.ReferenceIdeal.RunVal.X8, Cert.ReferenceIdeal.RunVal.X9]
    rw [e0, e1, e2, e3, e4, e5, e6, e7, e8, e9]
    exact Cert.Bridge.out_eq _ _ _ _ _ _ _ _ _ _ r0 r2 r3 r4 r5 r6 r7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
